-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  main_v18

def fn {F : FTy → Type} [FloatOps F] (main_arg0 : FVec F S2x2048x1024 .f32) (main_arg1 : FVec F S2x2048x1024 .f32) (main_arg2 : FVec F S3072x1024 .f32) (main_arg3 : FVec F S3072 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2048x1024 : Shape := ⟨2, ![2048, 1024]⟩
abbrev S1024x2048 : Shape := ⟨2, ![1024, 2048]⟩
abbrev S1x1024 : Shape := ⟨2, ![1, 1024]⟩
abbrev S2048 : Shape := ⟨1, ![2048]⟩
abbrev S1x2048 : Shape := ⟨2, ![1, 2048]⟩
abbrev S4096x1024 : Shape := ⟨2, ![4096, 1024]⟩
abbrev S512x1024 : Shape := ⟨2, ![512, 1024]⟩
abbrev S4096x2048 : Shape := ⟨2, ![4096, 2048]⟩
abbrev S512x2048 : Shape := ⟨2, ![512, 2048]⟩
abbrev S2x2048x2048 : Shape := ⟨3, ![2, 2048, 2048]⟩
abbrev S1x256x128 : Shape := ⟨3, ![1, 256, 128]⟩
abbrev S1x2048x128 : Shape := ⟨3, ![1, 2048, 128]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 25
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S3072x1024, .f32⟩
  | .hbm, ⟨3, _⟩ => ⟨S3072, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x1024, .bf16⟩
  | .hbm, ⟨12, _⟩ => ⟨S2048x1024, .f32⟩
  | .hbm, ⟨13, _⟩ => ⟨S1024x2048, .f32⟩
  | .hbm, ⟨14, _⟩ => ⟨S1024x2048, .bf16⟩
  | .hbm, ⟨15, _⟩ => ⟨S1x1024, .f32⟩
  | .hbm, ⟨16, _⟩ => ⟨S2048, .f32⟩
  | .hbm, ⟨17, _⟩ => ⟨S1x2048, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x2048, .bf16⟩
  | .hbm, ⟨22, _⟩ => ⟨S2x2048x1024, .bf16⟩
  | .hbm, ⟨23, _⟩ => ⟨S2x2048x2048, .bf16⟩
  | .hbm, ⟨24, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x2048, .bf16⟩
  | .local _ .vmem, ⟨9, _⟩ => ⟨S1x2048, .f32⟩
  | .local _ .vmem, ⟨10, _⟩ => ⟨S512x2048, .bf16⟩
  | .local _ .vmem, ⟨11, _⟩ => ⟨S512x2048, .bf16⟩
  | .local _ .vmem, ⟨12, _⟩ => ⟨S1x256x128, .bf16⟩
  | .local _ .vmem, ⟨13, _⟩ => ⟨S1x256x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x256x128, .f32⟩
  | .local _ .vmem, ⟨19, _⟩ => ⟨S1x256x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![2, 8, 8], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S1x256x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

class Facts₀ : Prop where
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  slices_S3072_S1024_0 : S3072.Slices ![0] S1024
  slices_S3072_S1024_1024 : S3072.Slices ![1024] S1024
  slices_S3072_S1024_2048 : S3072.Slices ![2048] S1024
  transposes_S1024x1024_S1024x1024_1_0 : S1024x1024.Transposes [1, 0] S1024x1024
  bitsLt_bf16_f32 : FTy.bits .bf16 < FTy.bits .f32
  concatenates_S1024x1024_S1024x1024_S2048x1024_d0 : Shape.Concatenates [S1024x1024, S1024x1024] S2048x1024 0
  transposes_S2048x1024_S1024x2048_1_0 : S2048x1024.Transposes [1, 0] S1024x2048
  shapeCasts_S1024_S1x1024 : S1024.ShapeCasts S1x1024
  concatenates_S1024_S1024_S2048_d0 : Shape.Concatenates [S1024, S1024] S2048 0
  shapeCasts_S2048_S1x2048 : S2048.ShapeCasts S1x2048
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  shapeCasts_S4096x1024_S2x2048x1024 : S4096x1024.ShapeCasts S2x2048x1024
  shapeCasts_S4096x2048_S2x2048x2048 : S4096x2048.ShapeCasts S2x2048x2048
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S256x128_o0_0_S256x64 : S256x128.Slices ![0, 0] S256x64
  slices_S256x128_o0_64_S256x64 : S256x128.Slices ![0, 64] S256x64
  slices_S2048x128_o0_0_S2048x64 : S2048x128.Slices ![0, 0] S2048x64
  slices_S2048x128_o0_64_S2048x64 : S2048x128.Slices ![0, 64] S2048x64
  reduces_S256x2048_S256 : S256x2048.Reduces [1] S256
  shapeCasts_S256_S256x1 : S256.ShapeCasts S256x1
  broadcasts_S256x1_S256x2048 : S256x1.Broadcasts S256x2048
  concatenates_S256x64_S256x64_S256x128_d1 : Shape.Concatenates [S256x64, S256x64] S256x128 1
  shapeCasts_S256x128_S1x256x128 : S256x128.ShapeCasts S1x256x128
  dot_S512x1024_S1024x1024_S512x1024_1_0_0_1_n_n_wf : DotDims.WF S512x1024 S1024x1024 S512x1024 [1] [0] [0] [1] [] []
  dot_S512x1024_S1024x2048_S512x2048_1_0_0_1_n_n_wf : DotDims.WF S512x1024 S1024x2048 S512x2048 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .bf16 = 32 ∨ (Rect.block (s := S1024x2048) S1024x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x2048.size a
  hwx1_3 : ∀ i : grid1.Coords, EltTy.bits .bf16 = 32 ∨ (Rect.block (s := S4096x2048) S512x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x128.size a ≤ S2x2048x1024.size a
  hwx2_0 : ∀ i : grid2.Coords, EltTy.bits .bf16 = 32 ∨ (Rect.block (s := S2x2048x1024) S1x256x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x128.size a ≤ S2x2048x2048.size a
  hwx2_1 : ∀ i : grid2.Coords, EltTy.bits .bf16 = 32 ∨ (Rect.block (s := S2x2048x2048) S1x2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x128.size a ≤ S2x2048x2048.size a
  hwx2_2 : ∀ i : grid2.Coords, EltTy.bits .bf16 = 32 ∨ (Rect.block (s := S2x2048x2048) S1x2048x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256x128.size a ≤ S2x2048x1024.size a
  hwx2_3 : ∀ i : grid2.Coords, EltTy.bits .f32 = 32 ∨ (Rect.block (s := S2x2048x1024) S1x256x128.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v14) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S1x256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1x2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x256x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S3072x1024, .f32⟩
  | .hbm, ⟨3, _⟩ => ⟨S3072, .f32⟩
  | .hbm, ⟨4, _⟩ => ⟨S1024x1024, .f32⟩
  | .hbm, ⟨5, _⟩ => ⟨S2x2048x1024, .f32⟩
  | .hbm, ⟨6, _⟩ => ⟨S1024, .f32⟩
  | .hbm, ⟨7, _⟩ => ⟨S1x1x1024, .f32⟩
  | .hbm, ⟨8, _⟩ => ⟨S2x2048x1024, .f32⟩
  | .hbm, ⟨9, _⟩ => ⟨S2x2048x1024, .f32⟩
  | .hbm, ⟨10, _⟩ => ⟨S1024x1024, .f32⟩
  | .hbm, ⟨11, _⟩ => ⟨S2x2048x1024, .f32⟩
  | .hbm, ⟨12, _⟩ => ⟨S1024, .f32⟩
  | .hbm, ⟨13, _⟩ => ⟨S1x1x1024, .f32⟩
  | .hbm, ⟨14, _⟩ => ⟨S2x2048x1024, .f32⟩
  | .hbm, ⟨15, _⟩ => ⟨S2x2048x1024, .f32⟩
  | .hbm, ⟨16, _⟩ => ⟨S1024x1024, .f32⟩
  | .hbm, ⟨17, _⟩ => ⟨S2x2048x1024, .f32⟩
  | .hbm, ⟨18, _⟩ => ⟨S1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x16x64, .f32⟩
  | .hbm, ⟨23, _⟩ => ⟨S2x16x2048x64, .f32⟩
  | .hbm, ⟨24, _⟩ => ⟨S2x2048x16x64, .f32⟩
  | .hbm, ⟨25, _⟩ => ⟨S2x16x2048x64, .f32⟩
  | .hbm, ⟨26, _⟩ => ⟨S2x2048x16x64, .f32⟩
  | .hbm, ⟨27, _⟩ => ⟨S2x16x2048x64, .f32⟩
  | .hbm, ⟨28, _⟩ => ⟨S2x16x2048x2048, .f32⟩
  | .hbm, ⟨29, _⟩ => ⟨S_, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S_, .f32⟩
  | .hbm, ⟨35, _⟩ => ⟨S2x16x2048, .f32⟩
  | .hbm, ⟨36, _⟩ => ⟨S2x16x2048, .f32⟩
  | .hbm, ⟨37, _⟩ => ⟨S2x16x2048x1, .f32⟩
  | .hbm, ⟨38, _⟩ => ⟨S2x16x2048x2048, .f32⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2x16x2048, .f32⟩
  | .hbm, ⟨43, _⟩ => ⟨S2x16x2048x1, .f32⟩
  | .hbm, ⟨44, _⟩ => ⟨S2x16x2048x2048, .f32⟩
  | .hbm, ⟨45, _⟩ => ⟨S2x16x2048x2048, .f32⟩
  | .hbm, ⟨46, _⟩ => ⟨S2x16x2048x64, .f32⟩
  | .hbm, ⟨47, _⟩ => ⟨S2x2048x16x64, .f32⟩
  | .hbm, ⟨48, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]

class Facts₀ : Prop where
  slices_S3072x1024_S1024x1024_0_0 : S3072x1024.Slices ![0, 0] S1024x1024
  slices_S3072_S1024_0 : S3072.Slices ![0] S1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  slices_S3072x1024_S1024x1024_1024_0 : S3072x1024.Slices ![1024, 0] S1024x1024
  slices_S3072_S1024_1024 : S3072.Slices ![1024] S1024
  slices_S3072x1024_S1024x1024_2048_0 : S3072x1024.Slices ![2048, 0] S1024x1024
  slices_S3072_S1024_2048 : S3072.Slices ![2048] S1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.BFrame0.lean ====
/-
  The frame of the first kernel region: what each grid point finds in its staging buffers, what the body leaves in them,
  and that the body, run on them, terminates without a fault.
-/
import proofs.«117626_j75986561401090_2_alg».proof.Proof.Gen.Kernel.Launch
import proofs.«117626_j75986561401090_2_alg».proof.Proof.Gen.Kernel.Skeleton
import proofs.«117626_j75986561401090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The query projection (the first kernel region), entered with the buffers at `V`

Each grid point takes one block of 512 rows of the flattened activations, the whole transposed weight and the whole
bias row, and stores one 512-row block of the projected rows. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or carried over
    from the last point that fetched it (the block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole of each staging buffer: what the body loads and what it stores. -/
abbrev rX0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0
abbrev rO0 : Rect S512x1024 := Rect.unit (s := S512x1024) ![0, 0] S512x1024.size inb_S512x1024_S512x1024_0_0

/-- The output staging buffer after the body: its one store, of the body's arithmetic on the three loaded blocks. -/
def out0_3 (x0 : Vec F S512x1024 .f32) (x1 : Vec F S1024x1024 .bf16) (x2 : Vec F S1x1024 .f32) : Vec F S512x1024 .bf16 :=
  View.canon [⟨rO0, k0_pay1 (View.ld x0 rX0) (View.ld x1 rW0) (View.ld x2 rB0)⟩]

/-- That store covers the buffer. -/
theorem cover0_3 (p0 : Vec F S512x1024 .bf16) (y : S512x1024.Idx) :
    ∃ pc ∈ ([⟨rO0, p0⟩] : List (View.Piece (Elt F) S512x1024 .bf16)), y ∈ pc.1.set :=
  View.cover_of_tiled [⟨rO0, p0⟩] S512x1024.size (by rfl) y

set_option maxHeartbeats 1000000 in
/-- The body on whole staging memrefs, the inputs' at `x0 x1 x2` and the output's at anything: it runs to its end, leaves
    the inputs as they were and the output at `out0_3` of them. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .bf16) (harg4 : arg4.IsWhole)
    (x0 : Vec F S512x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data: the arrays as the region finds them; after the body each input's buffer at its block and
    the output's at `out0_3` of the input blocks; the scoped rest and the generator register untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.BFrame1.lean ====
/-
  The frame of the second kernel region: what each grid point finds in its staging buffers, what the body leaves in
  them, and that the body, run on them, terminates without a fault.
-/
import proofs.«117626_j75986561401090_2_alg».proof.Proof.Gen.Kernel.Launch
import proofs.«117626_j75986561401090_2_alg».proof.Proof.Gen.Kernel.Skeleton
import proofs.«117626_j75986561401090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The key and value projection (the second kernel region), entered with the buffers at `V`

Each grid point takes one block of 512 rows of the flattened activations, the whole transposed weight and the whole
bias row, and stores one 512-row block of the projected rows. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or carried over
    from the last point that fetched it (the block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole of each staging buffer: what the body loads and what it stores. -/
abbrev rX1 : Rect S512x1024 := Rect.unit (s := S512x1024) ![0, 0] S512x1024.size inb_S512x1024_S512x1024_0_0
abbrev rW1 : Rect S1024x2048 := Rect.unit (s := S1024x2048) ![0, 0] S1024x2048.size inb_S1024x2048_S1024x2048_0_0
abbrev rB1 : Rect S1x2048 := Rect.unit (s := S1x2048) ![0, 0] S1x2048.size inb_S1x2048_S1x2048_0_0
abbrev rO1 : Rect S512x2048 := Rect.unit (s := S512x2048) ![0, 0] S512x2048.size inb_S512x2048_S512x2048_0_0

/-- The output staging buffer after the body: its one store, of the body's arithmetic on the three loaded blocks. -/
def out1_3 (x0 : Vec F S512x1024 .f32) (x1 : Vec F S1024x2048 .bf16) (x2 : Vec F S1x2048 .f32) : Vec F S512x2048 .bf16 :=
  View.canon [⟨rO1, k1_pay1 (View.ld x0 rX1) (View.ld x1 rW1) (View.ld x2 rB1)⟩]

/-- That store covers the buffer. -/
theorem cover1_3 (p0 : Vec F S512x2048 .bf16) (y : S512x2048.Idx) :
    ∃ pc ∈ ([⟨rO1, p0⟩] : List (View.Piece (Elt F) S512x2048 .bf16)), y ∈ pc.1.set :=
  View.cover_of_tiled [⟨rO1, p0⟩] S512x2048.size (by rfl) y

set_option maxHeartbeats 1000000 in
/-- The body on whole staging memrefs, the inputs' at `x0 x1 x2` and the output's at anything: it runs to its end, leaves
    the inputs as they were and the output at `out1_3` of them. -/
theorem sound_kernel1 (c : Dev nD) (E : Set ℕ) (i : grid1.Coords)
    (arg1 : Memref sig .tc .vmem S512x1024 .f32) (harg1 : arg1.IsWhole) (arg2 : Memref sig .tc .vmem S1024x2048 .bf16) (harg2 : arg2.IsWhole)
    (arg3 : Memref sig .tc .vmem S1x2048 .f32) (harg3 : arg3.IsWhole) (arg4 : Memref sig .tc .vmem S512x2048 .bf16) (harg4 : arg4.IsWhole)
    (x0 : Vec F S512x1024 .f32) (x1 : Vec F S1024x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data: the arrays as the region finds them; after the body each input's buffer at its block and
    the output's at `out1_3` of the input blocks; the scoped rest and the generator register untouched; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.BFrame2.lean ====
/-
  The frame of the third kernel region: what each grid point finds in its staging buffers, what the body leaves in them,
  and that the body, run on them, terminates without a fault.
-/
import proofs.«117626_j75986561401090_2_alg».proof.Proof.Gen.Kernel.Launch
import proofs.«117626_j75986561401090_2_alg».proof.Proof.Gen.Kernel.Skeleton
import proofs.«117626_j75986561401090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The attention region (the third kernel region), entered with the buffers at `V`

Each grid point (batch entry, pair of heads, block of 256 query rows) takes the 256 × 128 block of scaled queries of the
pair, the 2048 × 128 block of keys of the pair and the 2048 × 128 block of values of the pair — the last two are blocks
of ONE array, read through two windows — and stores the 256 × 128 block of results. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether fetched there or carried over
    from the last point that fetched it (the block index has not moved since). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole of each staging buffer: what the body loads and what it stores. -/
abbrev rX2 : Rect S1x256x128 := Rect.unit (s := S1x256x128) ![0, 0, 0] S1x256x128.size inb_S1x256x128_S1x256x128_0_0_0
abbrev rW2 : Rect S1x2048x128 := Rect.unit (s := S1x2048x128) ![0, 0, 0] S1x2048x128.size inb_S1x2048x128_S1x2048x128_0_0_0
abbrev rB2 : Rect S1x2048x128 := Rect.unit (s := S1x2048x128) ![0, 0, 0] S1x2048x128.size inb_S1x2048x128_S1x2048x128_0_0_0
abbrev rO2 : Rect S1x256x128 := Rect.unit (s := S1x256x128) ![0, 0, 0] S1x256x128.size inb_S1x256x128_S1x256x128_0_0_0

/-- The output staging buffer after the body: its one store, of the body's arithmetic on the three loaded blocks. -/
def out2_3 (x0 : Vec F S1x256x128 .bf16) (x1 : Vec F S1x2048x128 .bf16) (x2 : Vec F S1x2048x128 .bf16) : Vec F S1x256x128 .f32 :=
  View.canon [⟨rO2, k2_pay1 (View.ld x0 rX2) (View.ld x1 rW2) (View.ld x2 rB2)⟩]

/-- That store covers the buffer. -/
theorem cover2_3 (p0 : Vec F S1x256x128 .f32) (y : S1x256x128.Idx) :
    ∃ pc ∈ ([⟨rO2, p0⟩] : List (View.Piece (Elt F) S1x256x128 .f32)), y ∈ pc.1.set :=
  View.cover_of_tiled [⟨rO2, p0⟩] S1x256x128.size (by rfl) y

set_option maxHeartbeats 1000000 in
/-- The body on whole staging memrefs, the inputs' at `x0 x1 x2` and the output's at anything: it runs to its end, leaves
    the inputs as they were and the output at `out2_3` of them. -/
theorem sound_kernel2 (c : Dev nD) (E : Set ℕ) (i : grid2.Coords)
    (arg1 : Memref sig .tc .vmem S1x256x128 .bf16) (harg1 : arg1.IsWhole) (arg2 : Memref sig .tc .vmem S1x2048x128 .bf16) (harg2 : arg2.IsWhole)
    (arg3 : Memref sig .tc .vmem S1x2048x128 .bf16) (harg3 : arg3.IsWhole) (arg4 : Memref sig .tc .vmem S1x256x128 .f32) (harg4 : arg4.IsWhole)
    (x0 : Vec F S1x256x128 .bf16) (x1 : Vec F S1x2048x128 .bf16) (x2 : Vec F S1x2048x128 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__attn_kernel i arg1 harg1 arg2 harg2 arg3 harg3 arg4 harg4) K := by
  simp only [cc2__attn_kernel_eq_skeleton]; unfold cc2__attn_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data: the arrays as the region finds them; after the body each input's buffer at its block and
    the output's at `out2_3` of the input blocks; the scoped rest and the generator register untouched; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q w := match w with
    | ⟨1, _⟩ => (fullShare : PosShare TreeShare).left
    | ⟨2, _⟩ => (fullShare : PosShare TreeShare).right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.BRun.lean ====
/-
  The run of the whole program: the buffers' contents at each boundary between its host stretches and its three kernel
  regions, and each region as a segment entered from the contents before it and left at the contents after it.
-/
import proofs.«117626_j75986561401090_2_alg».proof.Proof.Gen.Kernel.Launch
import proofs.«117626_j75986561401090_2_alg».proof.Proof.Gen.Kernel.Skeleton
import proofs.«117626_j75986561401090_2_alg».proof.Proof.Gen.Kernel.Points
import proofs.«117626_j75986561401090_2_alg».proof.Proof.BFrame0
import proofs.«117626_j75986561401090_2_alg».proof.Proof.BFrame1
import proofs.«117626_j75986561401090_2_alg».proof.Proof.BFrame2
import proofs.«117626_j75986561401090_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

/-! ## The buffers' contents at each boundary -/

/-- Core `c`'s buffers at launch. -/
abbrev B0 : Dev nD → Valuation τ sig (Elt F) := fun c b => m ((c : Dev nD), b)
/-- After the first host stretch (the slices, transposes and reshapes of the arguments): the first region's entry. -/
abbrev B1 : Dev nD → Valuation τ sig (Elt F) := fun c => StableHlo.after hostOps0 (B0 m c)
abbrev T1 : (c : Dev nD) → (b : Ref sig .tc) → Buf (Elt F) ((c : Thread nD τ).loc b) := fun c b => B1 m c b
/-- After the first region: its output array at what its write-backs leave, every other buffer as entered. -/
def B2 (c : Dev nD) : Valuation τ sig (Elt F) :=
  Pipeline.withArrays spec0 c (B1 m c) fun w => (dat0 (T1 m) c).arrAt w cfg0.N
theorem B2_arr (c : Dev nD) (w : Fin cfg0.W) :
    B2 m c (Proc.devRef .tc (Pipeline.arrRef spec0 w)) = (dat0 (T1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev T2 : (c : Dev nD) → (b : Ref sig .tc) → Buf (Elt F) ((c : Thread nD τ).loc b) := fun c b => B2 m c b
theorem hF0 (c : Dev nD) (w : Fin cfg0.W) : (dat0 (T1 m) c).arrAt w cfg0.N = T2 m c (Pipeline.arrRef spec0 w) :=
  (B2_arr m c w).symm
theorem hrest0 (c : Dev nD) : ∀ b, b ∉ Finset.univ.image (Pipeline.arrRef spec0) → T2 m c b = T1 m c b :=
  fun b hb => B2_of_ne m c b fun w e => hb (Finset.mem_image.mpr ⟨w, Finset.mem_univ _, e⟩)

/-- After the second region. -/
def B3 (c : Dev nD) : Valuation τ sig (Elt F) :=
  Pipeline.withArrays spec1 c (B2 m c) fun w => (dat1 (T2 m) c).arrAt w cfg1.N
theorem B3_arr (c : Dev nD) (w : Fin cfg1.W) :
    B3 m c (Proc.devRef .tc (Pipeline.arrRef spec1 w)) = (dat1 (T2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev T3 : (c : Dev nD) → (b : Ref sig .tc) → Buf (Elt F) ((c : Thread nD τ).loc b) := fun c b => B3 m c b
theorem hF1 (c : Dev nD) (w : Fin cfg1.W) : (dat1 (T2 m) c).arrAt w cfg1.N = T3 m c (Pipeline.arrRef spec1 w) :=
  (B3_arr m c w).symm
theorem hrest1 (c : Dev nD) : ∀ b, b ∉ Finset.univ.image (Pipeline.arrRef spec1) → T3 m c b = T2 m c b :=
  fun b hb => B3_of_ne m c b fun w e => hb (Finset.mem_image.mpr ⟨w, Finset.mem_univ _, e⟩)

/-- After the second host stretch (the two reshapes of the projected arrays): the third region's entry. -/
abbrev B4 : Dev nD → Valuation τ sig (Elt F) := fun c => StableHlo.after hostOps2 (B3 m c)
abbrev T4 : (c : Dev nD) → (b : Ref sig .tc) → Buf (Elt F) ((c : Thread nD τ).loc b) := fun c b => B4 m c b

/-! ## The proof data of the three regions, each at its entry contents -/

abbrev admK : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) admK p) c
  | ⟨0, _⟩ => fun c => dat0 (T1 m) c
  | ⟨1, _⟩ => fun c => dat1 (T2 m) c
  | ⟨2, _⟩ => fun c => dat2 (T4 m) c
abbrev 𝒱K : Variants := Variants.none
abbrev LK : GSem nD τ sig → Finset Unit := fun _ => ∅
abbrev lvK : GSem nD τ sig → Unit → ℕ := fun _ _ => 0
/-- What rides beside the buffers through every segment: the generator register at some state, and nothing owed. -/
abbrev RK (c : Dev nD) : sProp 𝕄 := iprop((∃ r, prngReg c r) ∗ ∃ W, owes (c : Thread nD τ) (0 : CellTallies nD τ sig Unit) W)

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor

/-- A host stretch as a segment, from the contents `W`, `RK` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK

set_option backward.isDefEq.respectTransparency.types false in
/-- Region 0 over the thread state: entered with every unscoped buffer at `B1`, left with them at `B2`. Its
    arrays are split out of the unscoped buffers at entry and put back, at what the write-backs leave, at exit; the
    generator register goes into the region's invariant and comes back; nothing is owed; the kernel has no semaphore
    of its own. -/
def reg0 : Pipeline.RegionSeg (pcfgs (F := F)) admK (pdats m) () defs₀ 𝒱K LK lvK 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ LK lvK 0 fun _ _ => rfl
  pre c := iprop(StableHlo.held (c : Thread nD τ) (Pipeline.ucRefs τ sig) (B1 m c) ∗ RK c)
  post c := iprop(StableHlo.held (c : Thread nD τ) (Pipeline.ucRefs τ sig) (B2 m c) ∗ RK c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B2`, left with them at `B3`. Its
    arrays are split out of the unscoped buffers at entry and put back, at what the write-backs leave, at exit; the
    generator register goes into the region's invariant and comes back; nothing is owed; the kernel has no semaphore
    of its own. -/
def reg1 : Pipeline.RegionSeg (pcfgs (F := F)) admK (pdats m) () defs₀ 𝒱K LK lvK 1 where
  win := launch1.win.to₀
  block_pos := launch1.block_pos
  stage_whole := launch1.stage_whole
  K := PEmpty
  osem k := k.elim
  ho := Pipeline.OwnSemFacts.none _
  hbody c := (body_obligation1 (T2 m) c).loose
  hwaits := Pipeline.hwaits_of_owed_zero _ _ _ _ LK lvK 1 fun _ _ => rfl
  pre c := iprop(StableHlo.held (c : Thread nD τ) (Pipeline.ucRefs τ sig) (B2 m c) ∗ RK c)
  post c := iprop(StableHlo.held (c : Thread nD τ) (Pipeline.ucRefs τ sig) (B3 m c) ∗ RK c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := Pipeline.arrays_of_unscopedBufs (p := 1) (pcfgs (F := F)) admK (pdats m) launch1.win launch1.arr_whole c
      ((pdats m 1 c).share_full fun _ => rfl) (T2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (T2 m c) (T3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the third region: the result array at what its write-backs leave, every other buffer as entered. -/
def B5 (c : Dev nD) : Valuation τ sig (Elt F) :=
  Function.update (B4 m c) (Proc.devRef .tc main_v20) ((dat2 (T4 m) c).arrAt 3 cfg2.N)
abbrev T5 : (c : Dev nD) → (b : Ref sig .tc) → Buf (Elt F) ((c : Thread nD τ).loc b) := fun c b => B5 m c b
theorem B5_out (c : Dev nD) : B5 m c (Proc.devRef .tc main_v20) = (dat2 (T4 m) c).arrAt 3 cfg2.N := by
  unfold B5; exact Function.update_self _ _ _
theorem B5_of_ne (c : Dev nD) (b : Ref sig .tc) (hb : b ≠ main_v20) : B5 m c (Proc.devRef .tc b) = B4 m c (Proc.devRef .tc b) := by
  unfold B5; exact Function.update_of_ne (StableHlo.devRef_ne_of_ne hb) _ _

theorem img2 : Finset.univ.image (Pipeline.arrRef spec2) = ({main_v18, main_v19, main_v20} : Finset (Ref sig .tc)) := by decide

set_option backward.isDefEq.respectTransparency.types false in
/-- ENTRY of the third region: the three distinct buffers behind its four windows, each whole at the full share, are the
    region's arrays — the array that the key window and the value window both read is dealt to them as the two halves
    of its share. -/
theorem split2 (c : Dev nD) :
    (unscopedBufs c (T4 m c) : sProp 𝕄) ⊢ iprop((pdats m 2 c).arrays ((pdats m 2 c).arrAt · 0)
        ∗ Pipeline.unscopedRest (Ix := Unit) (Name := ℕ) (U := UR sig nD τ) (Lvl := ℕ) spec2 c (T4 m c)) := by
  rw [Pipeline.unscopedBufs_split₀ cfgs 2 winFacts₀2.arr_unscoped c (T4 m c)]
  refine sep_mono ?_ .rfl
  unfold Pipeline.arrBufs Pipeline.Dat.arrays
  show (bigSep (Finset.univ.image (Pipeline.arrRef spec2)) fun b : Ref sig .tc => (((c : Thread nD τ).loc b) ↦{fullShare} T4 m c b : sProp 𝕄))
     ⊢ bigSep (Finset.univ : Finset (Fin 4)) fun w => ((cfg2.win w).arr.view.loc (c : Thread nD τ) ↦[(cfg2.win w).arr.view.set]{(dat2 (T4 m) c).share w} (dat2 (T4 m) c).arrAt w 0 : sProp 𝕄)
  rw [img2, bigSep_insert (by decide), bigSep_insert (by decide), bigSep_singleton, bigSep_W2]
  rw [(arr_whole2 0).set_eq_univ, (arr_whole2 1).set_eq_univ, (arr_whole2 3).set_eq_univ]
  show (iprop((((c : Thread nD τ).loc main_v18) ↦{fullShare} T4 m c main_v18) ∗ (((c : Thread nD τ).loc main_v19) ↦{fullShare} T4 m c main_v19)
      ∗ (((c : Thread nD τ).loc main_v20) ↦{fullShare} T4 m c main_v20)) : sProp 𝕄) ⊢ _
  have hs : ((((c : Thread nD τ).loc main_v19) ↦{fullShare} T4 m c main_v19 : sProp 𝕄))
      ⊢ iprop((((c : Thread nD τ).loc main_v19) ↦{(fullShare : PosShare TreeShare).left} T4 m c main_v19)
          ∗ (((c : Thread nD τ).loc main_v19) ↦{(fullShare : PosShare TreeShare).right} T4 m c main_v19)) :=
    (pointsTo_share (PosShare.mem_left_op_right fullShare)).1
  iintro ⟨H18, H19, H20⟩
  ihave H := hs $$ H19
  icases H with ⟨Hl, Hr⟩
  isplitl [H18]; · iexact H18
  isplitl [Hl]; · iexact Hl
  isplitl [Hr]; · iexact Hr
  iexact H20

set_option backward.isDefEq.respectTransparency.types false in
/-- EXIT of the third region: its arrays after the write-backs — the three inputs as entered, the two halves of the
    shared array's share put together again, the output at what the write-backs leave — and the rest are the core's
    unscoped buffers at the contents after the region. -/
theorem join2 (c : Dev nD) :
    iprop((pdats m 2 c).arrays ((pdats m 2 c).arrAt · cfg2.N)
        ∗ Pipeline.unscopedRest (Ix := Unit) (Name := ℕ) (U := UR sig nD τ) (Lvl := ℕ) spec2 c (T4 m c))
      ⊢ (unscopedBufs c (T5 m c) : sProp 𝕄) := by
  rw [Pipeline.unscopedBufs_split₀ cfgs 2 winFacts₀2.arr_unscoped c (T5 m c)]
  refine sep_mono ?_ (Entails.of_eq ?_)
  · unfold Pipeline.arrBufs Pipeline.Dat.arrays
    show (bigSep (Finset.univ : Finset (Fin 4)) fun w => ((cfg2.win w).arr.view.loc (c : Thread nD τ) ↦[(cfg2.win w).arr.view.set]{(dat2 (T4 m) c).share w} (dat2 (T4 m) c).arrAt w cfg2.N : sProp 𝕄))
      ⊢ bigSep (Finset.univ.image (Pipeline.arrRef spec2)) fun b : Ref sig .tc => (((c : Thread nD τ).loc b) ↦{fullShare} T5 m c b : sProp 𝕄)
    rw [img2, bigSep_insert (by decide), bigSep_insert (by decide), bigSep_singleton, bigSep_W2]
    rw [(arr_whole2 0).set_eq_univ, (arr_whole2 1).set_eq_univ, (arr_whole2 3).set_eq_univ]
    rw [(dat2 (T4 m) c).arrAt_in 0 rfl, (dat2 (T4 m) c).arrAt_in 1 rfl, (dat2 (T4 m) c).arrAt_in 2 rfl]
    rw [show T5 m c main_v18 = T4 m c main_v18 from B5_of_ne m c main_v18 (by decide),
      show T5 m c main_v19 = T4 m c main_v19 from B5_of_ne m c main_v19 (by decide),
      show T5 m c main_v20 = (dat2 (T4 m) c).arrAt 3 cfg2.N from B5_out m c]
    show _ ⊢ (iprop((((c : Thread nD τ).loc main_v18) ↦{fullShare} T4 m c main_v18) ∗ (((c : Thread nD τ).loc main_v19) ↦{fullShare} T4 m c main_v19)
      ∗ (((c : Thread nD τ).loc main_v20) ↦{fullShare} (dat2 (T4 m) c).arrAt 3 cfg2.N)) : sProp 𝕄)
    have hj : iprop((((c : Thread nD τ).loc main_v19) ↦{(fullShare : PosShare TreeShare).left} T4 m c main_v19)
          ∗ (((c : Thread nD τ).loc main_v19) ↦{(fullShare : PosShare TreeShare).right} T4 m c main_v19))
        ⊢ ((((c : Thread nD τ).loc main_v19) ↦{fullShare} T4 m c main_v19 : sProp 𝕄)) :=
      (pointsTo_share (PosShare.mem_left_op_right fullShare)).2
    iintro ⟨H18, Hl, Hr, H20⟩
    isplitl [H18]; · iexact H18
    isplitl [Hl Hr]
    · iapply hj
      isplitl [Hl]; · iexact Hl
      iexact Hr
    iexact H20
  · unfold Pipeline.unscopedRest
    exact bigSep_congr fun b hb => by
      rw [show T5 m c b = T4 m c b from B5_of_ne m c b (fun e => (Finset.mem_sdiff.mp hb).2 (by
        rw [e]; exact Finset.mem_image.mpr ⟨3, Finset.mem_univ _, rfl⟩))]

/-- The last thread state without what the core owes: every unscoped buffer at the end contents, the generator register
    at some state. -/
abbrev TN (c : Dev nD) : sProp 𝕄 := iprop(StableHlo.held (c : Thread nD τ) (Pipeline.ucRefs τ sig) (B5 m c) ∗ ∃ r, prngReg c r)

set_option backward.isDefEq.respectTransparency.types false in
/-- Region 2 over the thread state: entered with every unscoped buffer at `B4`, left with them at `B5`. Two of its windows
    read one array, so its arrays are split out of the unscoped buffers and put back by `split2` and `join2`. -/
def reg2 : Pipeline.RegionSeg (pcfgs (F := F)) admK (pdats m) () defs₀ 𝒱K LK lvK 2 where
  win := winFacts₀2
  block_pos := block_pos2
  stage_whole := stage_whole2
  K := PEmpty
  osem k := k.elim
  ho := Pipeline.OwnSemFacts.none _
  hbody c := (body_obligation2 (T4 m) c).loose
  hwaits := Pipeline.hwaits_of_owed_zero _ _ _ _ LK lvK 2 fun _ _ => rfl
  pre c := iprop(StableHlo.held (c : Thread nD τ) (Pipeline.ucRefs τ sig) (B4 m c) ∗ RK c)
  post c := iprop(TN m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T4 m c)
  hentry c := by
    rw [Pipeline.ownSems0_none]
    have hsplit := split2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := join2 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

/-- The program's five segments in order. -/
abbrev segsK : List (Pipeline.Seg (pcfgs (F := F)) admK (pdats m) () defs₀ 𝒱K LK lvK) :=
  [ .host (hseg hostOps0 hostOps0_sub ops0_fresh (B0 m)),
    .region (reg0 m),
    .region (reg1 m),
    .host (hseg hostOps2 hostOps2_sub ops2_fresh (B3 m)),
    .region (reg2 m) ]
theorem main_run (c : Dev nD) : main (F := F) c = Pipeline.Seg.run (segsK m) := (main_chain c).trans (by chain_rfl)

set_option backward.isDefEq.respectTransparency.types false in
/-- THE RUN, at any float instance: from any memory with zero counters, every weakly fair execution of the program
    terminates, nothing faulting, and every final state holds each unscoped buffer at the end contents `B5`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) admK (pdats m) () cellOf_inj emb₁ defs₀ 𝒱K LK lvK m ρ main (segsK m)
    (fun c Q => by rw [main_run m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RK c)) (Tₙ := TN m)
    (hch := ⟨fun _ => .rfl, fun _ => .rfl, fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c => h c)

/-! ## The arguments end as launched, and the result's end contents -/

/-- A buffer that no host stretch writes and that is no output of a region holds at the end what it held at launch. -/
theorem B5_kept (c : Dev nD) (r : Ref sig .tc) (h0 : r ∉ hostOps0_W) (h2 : r ∉ hostOps2_W)
    (hw0 : ∀ w, Pipeline.arrRef spec0 w ≠ r) (hw1 : ∀ w, Pipeline.arrRef spec1 w ≠ r) (hne : r ≠ main_v20) :
    B5 m c (Proc.devRef .tc r) = m ((c : Thread nD τ).loc r) :=
  (B5_of_ne m c r hne).trans <| (StableHlo.after_of_writes_sub hostOps2 _ hostOps2_writes h2).trans <|
    (B3_of_ne m c r hw1).trans <| (B2_of_ne m c r hw0).trans <|
    (StableHlo.after_of_writes_sub hostOps0 _ hostOps0_writes h0).trans rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float instance: the program runs to its end, nothing faulting, and every argument array ends as
    launched; and the result array ends at what the third region's write-backs leave. -/
theorem run_result (ρ : Dev nD → PrngReg) : θ_run defs (onTc (τ := τ) (main (F := F))) ⟨m, fun _ => 0, ρ⟩ (fun r => ∀ c : Dev nD,
      r.2.mem ((c.tc : Thread nD τ).loc main_v20) = (dat2 (T4 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v20 (by decide))).trans (B5_out m c),
     (h c _ (mem_uc main_arg0 (by decide))).trans (B5_kept m c main_arg0 (by decide) (by decide) (by decide) (by decide) (by decide)),
     (h c _ (mem_uc main_arg1 (by decide))).trans (B5_kept m c main_arg1 (by decide) (by decide) (by decide) (by decide) (by decide)),
     (h c _ (mem_uc main_arg2 (by decide))).trans (B5_kept m c main_arg2 (by decide) (by decide) (by decide) (by decide) (by decide)),
     (h c _ (mem_uc main_arg3 (by decide))).trans (B5_kept m c main_arg3 (by decide) (by decide) (by decide) (by decide) (by decide))⟩)
    (run_all m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.Kernel.Frame

end
-- ==== Proof.KFrame0.lean ====
/-
  The frame of the first kernel region: what each grid point finds in its staging buffers, what the body leaves in them,
  and that the body, run on them, terminates without a fault.
-/
import proofs.«117626_j75986561401090_2_alg».proof.Proof.Gen.KernelIdeal.Launch
import proofs.«117626_j75986561401090_2_alg».proof.Proof.Gen.KernelIdeal.Skeleton
import proofs.«117626_j75986561401090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The query projection (the first kernel region), entered with the buffers at `V`

Each grid point takes one block of 512 rows of the flattened activations, the whole transposed weight and the whole
bias row, and stores one 512-row block of the projected rows. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or carried over
    from the last point that fetched it (the block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole of each staging buffer: what the body loads and what it stores. -/
abbrev rX0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0
abbrev rO0 : Rect S512x1024 := Rect.unit (s := S512x1024) ![0, 0] S512x1024.size inb_S512x1024_S512x1024_0_0

/-- The output staging buffer after the body: its one store, of the body's arithmetic on the three loaded blocks. -/
def out0_3 (x0 : Vec F S512x1024 .f32) (x1 : Vec F S1024x1024 .bf16) (x2 : Vec F S1x1024 .f32) : Vec F S512x1024 .bf16 :=
  View.canon [⟨rO0, k0_pay1 (View.ld x0 rX0) (View.ld x1 rW0) (View.ld x2 rB0)⟩]

/-- That store covers the buffer. -/
theorem cover0_3 (p0 : Vec F S512x1024 .bf16) (y : S512x1024.Idx) :
    ∃ pc ∈ ([⟨rO0, p0⟩] : List (View.Piece (Elt F) S512x1024 .bf16)), y ∈ pc.1.set :=
  View.cover_of_tiled [⟨rO0, p0⟩] S512x1024.size (by rfl) y

set_option maxHeartbeats 1000000 in
/-- The body on whole staging memrefs, the inputs' at `x0 x1 x2` and the output's at anything: it runs to its end, leaves
    the inputs as they were and the output at `out0_3` of them. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .bf16) (harg4 : arg4.IsWhole)
    (x0 : Vec F S512x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data: the arrays as the region finds them; after the body each input's buffer at its block and
    the output's at `out0_3` of the input blocks; the scoped rest and the generator register untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KFrame1.lean ====
/-
  The frame of the second kernel region: what each grid point finds in its staging buffers, what the body leaves in
  them, and that the body, run on them, terminates without a fault.
-/
import proofs.«117626_j75986561401090_2_alg».proof.Proof.Gen.KernelIdeal.Launch
import proofs.«117626_j75986561401090_2_alg».proof.Proof.Gen.KernelIdeal.Skeleton
import proofs.«117626_j75986561401090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The key and value projection (the second kernel region), entered with the buffers at `V`

Each grid point takes one block of 512 rows of the flattened activations, the whole transposed weight and the whole
bias row, and stores one 512-row block of the projected rows. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or carried over
    from the last point that fetched it (the block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole of each staging buffer: what the body loads and what it stores. -/
abbrev rX1 : Rect S512x1024 := Rect.unit (s := S512x1024) ![0, 0] S512x1024.size inb_S512x1024_S512x1024_0_0
abbrev rW1 : Rect S1024x2048 := Rect.unit (s := S1024x2048) ![0, 0] S1024x2048.size inb_S1024x2048_S1024x2048_0_0
abbrev rB1 : Rect S1x2048 := Rect.unit (s := S1x2048) ![0, 0] S1x2048.size inb_S1x2048_S1x2048_0_0
abbrev rO1 : Rect S512x2048 := Rect.unit (s := S512x2048) ![0, 0] S512x2048.size inb_S512x2048_S512x2048_0_0

/-- The output staging buffer after the body: its one store, of the body's arithmetic on the three loaded blocks. -/
def out1_3 (x0 : Vec F S512x1024 .f32) (x1 : Vec F S1024x2048 .bf16) (x2 : Vec F S1x2048 .f32) : Vec F S512x2048 .bf16 :=
  View.canon [⟨rO1, k1_pay1 (View.ld x0 rX1) (View.ld x1 rW1) (View.ld x2 rB1)⟩]

/-- That store covers the buffer. -/
theorem cover1_3 (p0 : Vec F S512x2048 .bf16) (y : S512x2048.Idx) :
    ∃ pc ∈ ([⟨rO1, p0⟩] : List (View.Piece (Elt F) S512x2048 .bf16)), y ∈ pc.1.set :=
  View.cover_of_tiled [⟨rO1, p0⟩] S512x2048.size (by rfl) y

set_option maxHeartbeats 1000000 in
/-- The body on whole staging memrefs, the inputs' at `x0 x1 x2` and the output's at anything: it runs to its end, leaves
    the inputs as they were and the output at `out1_3` of them. -/
theorem sound_kernel1 (c : Dev nD) (E : Set ℕ) (i : grid1.Coords)
    (arg1 : Memref sig .tc .vmem S512x1024 .f32) (harg1 : arg1.IsWhole) (arg2 : Memref sig .tc .vmem S1024x2048 .bf16) (harg2 : arg2.IsWhole)
    (arg3 : Memref sig .tc .vmem S1x2048 .f32) (harg3 : arg3.IsWhole) (arg4 : Memref sig .tc .vmem S512x2048 .bf16) (harg4 : arg4.IsWhole)
    (x0 : Vec F S512x1024 .f32) (x1 : Vec F S1024x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data: the arrays as the region finds them; after the body each input's buffer at its block and
    the output's at `out1_3` of the input blocks; the scoped rest and the generator register untouched; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KFrame2.lean ====
/-
  The frame of the third kernel region: what each grid point finds in its staging buffers, what the body leaves in them,
  and that the body, run on them, terminates without a fault.
-/
import proofs.«117626_j75986561401090_2_alg».proof.Proof.Gen.KernelIdeal.Launch
import proofs.«117626_j75986561401090_2_alg».proof.Proof.Gen.KernelIdeal.Skeleton
import proofs.«117626_j75986561401090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The attention region (the third kernel region), entered with the buffers at `V`

Each grid point (batch entry, pair of heads, block of 256 query rows) takes the 256 × 128 block of scaled queries of the
pair, the 2048 × 128 block of keys of the pair and the 2048 × 128 block of values of the pair — the last two are blocks
of ONE array, read through two windows — and stores the 256 × 128 block of results. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether fetched there or carried over
    from the last point that fetched it (the block index has not moved since). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole of each staging buffer: what the body loads and what it stores. -/
abbrev rX2 : Rect S1x256x128 := Rect.unit (s := S1x256x128) ![0, 0, 0] S1x256x128.size inb_S1x256x128_S1x256x128_0_0_0
abbrev rW2 : Rect S1x2048x128 := Rect.unit (s := S1x2048x128) ![0, 0, 0] S1x2048x128.size inb_S1x2048x128_S1x2048x128_0_0_0
abbrev rB2 : Rect S1x2048x128 := Rect.unit (s := S1x2048x128) ![0, 0, 0] S1x2048x128.size inb_S1x2048x128_S1x2048x128_0_0_0
abbrev rO2 : Rect S1x256x128 := Rect.unit (s := S1x256x128) ![0, 0, 0] S1x256x128.size inb_S1x256x128_S1x256x128_0_0_0

/-- The output staging buffer after the body: its one store, of the body's arithmetic on the three loaded blocks. -/
def out2_3 (x0 : Vec F S1x256x128 .bf16) (x1 : Vec F S1x2048x128 .bf16) (x2 : Vec F S1x2048x128 .bf16) : Vec F S1x256x128 .f32 :=
  View.canon [⟨rO2, k2_pay1 (View.ld x0 rX2) (View.ld x1 rW2) (View.ld x2 rB2)⟩]

/-- That store covers the buffer. -/
theorem cover2_3 (p0 : Vec F S1x256x128 .f32) (y : S1x256x128.Idx) :
    ∃ pc ∈ ([⟨rO2, p0⟩] : List (View.Piece (Elt F) S1x256x128 .f32)), y ∈ pc.1.set :=
  View.cover_of_tiled [⟨rO2, p0⟩] S1x256x128.size (by rfl) y

set_option maxHeartbeats 1000000 in
/-- The body on whole staging memrefs, the inputs' at `x0 x1 x2` and the output's at anything: it runs to its end, leaves
    the inputs as they were and the output at `out2_3` of them. -/
theorem sound_kernel2 (c : Dev nD) (E : Set ℕ) (i : grid2.Coords)
    (arg1 : Memref sig .tc .vmem S1x256x128 .bf16) (harg1 : arg1.IsWhole) (arg2 : Memref sig .tc .vmem S1x2048x128 .bf16) (harg2 : arg2.IsWhole)
    (arg3 : Memref sig .tc .vmem S1x2048x128 .bf16) (harg3 : arg3.IsWhole) (arg4 : Memref sig .tc .vmem S1x256x128 .f32) (harg4 : arg4.IsWhole)
    (x0 : Vec F S1x256x128 .bf16) (x1 : Vec F S1x2048x128 .bf16) (x2 : Vec F S1x2048x128 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__attn_kernel i arg1 harg1 arg2 harg2 arg3 harg3 arg4 harg4) K := by
  simp only [cc2__attn_kernel_eq_skeleton]; unfold cc2__attn_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data: the arrays as the region finds them; after the body each input's buffer at its block and
    the output's at `out2_3` of the input blocks; the scoped rest and the generator register untouched; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q w := match w with
    | ⟨1, _⟩ => (fullShare : PosShare TreeShare).left
    | ⟨2, _⟩ => (fullShare : PosShare TreeShare).right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KRun.lean ====
/-
  The run of the whole program: the buffers' contents at each boundary between its host stretches and its three kernel
  regions, and each region as a segment entered from the contents before it and left at the contents after it.
-/
import proofs.«117626_j75986561401090_2_alg».proof.Proof.Gen.KernelIdeal.Launch
import proofs.«117626_j75986561401090_2_alg».proof.Proof.Gen.KernelIdeal.Skeleton
import proofs.«117626_j75986561401090_2_alg».proof.Proof.Gen.KernelIdeal.Points
import proofs.«117626_j75986561401090_2_alg».proof.Proof.KFrame0
import proofs.«117626_j75986561401090_2_alg».proof.Proof.KFrame1
import proofs.«117626_j75986561401090_2_alg».proof.Proof.KFrame2
import proofs.«117626_j75986561401090_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

/-! ## The buffers' contents at each boundary -/

/-- Core `c`'s buffers at launch. -/
abbrev B0 : Dev nD → Valuation τ sig (Elt F) := fun c b => m ((c : Dev nD), b)
/-- After the first host stretch (the slices, transposes and reshapes of the arguments): the first region's entry. -/
abbrev B1 : Dev nD → Valuation τ sig (Elt F) := fun c => StableHlo.after hostOps0 (B0 m c)
abbrev T1 : (c : Dev nD) → (b : Ref sig .tc) → Buf (Elt F) ((c : Thread nD τ).loc b) := fun c b => B1 m c b
/-- After the first region: its output array at what its write-backs leave, every other buffer as entered. -/
def B2 (c : Dev nD) : Valuation τ sig (Elt F) :=
  Pipeline.withArrays spec0 c (B1 m c) fun w => (dat0 (T1 m) c).arrAt w cfg0.N
theorem B2_arr (c : Dev nD) (w : Fin cfg0.W) :
    B2 m c (Proc.devRef .tc (Pipeline.arrRef spec0 w)) = (dat0 (T1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev T2 : (c : Dev nD) → (b : Ref sig .tc) → Buf (Elt F) ((c : Thread nD τ).loc b) := fun c b => B2 m c b
theorem hF0 (c : Dev nD) (w : Fin cfg0.W) : (dat0 (T1 m) c).arrAt w cfg0.N = T2 m c (Pipeline.arrRef spec0 w) :=
  (B2_arr m c w).symm
theorem hrest0 (c : Dev nD) : ∀ b, b ∉ Finset.univ.image (Pipeline.arrRef spec0) → T2 m c b = T1 m c b :=
  fun b hb => B2_of_ne m c b fun w e => hb (Finset.mem_image.mpr ⟨w, Finset.mem_univ _, e⟩)

/-- After the second region. -/
def B3 (c : Dev nD) : Valuation τ sig (Elt F) :=
  Pipeline.withArrays spec1 c (B2 m c) fun w => (dat1 (T2 m) c).arrAt w cfg1.N
theorem B3_arr (c : Dev nD) (w : Fin cfg1.W) :
    B3 m c (Proc.devRef .tc (Pipeline.arrRef spec1 w)) = (dat1 (T2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev T3 : (c : Dev nD) → (b : Ref sig .tc) → Buf (Elt F) ((c : Thread nD τ).loc b) := fun c b => B3 m c b
theorem hF1 (c : Dev nD) (w : Fin cfg1.W) : (dat1 (T2 m) c).arrAt w cfg1.N = T3 m c (Pipeline.arrRef spec1 w) :=
  (B3_arr m c w).symm
theorem hrest1 (c : Dev nD) : ∀ b, b ∉ Finset.univ.image (Pipeline.arrRef spec1) → T3 m c b = T2 m c b :=
  fun b hb => B3_of_ne m c b fun w e => hb (Finset.mem_image.mpr ⟨w, Finset.mem_univ _, e⟩)

/-- After the second host stretch (the two reshapes of the projected arrays): the third region's entry. -/
abbrev B4 : Dev nD → Valuation τ sig (Elt F) := fun c => StableHlo.after hostOps2 (B3 m c)
abbrev T4 : (c : Dev nD) → (b : Ref sig .tc) → Buf (Elt F) ((c : Thread nD τ).loc b) := fun c b => B4 m c b

/-! ## The proof data of the three regions, each at its entry contents -/

abbrev admK : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) admK p) c
  | ⟨0, _⟩ => fun c => dat0 (T1 m) c
  | ⟨1, _⟩ => fun c => dat1 (T2 m) c
  | ⟨2, _⟩ => fun c => dat2 (T4 m) c
abbrev 𝒱K : Variants := Variants.none
abbrev LK : GSem nD τ sig → Finset Unit := fun _ => ∅
abbrev lvK : GSem nD τ sig → Unit → ℕ := fun _ _ => 0
/-- What rides beside the buffers through every segment: the generator register at some state, and nothing owed. -/
abbrev RK (c : Dev nD) : sProp 𝕄 := iprop((∃ r, prngReg c r) ∗ ∃ W, owes (c : Thread nD τ) (0 : CellTallies nD τ sig Unit) W)

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor

/-- A host stretch as a segment, from the contents `W`, `RK` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK

set_option backward.isDefEq.respectTransparency.types false in
/-- Region 0 over the thread state: entered with every unscoped buffer at `B1`, left with them at `B2`. Its
    arrays are split out of the unscoped buffers at entry and put back, at what the write-backs leave, at exit; the
    generator register goes into the region's invariant and comes back; nothing is owed; the kernel has no semaphore
    of its own. -/
def reg0 : Pipeline.RegionSeg (pcfgs (F := F)) admK (pdats m) () defs₀ 𝒱K LK lvK 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ LK lvK 0 fun _ _ => rfl
  pre c := iprop(StableHlo.held (c : Thread nD τ) (Pipeline.ucRefs τ sig) (B1 m c) ∗ RK c)
  post c := iprop(StableHlo.held (c : Thread nD τ) (Pipeline.ucRefs τ sig) (B2 m c) ∗ RK c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B2`, left with them at `B3`. Its
    arrays are split out of the unscoped buffers at entry and put back, at what the write-backs leave, at exit; the
    generator register goes into the region's invariant and comes back; nothing is owed; the kernel has no semaphore
    of its own. -/
def reg1 : Pipeline.RegionSeg (pcfgs (F := F)) admK (pdats m) () defs₀ 𝒱K LK lvK 1 where
  win := launch1.win.to₀
  block_pos := launch1.block_pos
  stage_whole := launch1.stage_whole
  K := PEmpty
  osem k := k.elim
  ho := Pipeline.OwnSemFacts.none _
  hbody c := (body_obligation1 (T2 m) c).loose
  hwaits := Pipeline.hwaits_of_owed_zero _ _ _ _ LK lvK 1 fun _ _ => rfl
  pre c := iprop(StableHlo.held (c : Thread nD τ) (Pipeline.ucRefs τ sig) (B2 m c) ∗ RK c)
  post c := iprop(StableHlo.held (c : Thread nD τ) (Pipeline.ucRefs τ sig) (B3 m c) ∗ RK c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := Pipeline.arrays_of_unscopedBufs (p := 1) (pcfgs (F := F)) admK (pdats m) launch1.win launch1.arr_whole c
      ((pdats m 1 c).share_full fun _ => rfl) (T2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (T2 m c) (T3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the third region: the result array at what its write-backs leave, every other buffer as entered. -/
def B5 (c : Dev nD) : Valuation τ sig (Elt F) :=
  Function.update (B4 m c) (Proc.devRef .tc main_v20) ((dat2 (T4 m) c).arrAt 3 cfg2.N)
abbrev T5 : (c : Dev nD) → (b : Ref sig .tc) → Buf (Elt F) ((c : Thread nD τ).loc b) := fun c b => B5 m c b
theorem B5_out (c : Dev nD) : B5 m c (Proc.devRef .tc main_v20) = (dat2 (T4 m) c).arrAt 3 cfg2.N := by
  unfold B5; exact Function.update_self _ _ _
theorem B5_of_ne (c : Dev nD) (b : Ref sig .tc) (hb : b ≠ main_v20) : B5 m c (Proc.devRef .tc b) = B4 m c (Proc.devRef .tc b) := by
  unfold B5; exact Function.update_of_ne (StableHlo.devRef_ne_of_ne hb) _ _

theorem img2 : Finset.univ.image (Pipeline.arrRef spec2) = ({main_v18, main_v19, main_v20} : Finset (Ref sig .tc)) := by decide

set_option backward.isDefEq.respectTransparency.types false in
/-- ENTRY of the third region: the three distinct buffers behind its four windows, each whole at the full share, are the
    region's arrays — the array that the key window and the value window both read is dealt to them as the two halves
    of its share. -/
theorem split2 (c : Dev nD) :
    (unscopedBufs c (T4 m c) : sProp 𝕄) ⊢ iprop((pdats m 2 c).arrays ((pdats m 2 c).arrAt · 0)
        ∗ Pipeline.unscopedRest (Ix := Unit) (Name := ℕ) (U := UR sig nD τ) (Lvl := ℕ) spec2 c (T4 m c)) := by
  rw [Pipeline.unscopedBufs_split₀ cfgs 2 winFacts₀2.arr_unscoped c (T4 m c)]
  refine sep_mono ?_ .rfl
  unfold Pipeline.arrBufs Pipeline.Dat.arrays
  show (bigSep (Finset.univ.image (Pipeline.arrRef spec2)) fun b : Ref sig .tc => (((c : Thread nD τ).loc b) ↦{fullShare} T4 m c b : sProp 𝕄))
     ⊢ bigSep (Finset.univ : Finset (Fin 4)) fun w => ((cfg2.win w).arr.view.loc (c : Thread nD τ) ↦[(cfg2.win w).arr.view.set]{(dat2 (T4 m) c).share w} (dat2 (T4 m) c).arrAt w 0 : sProp 𝕄)
  rw [img2, bigSep_insert (by decide), bigSep_insert (by decide), bigSep_singleton, bigSep_W2]
  rw [(arr_whole2 0).set_eq_univ, (arr_whole2 1).set_eq_univ, (arr_whole2 3).set_eq_univ]
  show (iprop((((c : Thread nD τ).loc main_v18) ↦{fullShare} T4 m c main_v18) ∗ (((c : Thread nD τ).loc main_v19) ↦{fullShare} T4 m c main_v19)
      ∗ (((c : Thread nD τ).loc main_v20) ↦{fullShare} T4 m c main_v20)) : sProp 𝕄) ⊢ _
  have hs : ((((c : Thread nD τ).loc main_v19) ↦{fullShare} T4 m c main_v19 : sProp 𝕄))
      ⊢ iprop((((c : Thread nD τ).loc main_v19) ↦{(fullShare : PosShare TreeShare).left} T4 m c main_v19)
          ∗ (((c : Thread nD τ).loc main_v19) ↦{(fullShare : PosShare TreeShare).right} T4 m c main_v19)) :=
    (pointsTo_share (PosShare.mem_left_op_right fullShare)).1
  iintro ⟨H18, H19, H20⟩
  ihave H := hs $$ H19
  icases H with ⟨Hl, Hr⟩
  isplitl [H18]; · iexact H18
  isplitl [Hl]; · iexact Hl
  isplitl [Hr]; · iexact Hr
  iexact H20

set_option backward.isDefEq.respectTransparency.types false in
/-- EXIT of the third region: its arrays after the write-backs — the three inputs as entered, the two halves of the
    shared array's share put together again, the output at what the write-backs leave — and the rest are the core's
    unscoped buffers at the contents after the region. -/
theorem join2 (c : Dev nD) :
    iprop((pdats m 2 c).arrays ((pdats m 2 c).arrAt · cfg2.N)
        ∗ Pipeline.unscopedRest (Ix := Unit) (Name := ℕ) (U := UR sig nD τ) (Lvl := ℕ) spec2 c (T4 m c))
      ⊢ (unscopedBufs c (T5 m c) : sProp 𝕄) := by
  rw [Pipeline.unscopedBufs_split₀ cfgs 2 winFacts₀2.arr_unscoped c (T5 m c)]
  refine sep_mono ?_ (Entails.of_eq ?_)
  · unfold Pipeline.arrBufs Pipeline.Dat.arrays
    show (bigSep (Finset.univ : Finset (Fin 4)) fun w => ((cfg2.win w).arr.view.loc (c : Thread nD τ) ↦[(cfg2.win w).arr.view.set]{(dat2 (T4 m) c).share w} (dat2 (T4 m) c).arrAt w cfg2.N : sProp 𝕄))
      ⊢ bigSep (Finset.univ.image (Pipeline.arrRef spec2)) fun b : Ref sig .tc => (((c : Thread nD τ).loc b) ↦{fullShare} T5 m c b : sProp 𝕄)
    rw [img2, bigSep_insert (by decide), bigSep_insert (by decide), bigSep_singleton, bigSep_W2]
    rw [(arr_whole2 0).set_eq_univ, (arr_whole2 1).set_eq_univ, (arr_whole2 3).set_eq_univ]
    rw [(dat2 (T4 m) c).arrAt_in 0 rfl, (dat2 (T4 m) c).arrAt_in 1 rfl, (dat2 (T4 m) c).arrAt_in 2 rfl]
    rw [show T5 m c main_v18 = T4 m c main_v18 from B5_of_ne m c main_v18 (by decide),
      show T5 m c main_v19 = T4 m c main_v19 from B5_of_ne m c main_v19 (by decide),
      show T5 m c main_v20 = (dat2 (T4 m) c).arrAt 3 cfg2.N from B5_out m c]
    show _ ⊢ (iprop((((c : Thread nD τ).loc main_v18) ↦{fullShare} T4 m c main_v18) ∗ (((c : Thread nD τ).loc main_v19) ↦{fullShare} T4 m c main_v19)
      ∗ (((c : Thread nD τ).loc main_v20) ↦{fullShare} (dat2 (T4 m) c).arrAt 3 cfg2.N)) : sProp 𝕄)
    have hj : iprop((((c : Thread nD τ).loc main_v19) ↦{(fullShare : PosShare TreeShare).left} T4 m c main_v19)
          ∗ (((c : Thread nD τ).loc main_v19) ↦{(fullShare : PosShare TreeShare).right} T4 m c main_v19))
        ⊢ ((((c : Thread nD τ).loc main_v19) ↦{fullShare} T4 m c main_v19 : sProp 𝕄)) :=
      (pointsTo_share (PosShare.mem_left_op_right fullShare)).2
    iintro ⟨H18, Hl, Hr, H20⟩
    isplitl [H18]; · iexact H18
    isplitl [Hl Hr]
    · iapply hj
      isplitl [Hl]; · iexact Hl
      iexact Hr
    iexact H20
  · unfold Pipeline.unscopedRest
    exact bigSep_congr fun b hb => by
      rw [show T5 m c b = T4 m c b from B5_of_ne m c b (fun e => (Finset.mem_sdiff.mp hb).2 (by
        rw [e]; exact Finset.mem_image.mpr ⟨3, Finset.mem_univ _, rfl⟩))]

/-- The last thread state without what the core owes: every unscoped buffer at the end contents, the generator register
    at some state. -/
abbrev TN (c : Dev nD) : sProp 𝕄 := iprop(StableHlo.held (c : Thread nD τ) (Pipeline.ucRefs τ sig) (B5 m c) ∗ ∃ r, prngReg c r)

set_option backward.isDefEq.respectTransparency.types false in
/-- Region 2 over the thread state: entered with every unscoped buffer at `B4`, left with them at `B5`. Two of its windows
    read one array, so its arrays are split out of the unscoped buffers and put back by `split2` and `join2`. -/
def reg2 : Pipeline.RegionSeg (pcfgs (F := F)) admK (pdats m) () defs₀ 𝒱K LK lvK 2 where
  win := winFacts₀2
  block_pos := block_pos2
  stage_whole := stage_whole2
  K := PEmpty
  osem k := k.elim
  ho := Pipeline.OwnSemFacts.none _
  hbody c := (body_obligation2 (T4 m) c).loose
  hwaits := Pipeline.hwaits_of_owed_zero _ _ _ _ LK lvK 2 fun _ _ => rfl
  pre c := iprop(StableHlo.held (c : Thread nD τ) (Pipeline.ucRefs τ sig) (B4 m c) ∗ RK c)
  post c := iprop(TN m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T4 m c)
  hentry c := by
    rw [Pipeline.ownSems0_none]
    have hsplit := split2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := join2 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

/-- The program's five segments in order. -/
abbrev segsK : List (Pipeline.Seg (pcfgs (F := F)) admK (pdats m) () defs₀ 𝒱K LK lvK) :=
  [ .host (hseg hostOps0 hostOps0_sub ops0_fresh (B0 m)),
    .region (reg0 m),
    .region (reg1 m),
    .host (hseg hostOps2 hostOps2_sub ops2_fresh (B3 m)),
    .region (reg2 m) ]
theorem main_run (c : Dev nD) : main (F := F) c = Pipeline.Seg.run (segsK m) := (main_chain c).trans (by chain_rfl)

set_option backward.isDefEq.respectTransparency.types false in
/-- THE RUN, at any float instance: from any memory with zero counters, every weakly fair execution of the program
    terminates, nothing faulting, and every final state holds each unscoped buffer at the end contents `B5`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) admK (pdats m) () cellOf_inj emb₁ defs₀ 𝒱K LK lvK m ρ main (segsK m)
    (fun c Q => by rw [main_run m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RK c)) (Tₙ := TN m)
    (hch := ⟨fun _ => .rfl, fun _ => .rfl, fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c => h c)

/-! ## The arguments end as launched, and the result's end contents -/

/-- A buffer that no host stretch writes and that is no output of a region holds at the end what it held at launch. -/
theorem B5_kept (c : Dev nD) (r : Ref sig .tc) (h0 : r ∉ hostOps0_W) (h2 : r ∉ hostOps2_W)
    (hw0 : ∀ w, Pipeline.arrRef spec0 w ≠ r) (hw1 : ∀ w, Pipeline.arrRef spec1 w ≠ r) (hne : r ≠ main_v20) :
    B5 m c (Proc.devRef .tc r) = m ((c : Thread nD τ).loc r) :=
  (B5_of_ne m c r hne).trans <| (StableHlo.after_of_writes_sub hostOps2 _ hostOps2_writes h2).trans <|
    (B3_of_ne m c r hw1).trans <| (B2_of_ne m c r hw0).trans <|
    (StableHlo.after_of_writes_sub hostOps0 _ hostOps0_writes h0).trans rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float instance: the program runs to its end, nothing faulting, and every argument array ends as
    launched; and the result array ends at what the third region's write-backs leave. -/
theorem run_result (ρ : Dev nD → PrngReg) : θ_run defs (onTc (τ := τ) (main (F := F))) ⟨m, fun _ => 0, ρ⟩ (fun r => ∀ c : Dev nD,
      r.2.mem ((c.tc : Thread nD τ).loc main_v20) = (dat2 (T4 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v20 (by decide))).trans (B5_out m c),
     (h c _ (mem_uc main_arg0 (by decide))).trans (B5_kept m c main_arg0 (by decide) (by decide) (by decide) (by decide) (by decide)),
     (h c _ (mem_uc main_arg1 (by decide))).trans (B5_kept m c main_arg1 (by decide) (by decide) (by decide) (by decide) (by decide)),
     (h c _ (mem_uc main_arg2 (by decide))).trans (B5_kept m c main_arg2 (by decide) (by decide) (by decide) (by decide) (by decide)),
     (h c _ (mem_uc main_arg3 (by decide))).trans (B5_kept m c main_arg3 (by decide) (by decide) (by decide) (by decide) (by decide))⟩)
    (run_all m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.KernelIdeal.Frame

end
-- ==== Proof.Spec.lean ====
/-
  What both programs compute, entry by entry, on the extended reals.

  The inputs are two activation arrays x1, x2 of shape [2, 2048, 1024], one fused weight W of shape [3072, 1024] and one
  fused bias B of length 3072.  Rows 0..1023 of W (and of B) are the query projection, rows 1024..2047 the key
  projection, rows 2048..3071 the value projection.  A projected entry is an inner product over the 1024 input features
  plus the bias (`proj`, `lin`).  The 1024 output columns are 16 heads of 64 columns each (`hcol`).

  For one batch entry b, one head h and one query row n, the score against key row j is the inner product over the 64
  columns of the head of the projected query and the projected key (`score`).  The result at column d of head h is the
  average of the projected values of the key rows, weighted by the normalised exponentials of the scores.

  The two programs normalise differently.  One multiplies the projected QUERY by the scale c, exponentiates the scores
  as they are and multiplies each exponential by the reciprocal of their sum (`headK`, `Gk`).  The other multiplies each
  SCORE by c, subtracts a shift m (the row's largest scaled score) before exponentiating, and divides each exponential
  by their sum (`headR`, `Gr`).  Over finite reals the two agree: the scale moves across the finite inner product, and
  e^(s - m) = e^s · e^(-m) with the common factor e^(-m) cancelling between numerator and denominator.
-/
import Idealize.ShloMosaic.PureOps.Ideal
import Idealize.ShloMosaic.PureOps.Ideal.Laws

noncomputable section

namespace Cert.Attn

open Idealize.ShloMosaic

/-- One entry of a linear layer: the inner product of an input row with a weight row, plus the bias entry. -/
def proj {E : Type} [Fintype E] (x w : E → EReal) (b : EReal) : EReal := (∑ e, x e * w e) + b

/-- The score of a query against key row `j`: their inner product over the head's columns. -/
def score {D J : Type} [Fintype D] (q : D → EReal) (k : J → D → EReal) (j : J) : EReal := ∑ d, q d * k j d

/-- Exponentials of the scores, each multiplied by the reciprocal of their sum, weighting the values. -/
def headK {D J : Type} [Fintype D] [Fintype J] (q : D → EReal) (k : J → D → EReal) (v : J → EReal) : EReal :=
  ∑ j, (Ideal.exp (score q k j) * Ideal.div 1 (∑ j', Ideal.exp (score q k j'))) * v j

/-- Exponentials of the scores scaled by `c` and shifted by `m`, each divided by their sum (taken from zero), weighting
    the values. -/
def headR {D J : Type} [Fintype D] [Fintype J] (c m : EReal) (q : D → EReal) (k : J → D → EReal) (v : J → EReal) : EReal :=
  ∑ j, Ideal.div (Ideal.exp (score q k j * c - m)) (0 + ∑ j', Ideal.exp (score q k j' * c - m)) * v j

/-- Row `c` of block `o` (0 the queries', 1 the keys', 2 the values') of the fused weight and bias. -/
def wrow (o : Fin 3) (c : Fin 1024) : Fin 3072 := ⟨o.val * 1024 + c.val, by have := o.isLt; have := c.isLt; omega⟩

/-- Column `d` of head `h`. -/
def hcol (h : Fin 16) (d : Fin 64) : Fin 1024 := ⟨h.val * 64 + d.val, by have := h.isLt; have := d.isLt; omega⟩

theorem wrow_val (o : Fin 3) (c : Fin 1024) : (wrow o c).val = o.val * 1024 + c.val := rfl
theorem hcol_val (h : Fin 16) (d : Fin 64) : (hcol h d).val = h.val * 64 + d.val := rfl

/-- Every column is a column of a head. -/
theorem exists_hcol (c : Fin 1024) : ∃ (h : Fin 16) (d : Fin 64), c = hcol h d :=
  ⟨⟨c.val / 64, by have := c.isLt; omega⟩, ⟨c.val % 64, Nat.mod_lt _ (by decide)⟩, Fin.ext (by simp only [hcol_val]; omega)⟩

/-- The scale both programs use: the f32 word of one eighth. -/
def c8 : EReal := Ideal.ofBits .f32 0x3E000000#32

section
variable (W : Fin 3072 → Fin 1024 → EReal) (B : Fin 3072 → EReal)

/-- Entry (b, n, c) of projection `o` of the activations `X`. -/
def lin (X : Fin 2 → Fin 2048 → Fin 1024 → EReal) (o : Fin 3) (b : Fin 2) (n : Fin 2048) (c : Fin 1024) : EReal :=
  proj (X b n) (W (wrow o c)) (B (wrow o c))

variable (X1 X2 : Fin 2 → Fin 2048 → Fin 1024 → EReal)

/-- The first program's result at batch entry `b`, row `n`, head `h`, column `d`. -/
def Gk (b : Fin 2) (n : Fin 2048) (h : Fin 16) (d : Fin 64) : EReal :=
  headK (fun d' => lin W B X1 0 b n (hcol h d') * c8) (fun j d' => lin W B X2 1 b j (hcol h d'))
    (fun j => lin W B X2 2 b j (hcol h d))

/-- The second program's result there, with shift `m`. -/
def Gr (m : EReal) (b : Fin 2) (n : Fin 2048) (h : Fin 16) (d : Fin 64) : EReal :=
  headR c8 m (fun d' => lin W B X1 0 b n (hcol h d')) (fun j d' => lin W B X2 1 b j (hcol h d'))
    (fun j => lin W B X2 2 b j (hcol h d))

end

end Cert.Attn

end
-- ==== Proof.KPayProj.lean ====
/-
  The two projection bodies read at one entry of what they store, on the extended reals.

  Each body multiplies a block of input rows by a weight matrix, adds a bias row to every row of the product and, for
  the queries only, multiplies by the scale one eighth. At an entry (r, c) that is the inner product over the 1024 input
  features of row r with column c, plus the bias at c (times the scale). Narrowing and widening of the float format do
  nothing to an extended real, and a matrix product accumulated into the zero matrix is the plain sum of products.
-/
import proofs.«117626_j75986561401090_2_alg».proof.Proof.Gen.KernelIdeal.Skeleton
import proofs.«117626_j75986561401090_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.Attn

/-- A product of an m×k by a k×n matrix accumulated into the zero matrix, read at entry (a, b): the sum over the
    contracted coordinate of the products of the entries. -/
theorem matmul_nn_zero_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant (F := Ideal) ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The query projection's stored value at entry (r, c): the inner product of input row r with weight column c, plus
    the bias at c, times the folded scale. The format changes are the identity on extended reals, and the bias row is
    copied down the rows. -/
theorem k0_pay1_apply (x0 : Vec Ideal S512x1024 .f32) (x1 : Vec Ideal S1024x1024 .bf16) (x2 : Vec Ideal S1x1024 .f32)
    (r : Fin 512) (c : Fin 1024) :
    k0_pay1 (F := Ideal) x0 x1 x2 (ix2 r c)
      = proj (fun e : Fin 1024 => x0 (ix2 r e)) (fun e => x1 (ix2 e c)) (x2 (ix2 (0 : Fin 1) c)) * c8 := by
  unfold k0_pay1
  simp only [shapeCast_self]
  show (matmul dot_S512x1024_S1024x1024_S512x1024_1_0_0_1_n_n none (truncf .bf16 x0 bitsLt_bf16_f32) x1
          (constant (F := Ideal) S512x1024 .f32 0x00000000#32) (ix2 r c)
        + broadcastTo S512x1024 x2 broadcasts_S1x1024_S512x1024 (ix2 r c)) * Ideal.ofBits .f32 0x3E000000#32 = _
  have hm := matmul_nn_zero_apply (φ₁ := .bf16) (φ₂ := .bf16) dot_S512x1024_S1024x1024_S512x1024_1_0_0_1_n_n_wf
    (truncf .bf16 x0 bitsLt_bf16_f32) x1 r c
  have hb := broadcastTo_1b_ab_apply x2 broadcasts_S1x1024_S512x1024 r c
  exact congrArg (· * Ideal.ofBits .f32 0x3E000000#32) (congrArg₂ (· + ·) hm hb)

/-- The fused key/value projection's stored value at entry (r, c): the inner product of input row r with weight
    column c, plus the bias at c. No scale here. -/
theorem k1_pay1_apply (x0 : Vec Ideal S512x1024 .f32) (x1 : Vec Ideal S1024x2048 .bf16) (x2 : Vec Ideal S1x2048 .f32)
    (r : Fin 512) (c : Fin 2048) :
    k1_pay1 (F := Ideal) x0 x1 x2 (ix2 r c)
      = proj (fun e : Fin 1024 => x0 (ix2 r e)) (fun e => x1 (ix2 e c)) (x2 (ix2 (0 : Fin 1) c)) := by
  unfold k1_pay1
  simp only [shapeCast_self]
  show matmul dot_S512x1024_S1024x2048_S512x2048_1_0_0_1_n_n none (truncf .bf16 x0 bitsLt_bf16_f32) x1
          (constant (F := Ideal) S512x2048 .f32 0x00000000#32) (ix2 r c)
        + broadcastTo S512x2048 x2 broadcasts_S1x2048_S512x2048 (ix2 r c) = _
  have hm := matmul_nn_zero_apply (φ₁ := .bf16) (φ₂ := .bf16) dot_S512x1024_S1024x2048_S512x2048_1_0_0_1_n_n_wf
    (truncf .bf16 x0 bitsLt_bf16_f32) x1 r c
  have hb := broadcastTo_1b_ab_apply x2 broadcasts_S1x2048_S512x2048 r c
  exact congrArg₂ (· + ·) hm hb

end Cert.KernelIdeal.Pay

end
-- ==== Proof.KVal0.lean ====
/-
  The query projection's output array after its region, entry by entry.

  The region's eight grid points each store one block of 512 rows of the output; point t stores rows 512 t to
  512 t + 511.  What it stores at row r, column c of its block is the inner product of row r of its block of the
  activations — row 512 t + r of the activations — with column c of the weight, plus the bias at c, times the scale.
  The eight blocks tile the 4096 rows, so the output array ends holding, at every entry (R, c), that expression of
  row R of the activations.
-/
import proofs.«117626_j75986561401090_2_alg».proof.Proof.KFrame0
import proofs.«117626_j75986561401090_2_alg».proof.Proof.KPayProj
import proofs.«117626_j75986561401090_2_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame Cert.KernelIdeal.Pay Cert.Attn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The output array as one function of the three input arrays: at (R, c), the inner product of activation row R with
    weight column c, plus the bias at c, times the scale. -/
def G0 (c : Dev nD) : S4096x1024.Idx → EReal := fun i =>
  proj (fun e : Fin 1024 => (V c main_v14 : S4096x1024.Idx → EReal) (ix2 (i 0) e))
    (fun e => (V c main_v7 : S1024x1024.Idx → EReal) (ix2 e (i 1)))
    ((V c main_v11 : S1x1024.Idx → EReal) (ix2 (0 : Fin 1) (i 1))) * c8

/-- The printed index maps over the eight grid points: the activations' and the output's block index is (t, 0), the
    weight's and the bias's (0, 0). -/
theorem idx_facts0 : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- One stored entry, with each loaded block's entries it reads named as entries of the whole arrays. -/
theorem pay0_point (x0 : Vec Ideal S512x1024 .f32) (x1 : Vec Ideal S1024x1024 .bf16) (x2 : Vec Ideal S1x1024 .f32)
    (A0 : S4096x1024.Idx → EReal) (A1 : S1024x1024.Idx → EReal) (A2 : S1x1024.Idx → EReal)
    (j : S512x1024.Idx) (i : S4096x1024.Idx)
    (h0 : ∀ e : Fin 1024, x0 (ix2 (j 0) e) = A0 (ix2 (i 0) e))
    (h1 : ∀ e : Fin 1024, x1 (ix2 e (j 1)) = A1 (ix2 e (i 1)))
    (h2 : x2 (ix2 (0 : Fin 1) (j 1)) = A2 (ix2 (0 : Fin 1) (i 1))) :
    k0_pay1 (F := Ideal) x0 x1 x2 j
      = proj (fun e : Fin 1024 => A0 (ix2 (i 0) e)) (fun e => A1 (ix2 e (i 1))) (A2 (ix2 (0 : Fin 1) (i 1))) * c8 := by
  obtain ⟨r, cc, rfl⟩ : ∃ (r : Fin 512) (cc : Fin 1024), j = ix2 r cc := ⟨j 0, j 1, eq_ix2 j⟩
  rw [k0_pay1_apply]
  rw [show (fun e : Fin 1024 => x0 (ix2 r e)) = fun e => A0 (ix2 (i 0) e) from funext h0,
    show (fun e : Fin 1024 => x1 (ix2 e cc)) = fun e => A1 (ix2 e (i 1)) from funext h1,
    show x2 (ix2 (0 : Fin 1) cc) = A2 (ix2 (0 : Fin 1) (i 1)) from h2]

theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz0]
  simp only [View.ld_unit_zero (S := S512x1024) hz0, View.ld_unit_zero (S := S1024x1024) hz0,
    View.ld_unit_zero (S := S1x1024) hz0]
  obtain ⟨e30, e31, e00, e01, e10, e11, e20, e21⟩ := idx_facts0 t
  funext y
  refine pay0_point _ _ _ (V c main_v14) (V c main_v7) (V c main_v11) _ (((cfg0.win 3).blk t).view.emb y) ?_ ?_ ?_
  · intro e
    show V c main_v14 (((cfg0.win 0).blk t).view.emb _) = V c main_v14 _
    refine congrArg _ (funext fun a => Fin.ext ?_)
    match a with
    | ⟨0, _⟩ => show win0_0.index t (0 : Fin 2) * 512 + 1 * (y 0).val = win0_3.index t (0 : Fin 2) * 512 + 1 * (y 0).val; omega
    | ⟨1, _⟩ => show win0_0.index t (1 : Fin 2) * 1024 + 1 * e.val = e.val; omega
  · intro e
    show V c main_v7 (((cfg0.win 1).blk t).view.emb _) = V c main_v7 _
    refine congrArg _ (funext fun a => Fin.ext ?_)
    match a with
    | ⟨0, _⟩ => show win0_1.index t (0 : Fin 2) * 1024 + 1 * e.val = e.val; omega
    | ⟨1, _⟩ => show win0_1.index t (1 : Fin 2) * 1024 + 1 * (y 1).val = win0_3.index t (1 : Fin 2) * 1024 + 1 * (y 1).val; omega
  · show V c main_v11 (((cfg0.win 2).blk t).view.emb _) = V c main_v11 _
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * (y 1).val = win0_3.index t (1 : Fin 2) * 1024 + 1 * (y 1).val; omega

/-- An index of the output array is in point `t`'s block iff each coordinate is in the block's range on its axis. -/
theorem mem_blk0 (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v16).slice (win0_3.rect t)).set ↔ _
  rw [View.set_slice_whole, Rect.mem_set_unit]
  exact Iff.rfl

/-- Every entry of the output array is in some point's block: row R is in the block of point R / 512. -/
theorem cover0 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have ht : (i 0).val / 512 < cfg0.N := by
    show (i 0).val / 512 < grid0.N
    rw [N_0]; omega
  obtain ⟨e30, e31, -⟩ := idx_facts0 ⟨(i 0).val / 512, ht⟩
  refine ⟨⟨(i 0).val / 512, ht⟩, flush0_3 _, ?_⟩
  rw [mem_blk0]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e30]
    show (i 0).val / 512 * 512 ≤ (i 0).val ∧ (i 0).val < (i 0).val / 512 * 512 + 512
    omega
  | ⟨1, _⟩ =>
    show win0_3.index ⟨(i 0).val / 512, ht⟩ (1 : Fin 2) * 1024 ≤ (i 1).val
      ∧ (i 1).val < win0_3.index ⟨(i 0).val / 512, ht⟩ (1 : Fin 2) * 1024 + 1024
    rw [e31]
    omega

/-- The output array after the region is `G0` of the input arrays as the region found them. -/
theorem final0_fun (c : Dev nD) : (dat0 V c).arrAt 3 cfg0.N = G0 V c :=
  (dat0 V c).arrAt_eq_of_cover 3 (G0 V c) (fun t _ => flushed0_eq V c t) cover0

/-- Entry (R, c) of the output array after the region. -/
theorem final0 (c : Dev nD) (R : Fin 4096) (cc : Fin 1024) :
    ((dat0 V c).arrAt 3 cfg0.N : S4096x1024.Idx → EReal) (ix2 R cc)
      = proj (fun e : Fin 1024 => (V c main_v14 : S4096x1024.Idx → EReal) (ix2 R e))
          (fun e => (V c main_v7 : S1024x1024.Idx → EReal) (ix2 e cc))
          ((V c main_v11 : S1x1024.Idx → EReal) (ix2 (0 : Fin 1) cc)) * c8 := by
  rw [final0_fun]
  rfl

end Cert.KernelIdeal.Val

end
-- ==== Proof.KVal1.lean ====
/-
  The fused key/value projection's output array after its region, entry by entry.

  The region's eight grid points each store one block of 512 rows of the output, 2048 columns wide (the keys' 1024
  columns, then the values'); point t stores rows 512 t to 512 t + 511.  What it stores at row r, column c of its block
  is the inner product of row 512 t + r of the activations with column c of the fused weight, plus the bias at c; there
  is no scale here.  The eight blocks tile the 4096 rows, so the output array ends holding that expression at every
  entry.
-/
import proofs.«117626_j75986561401090_2_alg».proof.Proof.KFrame1
import proofs.«117626_j75986561401090_2_alg».proof.Proof.KPayProj
import proofs.«117626_j75986561401090_2_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame Cert.KernelIdeal.Pay Cert.Attn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The output array as one function of the three input arrays: at (R, c), the inner product of activation row R with
    weight column c, plus the bias at c. -/
def G1 (c : Dev nD) : S4096x2048.Idx → EReal := fun i =>
  proj (fun e : Fin 1024 => (V c main_v15 : S4096x1024.Idx → EReal) (ix2 (i 0) e))
    (fun e => (V c main_v10 : S1024x2048.Idx → EReal) (ix2 e (i 1)))
    ((V c main_v13 : S1x2048.Idx → EReal) (ix2 (0 : Fin 1) (i 1)))

/-- The printed index maps over the eight grid points: the activations' and the output's block index is (t, 0), the
    weight's and the bias's (0, 0). -/
theorem idx_facts1 : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- One stored entry, with each loaded block's entries it reads named as entries of the whole arrays. -/
theorem pay1_point (x0 : Vec Ideal S512x1024 .f32) (x1 : Vec Ideal S1024x2048 .bf16) (x2 : Vec Ideal S1x2048 .f32)
    (A0 : S4096x1024.Idx → EReal) (A1 : S1024x2048.Idx → EReal) (A2 : S1x2048.Idx → EReal)
    (j : S512x2048.Idx) (i : S4096x2048.Idx)
    (h0 : ∀ e : Fin 1024, x0 (ix2 (j 0) e) = A0 (ix2 (i 0) e))
    (h1 : ∀ e : Fin 1024, x1 (ix2 e (j 1)) = A1 (ix2 e (i 1)))
    (h2 : x2 (ix2 (0 : Fin 1) (j 1)) = A2 (ix2 (0 : Fin 1) (i 1))) :
    k1_pay1 (F := Ideal) x0 x1 x2 j
      = proj (fun e : Fin 1024 => A0 (ix2 (i 0) e)) (fun e => A1 (ix2 e (i 1))) (A2 (ix2 (0 : Fin 1) (i 1))) := by
  obtain ⟨r, cc, rfl⟩ : ∃ (r : Fin 512) (cc : Fin 2048), j = ix2 r cc := ⟨j 0, j 1, eq_ix2 j⟩
  rw [k1_pay1_apply]
  rw [show (fun e : Fin 1024 => x0 (ix2 r e)) = fun e => A0 (ix2 (i 0) e) from funext h0,
    show (fun e : Fin 1024 => x1 (ix2 e cc)) = fun e => A1 (ix2 e (i 1)) from funext h1,
    show x2 (ix2 (0 : Fin 1) cc) = A2 (ix2 (0 : Fin 1) (i 1)) from h2]

theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz1]
  simp only [View.ld_unit_zero (S := S512x1024) hz1, View.ld_unit_zero (S := S1024x2048) hz1,
    View.ld_unit_zero (S := S1x2048) hz1]
  obtain ⟨e30, e31, e00, e01, e10, e11, e20, e21⟩ := idx_facts1 t
  funext y
  refine pay1_point _ _ _ (V c main_v15) (V c main_v10) (V c main_v13) _ (((cfg1.win 3).blk t).view.emb y) ?_ ?_ ?_
  · intro e
    show V c main_v15 (((cfg1.win 0).blk t).view.emb _) = V c main_v15 _
    refine congrArg _ (funext fun a => Fin.ext ?_)
    match a with
    | ⟨0, _⟩ => show win1_0.index t (0 : Fin 2) * 512 + 1 * (y 0).val = win1_3.index t (0 : Fin 2) * 512 + 1 * (y 0).val; omega
    | ⟨1, _⟩ => show win1_0.index t (1 : Fin 2) * 1024 + 1 * e.val = e.val; omega
  · intro e
    show V c main_v10 (((cfg1.win 1).blk t).view.emb _) = V c main_v10 _
    refine congrArg _ (funext fun a => Fin.ext ?_)
    match a with
    | ⟨0, _⟩ => show win1_1.index t (0 : Fin 2) * 1024 + 1 * e.val = e.val; omega
    | ⟨1, _⟩ => show win1_1.index t (1 : Fin 2) * 2048 + 1 * (y 1).val = win1_3.index t (1 : Fin 2) * 2048 + 1 * (y 1).val; omega
  · show V c main_v13 (((cfg1.win 2).blk t).view.emb _) = V c main_v13 _
    refine congrArg _ (funext fun a => Fin.ext ?_)
    match a with
    | ⟨0, _⟩ => show win1_2.index t (0 : Fin 2) * 1 + 1 * 0 = 0; omega
    | ⟨1, _⟩ => show win1_2.index t (1 : Fin 2) * 2048 + 1 * (y 1).val = win1_3.index t (1 : Fin 2) * 2048 + 1 * (y 1).val; omega

/-- An index of the output array is in point `t`'s block iff each coordinate is in the block's range on its axis. -/
theorem mem_blk1 (t : Fin cfg1.N) (i : S4096x2048.Idx) :
    i ∈ ((cfg1.win 3).blk t).view.set ↔ ∀ a : Fin 2, win1_3.index t a * S512x2048.size a ≤ (i a).val
      ∧ (i a).val < win1_3.index t a * S512x2048.size a + S512x2048.size a := by
  show i ∈ ((View.whole main_v17).slice (win1_3.rect t)).set ↔ _
  rw [View.set_slice_whole, Rect.mem_set_unit]
  exact Iff.rfl

/-- Every entry of the output array is in some point's block: row R is in the block of point R / 512. -/
theorem cover1 (i : S4096x2048.Idx) :
    ∃ t : Fin cfg1.N, (cfg1.win 3).flush t = true ∧ i ∈ ((cfg1.win 3).blk t).view.set := by
  have hi0 : (i 0).val < 4096 := (i 0).isLt
  have hi1 : (i 1).val < 2048 := (i 1).isLt
  have ht : (i 0).val / 512 < cfg1.N := by
    show (i 0).val / 512 < grid1.N
    rw [N_1]; omega
  obtain ⟨e30, e31, -⟩ := idx_facts1 ⟨(i 0).val / 512, ht⟩
  refine ⟨⟨(i 0).val / 512, ht⟩, flush1_3 _, ?_⟩
  rw [mem_blk1]
  intro a
  match a with
  | ⟨0, _⟩ =>
    show win1_3.index ⟨(i 0).val / 512, ht⟩ (0 : Fin 2) * 512 ≤ (i 0).val
      ∧ (i 0).val < win1_3.index ⟨(i 0).val / 512, ht⟩ (0 : Fin 2) * 512 + 512
    rw [e30]
    show (i 0).val / 512 * 512 ≤ (i 0).val ∧ (i 0).val < (i 0).val / 512 * 512 + 512
    omega
  | ⟨1, _⟩ =>
    show win1_3.index ⟨(i 0).val / 512, ht⟩ (1 : Fin 2) * 2048 ≤ (i 1).val
      ∧ (i 1).val < win1_3.index ⟨(i 0).val / 512, ht⟩ (1 : Fin 2) * 2048 + 2048
    rw [e31]
    omega

/-- The output array after the region is `G1` of the input arrays as the region found them. -/
theorem final1_fun (c : Dev nD) : (dat1 V c).arrAt 3 cfg1.N = G1 V c :=
  (dat1 V c).arrAt_eq_of_cover 3 (G1 V c) (fun t _ => flushed1_eq V c t) cover1

/-- Entry (R, c) of the output array after the region. -/
theorem final1 (c : Dev nD) (R : Fin 4096) (cc : Fin 2048) :
    ((dat1 V c).arrAt 3 cfg1.N : S4096x2048.Idx → EReal) (ix2 R cc)
      = proj (fun e : Fin 1024 => (V c main_v15 : S4096x1024.Idx → EReal) (ix2 R e))
          (fun e => (V c main_v10 : S1024x2048.Idx → EReal) (ix2 e cc))
          ((V c main_v13 : S1x2048.Idx → EReal) (ix2 (0 : Fin 1) cc)) := by
  rw [final1_fun]
  rfl

end Cert.KernelIdeal.Val

end
-- ==== Proof.KPayAttn.lean ====
/-
  The attention body read at one entry of what it stores, on the extended reals.

  One step handles two heads that sit side by side in the 128 lanes of its blocks: lanes 0..63 belong to the first,
  lanes 64..127 to the second. For each head it cuts the 64 lanes out of the query, key and value blocks, forms the
  256×2048 matrix of scores (query rows against key rows, an inner product over the 64 lanes), exponentiates every
  score, sums each row, multiplies every exponential by the reciprocal of its row's sum, and multiplies the resulting
  weights into the value block. The two 256×64 results are put side by side again. At row r and column d of head hh
  that is the weighted average `headK` of the value column, with the scores of query row r against every key row.
-/
import proofs.«117626_j75986561401090_2_alg».proof.Proof.Gen.KernelIdeal.Skeleton
import proofs.«117626_j75986561401090_2_alg».proof.Proof.Spec
import proofs.«117626_j75986561401090_2_alg».proof.Proof.KPayProj
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.Attn

variable {α : Type}

/-- The two lanes-of-a-head maps: column `d` of head `hh` sits in lane `64 * hh + d`. -/
def lane (hh : Fin 2) (d : Fin 64) : Fin 128 := ⟨hh.val * 64 + d.val, by have := hh.isLt; have := d.isLt; omega⟩

theorem lane_val (hh : Fin 2) (d : Fin 64) : (lane hh d).val = hh.val * 64 + d.val := rfl

/-- A product of an m×k matrix by the transpose of an n×k matrix accumulated into the zero matrix, read at entry
    (a, b): the inner product of row a of the first with row b of the second. -/
theorem matmul_nt_zero_apply {m k n : Nat} {φ₁ φ₂ : FTy}
    (w : DotDims.WF ⟨2, ![m, k]⟩ ⟨2, ![n, k]⟩ ⟨2, ![m, n]⟩ [1] [1] [0] [0] [] [])
    (A : FVec Ideal ⟨2, ![m, k]⟩ φ₁) (B : FVec Ideal ⟨2, ![n, k]⟩ φ₂) (a : Fin m) (b : Fin n) :
    matmul (⟨[1], [1], [0], [0], [], [], w⟩ : DotDims ⟨2, ![m, k]⟩ ⟨2, ![n, k]⟩ ⟨2, ![m, n]⟩) none A B
        (constant (F := Ideal) ⟨2, ![m, n]⟩ .f32 0x00000000#32) (ix2 a b)
      = ∑ c : Fin k, A (ix2 a c) * B (ix2 b c) := by
  show FloatOps.matmul _ none A B _ (ix2 a b) = _
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A vector of length a viewed as an a×1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column copied across b columns reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of a 256×2048 matrix, at row r: the sum over the 2048 columns of the entries of row r. -/
theorem rowSum_apply (src : FVec Ideal S256x2048 .f32) (r : Fin 256) :
    multiReduction (F := Ideal) .add [1] S256 src 0x00000000#32 reduces_S256x2048_S256 (.inl rfl) rfl (ix1 r)
      = ∑ j : Fin 2048, src (ix2 r j) := by
  refine (Ideal.multiReduction_add_single src _ reduces_S256x2048_S256 (.inl rfl) rfl (ix1 r)).trans ?_
  refine Finset.sum_congr rfl fun j _ => congrArg src ?_
  funext ax; apply Fin.ext
  match ax with
  | ⟨0, _⟩ => rfl
  | ⟨1, _⟩ => rfl

/-- The normalised weights at (r, j): the exponential of the score there times the reciprocal of the sum of the
    exponentials of row r. The row sums are taken once, stood up as a column, inverted, and copied across the row. -/
theorem weights_apply (s : FVec Ideal S256x2048 .f32) (r : Fin 256) (j : Fin 2048) :
    (truncf .bf16 (mulf (exp s) (broadcastTo S256x2048
        (divf (broadcast S256x1 (Scalar.ofBits (F := Ideal) .f32 0x3F800000#32))
          (shapeCast S256x1 (multiReduction (F := Ideal) .add [1] S256 (exp s) 0x00000000#32 reduces_S256x2048_S256 (.inl rfl) rfl)
            shapeCasts_S256_S256x1))
        broadcasts_S256x1_S256x2048)) bitsLt_bf16_f32 : FVec Ideal S256x2048 .bf16) (ix2 r j)
      = Ideal.exp (s (ix2 r j)) * Ideal.div 1 (∑ j' : Fin 2048, Ideal.exp (s (ix2 r j'))) := by
  have hb := broadcastTo_a1_ab_apply
    (divf (broadcast S256x1 (Scalar.ofBits (F := Ideal) .f32 0x3F800000#32))
      (shapeCast S256x1 (multiReduction (F := Ideal) .add [1] S256 (exp s) 0x00000000#32 reduces_S256x2048_S256 (.inl rfl) rfl)
        shapeCasts_S256_S256x1))
    broadcasts_S256x1_S256x2048 r j
  have hc := shapeCast_a_a1_apply
    (multiReduction (F := Ideal) .add [1] S256 (exp s) 0x00000000#32 reduces_S256x2048_S256 (.inl rfl) rfl)
    shapeCasts_S256_S256x1 r (0 : Fin 1)
  have hs := rowSum_apply (exp s) r
  have h1 : Ideal.ofBits .f32 0x3F800000#32 = 1 := IdealRules.sign_bit.ideal_onePat .f32
  show Ideal.exp (s (ix2 r j)) * _ = _
  refine congrArg (Ideal.exp (s (ix2 r j)) * ·) ?_
  refine hb.trans ?_
  show Ideal.div (Ideal.ofBits .f32 0x3F800000#32) _ = _
  rw [h1, hc, hs]
  rfl

/-- The weighted average `headK` does not depend on how its three arguments are written. -/
theorem headK_congr {D J : Type} [Fintype D] [Fintype J] {q q' : D → EReal} {k k' : J → D → EReal} {v v' : J → EReal}
    (hq : ∀ d, q d = q' d) (hk : ∀ j d, k j d = k' j d) (hv : ∀ j, v j = v' j) : headK q k v = headK q' k' v' := by
  obtain rfl : q = q' := funext hq
  obtain rfl : k = k' := funext fun j => funext (hk j)
  obtain rfl : v = v' := funext hv
  rfl

/-- One head, from its three 64-lane pieces: scores, exponentials, row sums, reciprocals, weights, and the product
    with the values, read at row r and column d. -/
theorem head_apply (q : FVec Ideal S256x64 .bf16) (k v : FVec Ideal S2048x64 .bf16) (r : Fin 256) (d : Fin 64) :
    matmul dot_S256x2048_S2048x64_S256x64_1_0_0_1_n_n none
      (truncf .bf16 (mulf (exp (matmul dot_S256x64_S2048x64_S256x2048_1_1_0_0_n_n none q k (constant (F := Ideal) S256x2048 .f32 0x00000000#32)))
        (broadcastTo S256x2048
          (divf (broadcast S256x1 (Scalar.ofBits (F := Ideal) .f32 0x3F800000#32))
            (shapeCast S256x1 (multiReduction (F := Ideal) .add [1] S256
              (exp (matmul dot_S256x64_S2048x64_S256x2048_1_1_0_0_n_n none q k (constant (F := Ideal) S256x2048 .f32 0x00000000#32)))
              0x00000000#32 reduces_S256x2048_S256 (.inl rfl) rfl) shapeCasts_S256_S256x1))
          broadcasts_S256x1_S256x2048)) bitsLt_bf16_f32)
      v (constant (F := Ideal) S256x64 .f32 0x00000000#32) (ix2 r d)
    = headK (fun d' : Fin 64 => q (ix2 r d')) (fun (j : Fin 2048) d' => k (ix2 j d')) (fun j => v (ix2 j d)) := by
  have hS : ∀ j : Fin 2048,
      matmul dot_S256x64_S2048x64_S256x2048_1_1_0_0_n_n none q k (constant (F := Ideal) S256x2048 .f32 0x00000000#32) (ix2 r j)
        = ∑ d' : Fin 64, q (ix2 r d') * k (ix2 j d') := fun j =>
    matmul_nt_zero_apply (φ₁ := .bf16) (φ₂ := .bf16) dot_S256x64_S2048x64_S256x2048_1_1_0_0_n_n_wf q k r j
  refine (matmul_nn_zero_apply (φ₁ := .bf16) (φ₂ := .bf16) dot_S256x2048_S2048x64_S256x64_1_0_0_1_n_n_wf _ v r d).trans ?_
  unfold headK score
  refine Finset.sum_congr rfl fun j _ => ?_
  refine congrArg (· * v (ix2 j d)) ?_
  refine (weights_apply _ r j).trans ?_
  simp only [hS]

/-- The lanes of a head cut out of a block whose leading axis has one entry: the piece at (i, d') is the block at
    (0, i, lane). `o` is where the cut starts, 0 for the first head and 64 for the second. -/
theorem piece_apply {n : ℕ} (o : ℕ) (x : (⟨3, ![1, n, 128]⟩ : Shape).Idx → α)
    (hc : (⟨3, ![1, n, 128]⟩ : Shape).ShapeCasts ⟨2, ![n, 128]⟩)
    (hsl : (⟨2, ![n, 128]⟩ : Shape).Slices ![0, o] ⟨2, ![n, 64]⟩) (i : Fin n) (d' : Fin 64) (l : Fin 128)
    (hl : l.val = o + d'.val) :
    extractStridedSlice ⟨2, ![n, 64]⟩ ![0, o] (shapeCast ⟨2, ![n, 128]⟩ x hc) hsl (ix2 i d') = x (ix3 (0 : Fin 1) i l) :=
  (slice2_axis1_apply o _ hsl i d' l hl).trans (shapeCast_1ab_ab_apply x hc i l)

/-- The attention body's stored value at row r and column d of the FIRST head (lanes 0..63). -/
theorem k2_pay1_apply_head0 (x0 : Vec Ideal S1x256x128 .bf16) (x1 x2 : Vec Ideal S1x2048x128 .bf16)
    (r : Fin 256) (d : Fin 64) :
    k2_pay1 (F := Ideal) x0 x1 x2 (ix3 (0 : Fin 1) r (lane 0 d))
      = headK (fun d' : Fin 64 => x0 (ix3 0 r (lane 0 d'))) (fun (j : Fin 2048) d' => x1 (ix3 0 j (lane 0 d')))
          (fun j => x2 (ix3 0 j (lane 0 d))) := by
  have hl : ∀ d' : Fin 64, (lane 0 d').val = 0 + d'.val := fun d' => by
    show 0 * 64 + d'.val = 0 + d'.val
    omega
  unfold k2_pay1
  refine (shapeCast_ab_1ab_apply _ _ (0 : Fin 1) r (lane 0 d)).trans ?_
  refine (concatenate_pair_apply_left (t := S256x128) (s₁ := S256x64) (s₂ := S256x64) (1 : Fin 2) _ _ _ (ix2 r (lane 0 d)) rfl (ix2 r d) (fun b => ?_)).trans ?_
  · match b with
    | ⟨0, _⟩ => rfl
    | ⟨1, _⟩ => exact ((hl d).trans (Nat.zero_add _)).symm
  refine (head_apply _ _ _ r d).trans ?_
  exact headK_congr
    (fun d' => piece_apply 0 x0 _ _ r d' (lane 0 d') (hl d'))
    (fun j d' => piece_apply 0 x1 _ _ j d' (lane 0 d') (hl d'))
    (fun j => piece_apply 0 x2 _ _ j d (lane 0 d) (hl d))

/-- The attention body's stored value at row r and column d of the SECOND head (lanes 64..127). -/
theorem k2_pay1_apply_head1 (x0 : Vec Ideal S1x256x128 .bf16) (x1 x2 : Vec Ideal S1x2048x128 .bf16)
    (r : Fin 256) (d : Fin 64) :
    k2_pay1 (F := Ideal) x0 x1 x2 (ix3 (0 : Fin 1) r (lane 1 d))
      = headK (fun d' : Fin 64 => x0 (ix3 0 r (lane 1 d'))) (fun (j : Fin 2048) d' => x1 (ix3 0 j (lane 1 d')))
          (fun j => x2 (ix3 0 j (lane 1 d))) := by
  have hl : ∀ d' : Fin 64, (lane 1 d').val = 64 + d'.val := fun d' => by
    show 1 * 64 + d'.val = 64 + d'.val
    omega
  unfold k2_pay1
  refine (shapeCast_ab_1ab_apply _ _ (0 : Fin 1) r (lane 1 d)).trans ?_
  refine (concatenate_pair_apply_right (t := S256x128) (s₁ := S256x64) (s₂ := S256x64) (1 : Fin 2) _ _ _
    (ix2 r (lane 1 d)) rfl rfl (ix2 r d) (fun b hb => ?_) ?_).trans ?_
  · match b with
    | ⟨0, _⟩ => rfl
    | ⟨1, _⟩ => exact absurd rfl hb
  · show d.val + 64 = (lane 1 d).val
    rw [hl d, Nat.add_comm]
  refine (head_apply _ _ _ r d).trans ?_
  exact headK_congr
    (fun d' => piece_apply 64 x0 _ _ r d' (lane 1 d') (hl d'))
    (fun j d' => piece_apply 64 x1 _ _ j d' (lane 1 d') (hl d'))
    (fun j => piece_apply 64 x2 _ _ j d (lane 1 d) (hl d))

/-- Both heads at once: the attention body's stored value at row r and column d of head hh. -/
theorem k2_pay1_apply (x0 : Vec Ideal S1x256x128 .bf16) (x1 x2 : Vec Ideal S1x2048x128 .bf16)
    (r : Fin 256) (d : Fin 64) (hh : Fin 2) :
    k2_pay1 (F := Ideal) x0 x1 x2 (ix3 (0 : Fin 1) r (lane hh d))
      = headK (fun d' : Fin 64 => x0 (ix3 0 r (lane hh d'))) (fun (j : Fin 2048) d' => x1 (ix3 0 j (lane hh d')))
          (fun j => x2 (ix3 0 j (lane hh d))) := by
  match hh with
  | ⟨0, _⟩ => exact k2_pay1_apply_head0 x0 x1 x2 r d
  | ⟨1, _⟩ => exact k2_pay1_apply_head1 x0 x1 x2 r d

end Cert.KernelIdeal.Pay

end
-- ==== Proof.KCover2.lean ====
/-
  The attention region's output blocks tile the output array.

  The region's 128 grid points are (batch entry, pair of heads, block of 256 query rows), the last coordinate moving
  fastest.  Point t stores the block whose batch entry is t / 64, whose rows are the 256 starting at 256 (t mod 8) and
  whose columns are the 128 starting at 128 (t / 8 mod 8).  An entry (b, n, c) of the output array is therefore in the
  block of point 64 b + 8 (c / 128) + n / 256, and every entry is in some point's block.
-/
import proofs.«117626_j75986561401090_2_alg».proof.Proof.KFrame2
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-- The output window's printed index map over the 128 grid points: block index (t / 64, t mod 8, t / 8 mod 8). -/
theorem idx_cover2 : ∀ t : Fin cfg2.N, win2_3.index t (0 : Fin 3) = t.val / 64 ∧ win2_3.index t (1 : Fin 3) = t.val % 8
    ∧ win2_3.index t (2 : Fin 3) = t.val / 8 % 8 :=
  (by decide +kernel : ∀ t : Fin grid2.N, _)

/-- An index of the output array is in point `t`'s block iff each coordinate is in the block's range on its axis. -/
theorem mem_blk2 (t : Fin cfg2.N) (i : S2x2048x1024.Idx) :
    i ∈ ((cfg2.win 3).blk t).view.set ↔ ∀ a : Fin 3, win2_3.index t a * S1x256x128.size a ≤ (i a).val
      ∧ (i a).val < win2_3.index t a * S1x256x128.size a + S1x256x128.size a := by
  show i ∈ ((View.whole main_v20).slice (win2_3.rect t)).set ↔ _
  rw [View.set_slice_whole, Rect.mem_set_unit]
  exact Iff.rfl

/-- Every entry of the output array is in some point's block. -/
theorem cover2 : ∀ i : S2x2048x1024.Idx,
    ∃ t : Fin cfg2.N, (cfg2.win 3).flush t = true ∧ i ∈ ((cfg2.win 3).blk t).view.set := by
  intro i
  have hi0 : (i 0).val < 2 := (i 0).isLt
  have hi1 : (i 1).val < 2048 := (i 1).isLt
  have hi2 : (i 2).val < 1024 := (i 2).isLt
  have ht : (i 0).val * 64 + (i 2).val / 128 * 8 + (i 1).val / 256 < cfg2.N := by
    show _ < grid2.N
    rw [N_2]; omega
  obtain ⟨e0, e1, e2⟩ := idx_cover2 ⟨(i 0).val * 64 + (i 2).val / 128 * 8 + (i 1).val / 256, ht⟩
  refine ⟨⟨(i 0).val * 64 + (i 2).val / 128 * 8 + (i 1).val / 256, ht⟩, flush2_3 _, ?_⟩
  rw [mem_blk2]
  intro a
  match a with
  | ⟨0, _⟩ =>
    show win2_3.index ⟨(i 0).val * 64 + (i 2).val / 128 * 8 + (i 1).val / 256, ht⟩ (0 : Fin 3) * 1 ≤ (i 0).val
      ∧ (i 0).val < win2_3.index ⟨(i 0).val * 64 + (i 2).val / 128 * 8 + (i 1).val / 256, ht⟩ (0 : Fin 3) * 1 + 1
    rw [e0]
    show ((i 0).val * 64 + (i 2).val / 128 * 8 + (i 1).val / 256) / 64 * 1 ≤ (i 0).val
      ∧ (i 0).val < ((i 0).val * 64 + (i 2).val / 128 * 8 + (i 1).val / 256) / 64 * 1 + 1
    omega
  | ⟨1, _⟩ =>
    show win2_3.index ⟨(i 0).val * 64 + (i 2).val / 128 * 8 + (i 1).val / 256, ht⟩ (1 : Fin 3) * 256 ≤ (i 1).val
      ∧ (i 1).val < win2_3.index ⟨(i 0).val * 64 + (i 2).val / 128 * 8 + (i 1).val / 256, ht⟩ (1 : Fin 3) * 256 + 256
    rw [e1]
    show ((i 0).val * 64 + (i 2).val / 128 * 8 + (i 1).val / 256) % 8 * 256 ≤ (i 1).val
      ∧ (i 1).val < ((i 0).val * 64 + (i 2).val / 128 * 8 + (i 1).val / 256) % 8 * 256 + 256
    omega
  | ⟨2, _⟩ =>
    show win2_3.index ⟨(i 0).val * 64 + (i 2).val / 128 * 8 + (i 1).val / 256, ht⟩ (2 : Fin 3) * 128 ≤ (i 2).val
      ∧ (i 2).val < win2_3.index ⟨(i 0).val * 64 + (i 2).val / 128 * 8 + (i 1).val / 256, ht⟩ (2 : Fin 3) * 128 + 128
    rw [e2]
    show ((i 0).val * 64 + (i 2).val / 128 * 8 + (i 1).val / 256) / 8 % 8 * 128 ≤ (i 2).val
      ∧ (i 2).val < ((i 0).val * 64 + (i 2).val / 128 * 8 + (i 1).val / 256) / 8 % 8 * 128 + 128
    omega

end Cert.KernelIdeal.Val

end
-- ==== Proof.KVal2.lean ====
/-
  From blocks to the array, for the attention region, on the extended reals.

  The region runs over a grid of 2 × 8 × 8 points: a batch entry, a pair of heads, a block of 256 query rows. A point
  loads the 256 × 128 block of (scaled) queries of its pair and rows, the 2048 × 128 block of keys of its pair and the
  2048 × 128 block of values of its pair — the last two from the one fused key/value array, the values 1024 columns
  further on — and stores a 256 × 128 block of results. Here that block is shown to be a block of ONE function of the
  two arrays, index by index: at batch entry b, row n and column 64 h + d the weighted average `headK` of the value
  column (h, d) over the key rows, with the scores of query row n of head h. The stored blocks tile the result array,
  so after the region the array is that function.
-/
import proofs.«117626_j75986561401090_2_alg».proof.Proof.KFrame2
import proofs.«117626_j75986561401090_2_alg».proof.Proof.KPayAttn
import proofs.«117626_j75986561401090_2_alg».proof.Proof.KCover2
import proofs.«117626_j75986561401090_2_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Frame Cert.KernelIdeal.Pay Cert.Attn
open Idealize.ShloMosaic Idealize.ShloMosaic.TcCoe Idealize.ShloMosaic.ValueIdx Idealize.SL.Sem
open Idealize.ShloMosaic.Pipeline (Dat)

/-! ## The whole array the attention region leaves -/

/-- Where the keys and the values of head `h`, column `d` sit among the 2048 columns of the fused key/value array:
    the keys in the first 1024 columns, the values in the last 1024. -/
def kcol (h : Fin 16) (d : Fin 64) : Fin 2048 := ⟨(hcol h d).val, by have := (hcol h d).isLt; omega⟩
def vcol (h : Fin 16) (d : Fin 64) : Fin 2048 := ⟨1024 + (hcol h d).val, by have := (hcol h d).isLt; omega⟩

theorem kcol_val (h : Fin 16) (d : Fin 64) : (kcol h d).val = h.val * 64 + d.val := rfl
theorem vcol_val (h : Fin 16) (d : Fin 64) : (vcol h d).val = 1024 + (h.val * 64 + d.val) := rfl

/-- The result at batch entry `b`, query row `n`, head `h`, column `d`: the weighted average of the head's value
    column over the 2048 key rows, weighted by the normalised exponentials of the scores of the query row. -/
def R2 (Q : S2x2048x1024.Idx → EReal) (KV : S2x2048x2048.Idx → EReal) (b : Fin 2) (n : Fin 2048) (h : Fin 16) (d : Fin 64) : EReal :=
  headK (fun d' : Fin 64 => Q (ix3 b n (hcol h d'))) (fun (j : Fin 2048) d' => KV (ix3 b j (kcol h d')))
    (fun j => KV (ix3 b j (vcol h d)))

/-- The same as one function of the array index: column `c` of the 1024 is column `c % 64` of head `c / 64`. -/
def G2 (Q : S2x2048x1024.Idx → EReal) (KV : S2x2048x2048.Idx → EReal) : S2x2048x1024.Idx → EReal := fun i =>
  R2 Q KV (i 0) (i 1) ⟨(i 2).val / 64, by have h : (i 2).val < 1024 := (i 2).isLt; omega⟩
    ⟨(i 2).val % 64, Nat.mod_lt _ (by decide)⟩

theorem G2_apply (Q : S2x2048x1024.Idx → EReal) (KV : S2x2048x2048.Idx → EReal) (b : Fin 2) (n : Fin 2048) (h : Fin 16) (d : Fin 64) :
    G2 Q KV (ix3 b n (hcol h d)) = R2 Q KV b n h d := by
  have e1 : (⟨(hcol h d).val / 64, by have := (hcol h d).isLt; omega⟩ : Fin 16) = h :=
    Fin.ext (by show (hcol h d).val / 64 = h.val; rw [hcol_val]; have := d.isLt; omega)
  have e2 : (⟨(hcol h d).val % 64, Nat.mod_lt _ (by decide)⟩ : Fin 64) = d :=
    Fin.ext (by show (hcol h d).val % 64 = d.val; rw [hcol_val]; have := d.isLt; omega)
  show R2 Q KV b n ⟨(hcol h d).val / 64, _⟩ ⟨(hcol h d).val % 64, _⟩ = _
  rw [e1, e2]

/-- Every one of the 128 lanes is a column of one of the two heads of the pair. -/
theorem exists_lane (l : Fin 128) : ∃ (hh : Fin 2) (d : Fin 64), l = lane hh d :=
  ⟨⟨l.val / 64, by have := l.isLt; omega⟩, ⟨l.val % 64, Nat.mod_lt _ (by decide)⟩,
    Fin.ext (by show l.val = l.val / 64 * 64 + l.val % 64; omega)⟩

/-! ## One grid point's stored block is a block of that array -/

/-- A point's stored block, entry by entry, when its three loaded blocks are blocks of the query array `Q` and the
    fused key/value array `KV`: batch entry `b`, query rows `256 qi ..`, the 128 columns of head pair `hp` (for the
    values, of pair `8 + hp`: the second half of the fused array). The entry at row `r`, lane `l` of the block is the
    whole-array function at row `256 qi + r`, column `128 hp + l`. -/
theorem pay_block (x0 : Vec Ideal S1x256x128 .bf16) (x1 x2 : Vec Ideal S1x2048x128 .bf16)
    (Q : S2x2048x1024.Idx → EReal) (KV : S2x2048x2048.Idx → EReal) (b : Fin 2) (qi hp : Fin 8)
    (h0 : ∀ (r : Fin 256) (l : Fin 128) (n : Fin 2048) (cc : Fin 1024), n.val = qi.val * 256 + r.val →
      cc.val = hp.val * 128 + l.val → x0 (ix3 (0 : Fin 1) r l) = Q (ix3 b n cc))
    (h1 : ∀ (j : Fin 2048) (l : Fin 128) (cc : Fin 2048), cc.val = hp.val * 128 + l.val →
      x1 (ix3 (0 : Fin 1) j l) = KV (ix3 b j cc))
    (h2 : ∀ (j : Fin 2048) (l : Fin 128) (cc : Fin 2048), cc.val = (8 + hp.val) * 128 + l.val →
      x2 (ix3 (0 : Fin 1) j l) = KV (ix3 b j cc))
    (r : Fin 256) (l : Fin 128) (n : Fin 2048) (cc : Fin 1024)
    (hn : n.val = qi.val * 256 + r.val) (hcc : cc.val = hp.val * 128 + l.val) :
    k2_pay1 (F := Ideal) x0 x1 x2 (ix3 (0 : Fin 1) r l) = G2 Q KV (ix3 b n cc) := by
  obtain ⟨hh, d, rfl⟩ := exists_lane l
  have hhp := hp.isLt
  have hhh := hh.isLt
  have hd := d.isLt
  -- the head of the 16 this lane belongs to
  have hcc' : cc = hcol ⟨hp.val * 2 + hh.val, by omega⟩ d :=
    Fin.ext (by rw [hcc, hcol_val, lane_val]; show _ = (hp.val * 2 + hh.val) * 64 + d.val; omega)
  rw [hcc', G2_apply, k2_pay1_apply]
  unfold R2
  refine headK_congr (fun d' => ?_) (fun j d' => ?_) (fun j => ?_)
  · refine h0 r (lane hh d') n _ hn ?_
    rw [hcol_val, lane_val]; show (hp.val * 2 + hh.val) * 64 + d'.val = _; omega
  · refine h1 j (lane hh d') _ ?_
    rw [kcol_val, lane_val]; show (hp.val * 2 + hh.val) * 64 + d'.val = _; omega
  · refine h2 j (lane hh d) _ ?_
    rw [vcol_val, lane_val]; show 1024 + ((hp.val * 2 + hh.val) * 64 + d.val) = _; omega

/-- The same with the block index and the array index as they come: any block index `y`, any array index `i` whose
    coordinates are `y`'s moved to the point's block. -/
theorem pay_block_idx (x0 : Vec Ideal S1x256x128 .bf16) (x1 x2 : Vec Ideal S1x2048x128 .bf16)
    (Q : S2x2048x1024.Idx → EReal) (KV : S2x2048x2048.Idx → EReal) (b : Fin 2) (qi hp : Fin 8)
    (h0 : ∀ (r : Fin 256) (l : Fin 128) (n : Fin 2048) (cc : Fin 1024), n.val = qi.val * 256 + r.val →
      cc.val = hp.val * 128 + l.val → x0 (ix3 (0 : Fin 1) r l) = Q (ix3 b n cc))
    (h1 : ∀ (j : Fin 2048) (l : Fin 128) (cc : Fin 2048), cc.val = hp.val * 128 + l.val →
      x1 (ix3 (0 : Fin 1) j l) = KV (ix3 b j cc))
    (h2 : ∀ (j : Fin 2048) (l : Fin 128) (cc : Fin 2048), cc.val = (8 + hp.val) * 128 + l.val →
      x2 (ix3 (0 : Fin 1) j l) = KV (ix3 b j cc))
    (y : S1x256x128.Idx) (i : S2x2048x1024.Idx)
    (hi0 : (i 0).val = b.val) (hi1 : (i 1).val = qi.val * 256 + (y 1).val) (hi2 : (i 2).val = hp.val * 128 + (y 2).val) :
    k2_pay1 (F := Ideal) x0 x1 x2 y = G2 Q KV i := by
  have hy : y = ix3 (0 : Fin 1) (y 1) (y 2) := by
    funext a; apply Fin.ext
    match a with
    | ⟨0, _⟩ => show (y 0).val = 0; have h : (y 0).val < 1 := (y 0).isLt; omega
    | ⟨1, _⟩ => rfl
    | ⟨2, _⟩ => rfl
  have hi : i = ix3 b (i 1) (i 2) := by
    funext a; apply Fin.ext
    match a with
    | ⟨0, _⟩ => exact hi0
    | ⟨1, _⟩ => rfl
    | ⟨2, _⟩ => rfl
  rw [hi, hy]
  exact pay_block x0 x1 x2 Q KV b qi hp h0 h1 h2 (y 1) (y 2) (i 1) (i 2) hi1 hi2

/-! ## The printed index maps over the grid -/

/-- The grid is (batch entry, head pair, block of query rows), row-major: point `t` is batch entry `t / 64`, pair
    `t / 8 % 8`, row block `t % 8`. The queries' and the result's windows sit at block (entry, row block, pair); the
    keys' at (entry, 0, pair); the values' at (entry, 0, 8 + pair). Decided over the 128 points. -/
theorem idx_facts2 : ∀ t : Fin cfg2.N,
    win2_3.index t (0 : Fin 3) = t.val / 64 ∧ win2_3.index t (1 : Fin 3) = t.val % 8 ∧ win2_3.index t (2 : Fin 3) = t.val / 8 % 8
    ∧ win2_0.index t (0 : Fin 3) = t.val / 64 ∧ win2_0.index t (1 : Fin 3) = t.val % 8 ∧ win2_0.index t (2 : Fin 3) = t.val / 8 % 8
    ∧ win2_1.index t (0 : Fin 3) = t.val / 64 ∧ win2_1.index t (1 : Fin 3) = 0 ∧ win2_1.index t (2 : Fin 3) = t.val / 8 % 8
    ∧ win2_2.index t (0 : Fin 3) = t.val / 64 ∧ win2_2.index t (1 : Fin 3) = 0 ∧ win2_2.index t (2 : Fin 3) = 8 + t.val / 8 % 8 :=
  (by decide +kernel : ∀ t : Fin grid2.N, _)

theorem hz3 : (![0, 0, 0] : Fin 3 → Nat) = fun _ => 0 := funext fun a => by fin_cases a <;> rfl

variable (V : (c : Dev nD) → (b : Ref sig .tc) → Buf (Elt Ideal) ((c : Thread nD τ).loc b))

/-- WHAT POINT `t` WRITES BACK is block `t` of the whole-array function of the query array and the fused key/value
    array as the region finds them. -/
theorem flushed2_eq (c : Dev nD) (t : Fin cfg2.N) :
    (dat2 V c).flushed 3 t = ((cfg2.win 3).blk t).view.read (Elt Ideal) (G2 (V c main_v18) (V c main_v19)) := by
  show (cfg2.win 3).cut (grid2.coords t) ((dat2 V c).after 3 t) = _
  rw [after2_3]
  unfold out2_3
  rw [View.canon_unit_zero hz3]
  simp only [View.ld_unit_zero (S := S1x256x128) hz3, View.ld_unit_zero (S := S1x2048x128) hz3]
  obtain ⟨e0, e1, e2, a0, a1, a2, b0, b1, b2, c0, c1, c2⟩ := idx_facts2 t
  funext y
  have ht : t.val < 128 := t.isLt
  refine pay_block_idx (iblk2 V c 0 t) (iblk2 V c 1 t) (iblk2 V c 2 t) (V c main_v18) (V c main_v19)
    ⟨t.val / 64, by omega⟩ ⟨t.val % 8, by omega⟩ ⟨t.val / 8 % 8, by omega⟩ ?_ ?_ ?_ y
    (((cfg2.win 3).blk t).view.emb y) ?_ ?_ ?_
  · intro r l n cc hn hcc
    show V c main_v18 (((cfg2.win 0).blk t).view.emb (ix3 (0 : Fin 1) r l)) = V c main_v18 (ix3 _ n cc)
    refine congrArg (V c main_v18) (funext fun a => Fin.ext ?_)
    match a with
    | ⟨0, _⟩ => show win2_0.index t (0 : Fin 3) * 1 + 1 * 0 = t.val / 64; omega
    | ⟨1, _⟩ => show win2_0.index t (1 : Fin 3) * 256 + 1 * r.val = n.val; rw [hn]; show _ = t.val % 8 * 256 + r.val; omega
    | ⟨2, _⟩ => show win2_0.index t (2 : Fin 3) * 128 + 1 * l.val = cc.val; rw [hcc]; show _ = t.val / 8 % 8 * 128 + l.val; omega
  · intro j l cc hcc
    show V c main_v19 (((cfg2.win 1).blk t).view.emb (ix3 (0 : Fin 1) j l)) = V c main_v19 (ix3 _ j cc)
    refine congrArg (V c main_v19) (funext fun a => Fin.ext ?_)
    match a with
    | ⟨0, _⟩ => show win2_1.index t (0 : Fin 3) * 1 + 1 * 0 = t.val / 64; omega
    | ⟨1, _⟩ => show win2_1.index t (1 : Fin 3) * 2048 + 1 * j.val = j.val; omega
    | ⟨2, _⟩ => show win2_1.index t (2 : Fin 3) * 128 + 1 * l.val = cc.val; rw [hcc]; show _ = t.val / 8 % 8 * 128 + l.val; omega
  · intro j l cc hcc
    show V c main_v19 (((cfg2.win 2).blk t).view.emb (ix3 (0 : Fin 1) j l)) = V c main_v19 (ix3 _ j cc)
    refine congrArg (V c main_v19) (funext fun a => Fin.ext ?_)
    match a with
    | ⟨0, _⟩ => show win2_2.index t (0 : Fin 3) * 1 + 1 * 0 = t.val / 64; omega
    | ⟨1, _⟩ => show win2_2.index t (1 : Fin 3) * 2048 + 1 * j.val = j.val; omega
    | ⟨2, _⟩ => show win2_2.index t (2 : Fin 3) * 128 + 1 * l.val = cc.val; rw [hcc]; show _ = (8 + t.val / 8 % 8) * 128 + l.val; omega
  · show win2_3.index t (0 : Fin 3) * 1 + 1 * (y 0).val = t.val / 64
    have hy0 : (y 0).val < 1 := (y 0).isLt
    omega
  · show win2_3.index t (1 : Fin 3) * 256 + 1 * (y 1).val = t.val % 8 * 256 + (y 1).val
    omega
  · show win2_3.index t (2 : Fin 3) * 128 + 1 * (y 2).val = t.val / 8 % 8 * 128 + (y 2).val
    omega

/-! ## The array after the region -/

/-- The stored blocks tile the result array, so after the region it IS the whole-array function. -/
theorem final2_fun (c : Dev nD) : (dat2 V c).arrAt 3 cfg2.N = G2 (V c main_v18) (V c main_v19) :=
  (dat2 V c).arrAt_eq_of_cover 3 (G2 (V c main_v18) (V c main_v19)) (fun t _ => flushed2_eq V c t) cover2

/-- Entry by entry: at batch entry `b`, row `n`, head `h`, column `d` the result array holds the weighted average of
    the head's value column — the fused array's column 1024 + 64 h + d — over the 2048 key rows, weighted by the
    normalised exponentials of the scores of query row `n` against the head's key columns 64 h .. 64 h + 63. -/
theorem final2 (c : Dev nD) (b : Fin 2) (n : Fin 2048) (h : Fin 16) (d : Fin 64) :
    ((dat2 V c).arrAt 3 cfg2.N : S2x2048x1024.Idx → EReal) (ix3 b n (hcol h d))
      = headK (fun d' : Fin 64 => (V c main_v18 : S2x2048x1024.Idx → EReal) (ix3 b n (hcol h d')))
          (fun (j : Fin 2048) d' => (V c main_v19 : S2x2048x2048.Idx → EReal)
            (ix3 b j ⟨(hcol h d').val, by have := (hcol h d').isLt; omega⟩))
          (fun j => (V c main_v19 : S2x2048x2048.Idx → EReal)
            (ix3 b j ⟨1024 + (hcol h d).val, by have := (hcol h d).isLt; omega⟩)) := by
  rw [final2_fun V c]
  exact G2_apply _ _ b n h d

end Cert.KernelIdeal.Val

end
-- ==== Proof.KHost.lean ====
/-
  The host stretches of the kernel program, read entry by entry.

  Before its first kernel the program rearranges its inputs: it cuts the fused weight into its query rows and its
  key-and-value rows and transposes each block, so that a feature indexes rows and an output column indexes columns; it
  cuts the fused bias the same way and lays each part out as a one-row matrix; and it lays the two activation arrays out
  as 4096 rows, batch entry `b`'s row `n` becoming row `b * 2048 + n`.  Between its kernels it regroups the 4096
  projected rows by batch entry again.  None of these steps computes anything: each entry of a result is one entry of
  an input, and the statements below say which.  The narrowing of the number format between two of the steps changes
  nothing on the extended reals.
-/
import proofs.«117626_j75986561401090_2_alg».proof.Proof.Gen.KernelIdeal.Regions
import proofs.«117626_j75986561401090_2_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostVal

open Idealize.ShloMosaic Idealize.ShloMosaic.TcCoe Idealize.ShloMosaic.ValueIdx Idealize.ShloMosaic.StableHlo
open Cert.KernelIdeal Cert.KernelIdeal.Gen Cert.Attn

variable (V0 : Valuation τ sig (Elt Ideal))

/-! ### The activations as 4096 rows -/

/-- The activations as 4096 rows: row `b * 2048 + n` is row `n` of batch entry `b`. -/
theorem v14_at (b : Fin 2) (n : Fin 2048) (e : Fin 1024) :
    (StableHlo.after (hostOps0 (F := Ideal)) V0 (Proc.devRef .tc main_v14) : S4096x1024.Idx → EReal)
        (ix2 (⟨b.val * 2048 + n.val, by have := b.isLt; have := n.isLt; omega⟩ : Fin 4096) e)
      = (V0 (Proc.devRef .tc main_arg0) : S2x2048x1024.Idx → EReal) (ix3 b n e) := by
  have t : (StableHlo.after (hostOps0 (F := Ideal)) V0 (Proc.devRef .tc main_v14) : S4096x1024.Idx → EReal)
      = shapeCast S4096x1024 (V0 (Proc.devRef .tc main_arg0) : S2x2048x1024.Idx → EReal) shapeCasts_S2x2048x1024_S4096x1024 := by
    dsimp only [hostOps0]
    after_results
    rfl
  rw [t]
  exact shapeCast_apply (s := S2x2048x1024) (t := S4096x1024) _ _ _ _ (by
    rw [Shape.rowMajor_val_three, Shape.rowMajor_val_two]
    show (b.val * 2048 + n.val) * 1024 + e.val = (b.val * 2048 + n.val) * 1024 + e.val
    rfl)

/-- The activations as 4096 rows: row `b * 2048 + n` is row `n` of batch entry `b`. -/
theorem v15_at (b : Fin 2) (n : Fin 2048) (e : Fin 1024) :
    (StableHlo.after (hostOps0 (F := Ideal)) V0 (Proc.devRef .tc main_v15) : S4096x1024.Idx → EReal)
        (ix2 (⟨b.val * 2048 + n.val, by have := b.isLt; have := n.isLt; omega⟩ : Fin 4096) e)
      = (V0 (Proc.devRef .tc main_arg1) : S2x2048x1024.Idx → EReal) (ix3 b n e) := by
  have t : (StableHlo.after (hostOps0 (F := Ideal)) V0 (Proc.devRef .tc main_v15) : S4096x1024.Idx → EReal)
      = shapeCast S4096x1024 (V0 (Proc.devRef .tc main_arg1) : S2x2048x1024.Idx → EReal) shapeCasts_S2x2048x1024_S4096x1024 := by
    dsimp only [hostOps0]
    after_results
    rfl
  rw [t]
  exact shapeCast_apply (s := S2x2048x1024) (t := S4096x1024) _ _ _ _ (by
    rw [Shape.rowMajor_val_three, Shape.rowMajor_val_two]
    show (b.val * 2048 + n.val) * 1024 + e.val = (b.val * 2048 + n.val) * 1024 + e.val
    rfl)

/-! ### The transposed weights -/

/-- The transposed query weight holds, at (feature `e`, column `c`), the fused weight's entry at (row `c` of block 0, `e`). -/
theorem v7_at (e c : Fin 1024) :
    (StableHlo.after (hostOps0 (F := Ideal)) V0 (Proc.devRef .tc main_v7) : S1024x1024.Idx → EReal) (ix2 e c)
      = (V0 (Proc.devRef .tc main_arg2) : S3072x1024.Idx → EReal) (ix2 (wrow 0 c) e) := by
  have t : (StableHlo.after (hostOps0 (F := Ideal)) V0 (Proc.devRef .tc main_v7) : S1024x1024.Idx → EReal)
      = (truncf (F := Ideal) .bf16 (transpose S1024x1024 [1, 0] (extractStridedSlice S1024x1024 ![0, 0] (V0 (Proc.devRef .tc main_arg2) : S3072x1024.Idx → EReal) slices_S3072x1024_S1024x1024_0_0) transposes_S1024x1024_S1024x1024_1_0 : FVec Ideal S1024x1024 .f32) bitsLt_bf16_f32 : FVec Ideal S1024x1024 .bf16) := by
    dsimp only [hostOps0]
    after_results
  rw [t, truncf_apply]
  refine (transpose_ix2_apply _ _ e c).trans ?_
  exact slice2_axis0_apply 0 _ _ c e (wrow 0 c) (by rw [wrow_val]; simp)

/-- The transposed key-and-value weight holds, at (feature `e`, column `c2`), the fused weight's entry at
    (row `1024 + c2`, `e`): its first 1024 columns are the key rows, the next 1024 the value rows. -/
theorem v10_at (e : Fin 1024) (c2 : Fin 2048) :
    (StableHlo.after (hostOps0 (F := Ideal)) V0 (Proc.devRef .tc main_v10) : S1024x2048.Idx → EReal) (ix2 e c2)
      = (V0 (Proc.devRef .tc main_arg2) : S3072x1024.Idx → EReal)
          (ix2 (⟨1024 + c2.val, by have := c2.isLt; omega⟩ : Fin 3072) e) := by
  have t : (StableHlo.after (hostOps0 (F := Ideal)) V0 (Proc.devRef .tc main_v10) : S1024x2048.Idx → EReal)
      = (truncf (F := Ideal) .bf16 (transpose S1024x2048 [1, 0]
          (concatenate S2048x1024 0
            [⟨S1024x1024, extractStridedSlice S1024x1024 ![1024, 0] (V0 (Proc.devRef .tc main_arg2) : S3072x1024.Idx → EReal) slices_S3072x1024_S1024x1024_1024_0⟩,
             ⟨S1024x1024, extractStridedSlice S1024x1024 ![2048, 0] (V0 (Proc.devRef .tc main_arg2) : S3072x1024.Idx → EReal) slices_S3072x1024_S1024x1024_2048_0⟩]
            concatenates_S1024x1024_S1024x1024_S2048x1024_d0)
          transposes_S2048x1024_S1024x2048_1_0 : FVec Ideal S1024x2048 .f32) bitsLt_bf16_f32 : FVec Ideal S1024x2048 .bf16) := by
    dsimp only [hostOps0]
    after_results
  rw [t, truncf_apply]
  refine (transpose_ix2_apply _ _ e c2).trans ?_
  by_cases hc : c2.val < 1024
  · refine (concatenate_pair_apply_left (t := S2048x1024) (s₁ := S1024x1024) (s₂ := S1024x1024) 0 _ _ _ (ix2 c2 e) rfl
      (ix2 (⟨c2.val, hc⟩ : Fin 1024) e) (fun b => by match b with | ⟨0, _⟩ => rfl | ⟨1, _⟩ => rfl)).trans ?_
    exact slice2_axis0_apply 1024 _ _ (⟨c2.val, hc⟩ : Fin 1024) e _ rfl
  · refine (concatenate_pair_apply_right (t := S2048x1024) (s₁ := S1024x1024) (s₂ := S1024x1024) 0 _ _ _ (ix2 c2 e) rfl rfl
      (ix2 (⟨c2.val - 1024, by have := c2.isLt; omega⟩ : Fin 1024) e)
      (fun b hb => by match b with | ⟨0, _⟩ => exact absurd rfl hb | ⟨1, _⟩ => rfl)
      (by show c2.val - 1024 + 1024 = c2.val; omega)).trans ?_
    exact slice2_axis0_apply 2048 _ _ (⟨c2.val - 1024, by have := c2.isLt; omega⟩ : Fin 1024) e _
      (by show 1024 + c2.val = 2048 + (c2.val - 1024); omega)

/-- Its first 1024 columns: the key rows of the fused weight. -/
theorem v10_at_key (e c : Fin 1024) :
    (StableHlo.after (hostOps0 (F := Ideal)) V0 (Proc.devRef .tc main_v10) : S1024x2048.Idx → EReal)
        (ix2 e (⟨c.val, by have := c.isLt; omega⟩ : Fin 2048))
      = (V0 (Proc.devRef .tc main_arg2) : S3072x1024.Idx → EReal) (ix2 (wrow 1 c) e) := by
  rw [v10_at]
  exact congrArg (fun r => (V0 (Proc.devRef .tc main_arg2) : S3072x1024.Idx → EReal) (ix2 r e))
    (Fin.ext (by rw [wrow_val]; show 1024 + c.val = 1 * 1024 + c.val; omega))

/-- Its last 1024 columns: the value rows of the fused weight. -/
theorem v10_at_value (e c : Fin 1024) :
    (StableHlo.after (hostOps0 (F := Ideal)) V0 (Proc.devRef .tc main_v10) : S1024x2048.Idx → EReal)
        (ix2 e (⟨1024 + c.val, by have := c.isLt; omega⟩ : Fin 2048))
      = (V0 (Proc.devRef .tc main_arg2) : S3072x1024.Idx → EReal) (ix2 (wrow 2 c) e) := by
  rw [v10_at]
  exact congrArg (fun r => (V0 (Proc.devRef .tc main_arg2) : S3072x1024.Idx → EReal) (ix2 r e))
    (Fin.ext (by rw [wrow_val]; show 1024 + (1024 + c.val) = 2 * 1024 + c.val; omega))

/-! ### The biases as one-row matrices -/

/-- The query bias as a one-row matrix: column `c` holds the fused bias's entry of row `c` of block 0. -/
theorem v11_at (c : Fin 1024) :
    (StableHlo.after (hostOps0 (F := Ideal)) V0 (Proc.devRef .tc main_v11) : S1x1024.Idx → EReal) (ix2 (0 : Fin 1) c)
      = (V0 (Proc.devRef .tc main_arg3) : S3072.Idx → EReal) (ix1 (wrow 0 c)) := by
  have t : (StableHlo.after (hostOps0 (F := Ideal)) V0 (Proc.devRef .tc main_v11) : S1x1024.Idx → EReal)
      = shapeCast S1x1024 (extractStridedSlice S1024 ![0] (V0 (Proc.devRef .tc main_arg3) : S3072.Idx → EReal) slices_S3072_S1024_0)
          shapeCasts_S1024_S1x1024 := by
    dsimp only [hostOps0]
    after_results
    rfl
  rw [t]
  refine (shapeCast_a_1a_apply _ _ (0 : Fin 1) c).trans ?_
  exact extractStridedSlice_apply (s := S3072) (t := S1024) _ _ _ _ _ (fun a => by
    match a with
    | ⟨0, _⟩ => show (wrow 0 c).val = 0 + c.val; rw [wrow_val]; simp)

/-- The key-and-value bias as a one-row matrix: column `c2` holds the fused bias's entry `1024 + c2`. -/
theorem v13_at (c2 : Fin 2048) :
    (StableHlo.after (hostOps0 (F := Ideal)) V0 (Proc.devRef .tc main_v13) : S1x2048.Idx → EReal) (ix2 (0 : Fin 1) c2)
      = (V0 (Proc.devRef .tc main_arg3) : S3072.Idx → EReal)
          (ix1 (⟨1024 + c2.val, by have := c2.isLt; omega⟩ : Fin 3072)) := by
  have t : (StableHlo.after (hostOps0 (F := Ideal)) V0 (Proc.devRef .tc main_v13) : S1x2048.Idx → EReal)
      = shapeCast S1x2048
          (concatenate S2048 0
            [⟨S1024, extractStridedSlice S1024 ![1024] (V0 (Proc.devRef .tc main_arg3) : S3072.Idx → EReal) slices_S3072_S1024_1024⟩,
             ⟨S1024, extractStridedSlice S1024 ![2048] (V0 (Proc.devRef .tc main_arg3) : S3072.Idx → EReal) slices_S3072_S1024_2048⟩]
            concatenates_S1024_S1024_S2048_d0)
          shapeCasts_S2048_S1x2048 := by
    dsimp only [hostOps0]
    after_results
    rfl
  rw [t]
  refine (shapeCast_a_1a_apply _ _ (0 : Fin 1) c2).trans ?_
  by_cases hc : c2.val < 1024
  · refine (concatenate_pair_apply_left (t := S2048) (s₁ := S1024) (s₂ := S1024) 0 _ _ _ (ix1 c2) rfl
      (ix1 (⟨c2.val, hc⟩ : Fin 1024)) (fun b => by match b with | ⟨0, _⟩ => rfl)).trans ?_
    exact extractStridedSlice_apply (s := S3072) (t := S1024) _ _ _ _ _ (fun a => by
      match a with
      | ⟨0, _⟩ => rfl)
  · refine (concatenate_pair_apply_right (t := S2048) (s₁ := S1024) (s₂ := S1024) 0 _ _ _ (ix1 c2) rfl rfl
      (ix1 (⟨c2.val - 1024, by have := c2.isLt; omega⟩ : Fin 1024))
      (fun b hb => by match b with | ⟨0, _⟩ => exact absurd rfl hb)
      (by show c2.val - 1024 + 1024 = c2.val; omega)).trans ?_
    exact extractStridedSlice_apply (s := S3072) (t := S1024) _ _ _ _ _ (fun a => by
      match a with
      | ⟨0, _⟩ => show 1024 + c2.val = 2048 + (c2.val - 1024); omega)

/-- Its first 1024 columns: the key bias. -/
theorem v13_at_key (c : Fin 1024) :
    (StableHlo.after (hostOps0 (F := Ideal)) V0 (Proc.devRef .tc main_v13) : S1x2048.Idx → EReal)
        (ix2 (0 : Fin 1) (⟨c.val, by have := c.isLt; omega⟩ : Fin 2048))
      = (V0 (Proc.devRef .tc main_arg3) : S3072.Idx → EReal) (ix1 (wrow 1 c)) := by
  rw [v13_at]
  exact congrArg (fun r => (V0 (Proc.devRef .tc main_arg3) : S3072.Idx → EReal) (ix1 r))
    (Fin.ext (by rw [wrow_val]; show 1024 + c.val = 1 * 1024 + c.val; omega))

/-- Its last 1024 columns: the value bias. -/
theorem v13_at_value (c : Fin 1024) :
    (StableHlo.after (hostOps0 (F := Ideal)) V0 (Proc.devRef .tc main_v13) : S1x2048.Idx → EReal)
        (ix2 (0 : Fin 1) (⟨1024 + c.val, by have := c.isLt; omega⟩ : Fin 2048))
      = (V0 (Proc.devRef .tc main_arg3) : S3072.Idx → EReal) (ix1 (wrow 2 c)) := by
  rw [v13_at]
  exact congrArg (fun r => (V0 (Proc.devRef .tc main_arg3) : S3072.Idx → EReal) (ix1 r))
    (Fin.ext (by rw [wrow_val]; show 1024 + (1024 + c.val) = 2 * 1024 + c.val; omega))

/-! ### The regrouping between the kernels -/

variable (V3 : Valuation τ sig (Elt Ideal))

/-- The projected queries regrouped by batch entry: row `n` of batch entry `b` is row `b * 2048 + n`. -/
theorem v18_at (b : Fin 2) (n : Fin 2048) (c : Fin 1024) :
    (StableHlo.after (hostOps2 (F := Ideal)) V3 (Proc.devRef .tc main_v18) : S2x2048x1024.Idx → EReal) (ix3 b n c)
      = (V3 (Proc.devRef .tc main_v16) : S4096x1024.Idx → EReal)
          (ix2 (⟨b.val * 2048 + n.val, by have := b.isLt; have := n.isLt; omega⟩ : Fin 4096) c) := by
  have t : (StableHlo.after (hostOps2 (F := Ideal)) V3 (Proc.devRef .tc main_v18) : S2x2048x1024.Idx → EReal)
      = shapeCast S2x2048x1024 (V3 (Proc.devRef .tc main_v16) : S4096x1024.Idx → EReal) shapeCasts_S4096x1024_S2x2048x1024 := by
    dsimp only [hostOps2]
    after_results
    rfl
  rw [t]
  exact shapeCast_apply (s := S4096x1024) (t := S2x2048x1024) _ _ _ _ (by
    rw [Shape.rowMajor_val_three, Shape.rowMajor_val_two]
    show (b.val * 2048 + n.val) * 1024 + c.val = (b.val * 2048 + n.val) * 1024 + c.val
    rfl)

/-- The projected keys and values regrouped by batch entry, likewise. -/
theorem v19_at (b : Fin 2) (n : Fin 2048) (c2 : Fin 2048) :
    (StableHlo.after (hostOps2 (F := Ideal)) V3 (Proc.devRef .tc main_v19) : S2x2048x2048.Idx → EReal) (ix3 b n c2)
      = (V3 (Proc.devRef .tc main_v17) : S4096x2048.Idx → EReal)
          (ix2 (⟨b.val * 2048 + n.val, by have := b.isLt; have := n.isLt; omega⟩ : Fin 4096) c2) := by
  have t : (StableHlo.after (hostOps2 (F := Ideal)) V3 (Proc.devRef .tc main_v19) : S2x2048x2048.Idx → EReal)
      = shapeCast S2x2048x2048 (V3 (Proc.devRef .tc main_v17) : S4096x2048.Idx → EReal) shapeCasts_S4096x2048_S2x2048x2048 := by
    dsimp only [hostOps2]
    after_results
    rfl
  rw [t]
  exact shapeCast_apply (s := S4096x2048) (t := S2x2048x2048) _ _ _ _ (by
    rw [Shape.rowMajor_val_three, Shape.rowMajor_val_two]
    show (b.val * 2048 + n.val) * 2048 + c2.val = (b.val * 2048 + n.val) * 2048 + c2.val
    rfl)

/-! ### What the host stretches leave alone -/

/-- The first stretch writes only its own sixteen results. -/
theorem hostOps0_keeps (r : Ref sig .tc) (h : r ∉ hostOps0_W) :
    StableHlo.after (hostOps0 (F := Ideal)) V0 (Proc.devRef .tc r) = V0 (Proc.devRef .tc r) :=
  StableHlo.after_of_writes_sub hostOps0 V0 hostOps0_writes h

theorem hostOps0_arg0 : StableHlo.after (hostOps0 (F := Ideal)) V0 (Proc.devRef .tc main_arg0) = V0 (Proc.devRef .tc main_arg0) :=
  hostOps0_keeps V0 main_arg0 (by decide)
theorem hostOps0_arg1 : StableHlo.after (hostOps0 (F := Ideal)) V0 (Proc.devRef .tc main_arg1) = V0 (Proc.devRef .tc main_arg1) :=
  hostOps0_keeps V0 main_arg1 (by decide)
theorem hostOps0_arg2 : StableHlo.after (hostOps0 (F := Ideal)) V0 (Proc.devRef .tc main_arg2) = V0 (Proc.devRef .tc main_arg2) :=
  hostOps0_keeps V0 main_arg2 (by decide)
theorem hostOps0_arg3 : StableHlo.after (hostOps0 (F := Ideal)) V0 (Proc.devRef .tc main_arg3) = V0 (Proc.devRef .tc main_arg3) :=
  hostOps0_keeps V0 main_arg3 (by decide)
theorem hostOps0_v16 : StableHlo.after (hostOps0 (F := Ideal)) V0 (Proc.devRef .tc main_v16) = V0 (Proc.devRef .tc main_v16) :=
  hostOps0_keeps V0 main_v16 (by decide)
theorem hostOps0_v17 : StableHlo.after (hostOps0 (F := Ideal)) V0 (Proc.devRef .tc main_v17) = V0 (Proc.devRef .tc main_v17) :=
  hostOps0_keeps V0 main_v17 (by decide)
theorem hostOps0_v20 : StableHlo.after (hostOps0 (F := Ideal)) V0 (Proc.devRef .tc main_v20) = V0 (Proc.devRef .tc main_v20) :=
  hostOps0_keeps V0 main_v20 (by decide)

/-- The second stretch writes only its own two results. -/
theorem hostOps2_keeps (r : Ref sig .tc) (h : r ∉ hostOps2_W) :
    StableHlo.after (hostOps2 (F := Ideal)) V3 (Proc.devRef .tc r) = V3 (Proc.devRef .tc r) :=
  StableHlo.after_of_writes_sub hostOps2 V3 hostOps2_writes h

theorem hostOps2_arg0 : StableHlo.after (hostOps2 (F := Ideal)) V3 (Proc.devRef .tc main_arg0) = V3 (Proc.devRef .tc main_arg0) :=
  hostOps2_keeps V3 main_arg0 (by decide)
theorem hostOps2_arg1 : StableHlo.after (hostOps2 (F := Ideal)) V3 (Proc.devRef .tc main_arg1) = V3 (Proc.devRef .tc main_arg1) :=
  hostOps2_keeps V3 main_arg1 (by decide)
theorem hostOps2_arg2 : StableHlo.after (hostOps2 (F := Ideal)) V3 (Proc.devRef .tc main_arg2) = V3 (Proc.devRef .tc main_arg2) :=
  hostOps2_keeps V3 main_arg2 (by decide)
theorem hostOps2_arg3 : StableHlo.after (hostOps2 (F := Ideal)) V3 (Proc.devRef .tc main_arg3) = V3 (Proc.devRef .tc main_arg3) :=
  hostOps2_keeps V3 main_arg3 (by decide)
theorem hostOps2_v16 : StableHlo.after (hostOps2 (F := Ideal)) V3 (Proc.devRef .tc main_v16) = V3 (Proc.devRef .tc main_v16) :=
  hostOps2_keeps V3 main_v16 (by decide)
theorem hostOps2_v17 : StableHlo.after (hostOps2 (F := Ideal)) V3 (Proc.devRef .tc main_v17) = V3 (Proc.devRef .tc main_v17) :=
  hostOps2_keeps V3 main_v17 (by decide)
theorem hostOps2_v20 : StableHlo.after (hostOps2 (F := Ideal)) V3 (Proc.devRef .tc main_v20) = V3 (Proc.devRef .tc main_v20) :=
  hostOps2_keeps V3 main_v20 (by decide)

end Cert.KernelIdeal.HostVal

end
-- ==== Proof.KValue.lean ====
/-
  The idealized kernel's result, entry by entry, as the specification's first form: the third region's input arrays are
  the reshaped outputs of the two projection regions, whose entries are the projected queries (scaled) and the projected
  keys and values.
-/
import proofs.«117626_j75986561401090_2_alg».proof.Proof.KRun
import proofs.«117626_j75986561401090_2_alg».proof.Proof.KVal0
import proofs.«117626_j75986561401090_2_alg».proof.Proof.KVal1
import proofs.«117626_j75986561401090_2_alg».proof.Proof.KVal2
import proofs.«117626_j75986561401090_2_alg».proof.Proof.KHost
import proofs.«117626_j75986561401090_2_alg».proof.Proof.Spec
import Idealize.ShloMosaic.Lib.ValueIdx

set_option maxRecDepth 16384

noncomputable section

namespace Cert.KernelIdeal.Value

open Cert.KernelIdeal Cert.KernelIdeal.Gen Cert.KernelIdeal.Frame Cert.Attn
open Idealize.ShloMosaic Idealize.ShloMosaic.TcCoe Idealize.ShloMosaic.ValueIdx Idealize.SL.Sem

variable (m : (ℓ : Loc nD τ sig) → Buf (Elt Ideal) ℓ) (c : Dev nD)

/-- The four argument arrays, curried. -/
abbrev Wm : Fin 3072 → Fin 1024 → EReal := fun r e => (m ((c.tc : Thread nD τ).loc main_arg2) : S3072x1024.Idx → EReal) (ix2 r e)
abbrev Bv : Fin 3072 → EReal := fun r => (m ((c.tc : Thread nD τ).loc main_arg3) : S3072.Idx → EReal) (ix1 r)
abbrev X1 : Fin 2 → Fin 2048 → Fin 1024 → EReal := fun b n e => (m ((c.tc : Thread nD τ).loc main_arg0) : S2x2048x1024.Idx → EReal) (ix3 b n e)
abbrev X2 : Fin 2 → Fin 2048 → Fin 1024 → EReal := fun b n e => (m ((c.tc : Thread nD τ).loc main_arg1) : S2x2048x1024.Idx → EReal) (ix3 b n e)

/-- Row `b · 2048 + n` of the flattened activations. -/
def flat (b : Fin 2) (n : Fin 2048) : Fin 4096 := ⟨b.val * 2048 + n.val, by have := b.isLt; have := n.isLt; omega⟩

/-- The first region's output: the projected queries, scaled. -/
theorem q_flat (b : Fin 2) (n : Fin 2048) (cc : Fin 1024) :
    ((dat0 (T1 m) c).arrAt 3 cfg0.N : S4096x1024.Idx → EReal) (ix2 (flat b n) cc) = lin (Wm m c) (Bv m c) (X1 m c) 0 b n cc * c8 := by
  rw [Cert.KernelIdeal.Val.final0 (T1 m) c (flat b n) cc]
  unfold lin proj
  congr 1
  congr 1
  · refine Finset.sum_congr rfl fun e _ => ?_
    congr 1
    · exact Cert.KernelIdeal.HostVal.v14_at (B0 m c) b n e
    · exact Cert.KernelIdeal.HostVal.v7_at (B0 m c) e cc
  · exact Cert.KernelIdeal.HostVal.v11_at (B0 m c) cc

/-- The second region's output: the projected keys in its first 1024 columns, -/
theorem k_flat (b : Fin 2) (n : Fin 2048) (cc : Fin 1024) :
    ((dat1 (T2 m) c).arrAt 3 cfg1.N : S4096x2048.Idx → EReal) (ix2 (flat b n) (⟨cc.val, by have := cc.isLt; omega⟩ : Fin 2048))
      = lin (Wm m c) (Bv m c) (X2 m c) 1 b n cc := by
  rw [Cert.KernelIdeal.Val.final1 (T2 m) c (flat b n) ⟨cc.val, by have := cc.isLt; omega⟩]
  unfold lin proj
  congr 1
  · refine Finset.sum_congr rfl fun e _ => ?_
    congr 1
    · show (B2 m c (Proc.devRef .tc main_v15) : S4096x1024.Idx → EReal) (ix2 (flat b n) e) = _
      rw [B2_of_ne m c main_v15 (by decide)]
      exact Cert.KernelIdeal.HostVal.v15_at (B0 m c) b n e
    · show (B2 m c (Proc.devRef .tc main_v10) : S1024x2048.Idx → EReal) (ix2 e (⟨cc.val, by have := cc.isLt; omega⟩ : Fin 2048)) = _
      rw [B2_of_ne m c main_v10 (by decide)]
      exact Cert.KernelIdeal.HostVal.v10_at_key (B0 m c) e cc
  · show (B2 m c (Proc.devRef .tc main_v13) : S1x2048.Idx → EReal) (ix2 (0 : Fin 1) (⟨cc.val, by have := cc.isLt; omega⟩ : Fin 2048)) = _
    rw [B2_of_ne m c main_v13 (by decide)]
    exact Cert.KernelIdeal.HostVal.v13_at_key (B0 m c) cc

/-- and the projected values in its last 1024. -/
theorem v_flat (b : Fin 2) (n : Fin 2048) (cc : Fin 1024) :
    ((dat1 (T2 m) c).arrAt 3 cfg1.N : S4096x2048.Idx → EReal) (ix2 (flat b n) (⟨1024 + cc.val, by have := cc.isLt; omega⟩ : Fin 2048))
      = lin (Wm m c) (Bv m c) (X2 m c) 2 b n cc := by
  rw [Cert.KernelIdeal.Val.final1 (T2 m) c (flat b n) ⟨1024 + cc.val, by have := cc.isLt; omega⟩]
  unfold lin proj
  congr 1
  · refine Finset.sum_congr rfl fun e _ => ?_
    congr 1
    · show (B2 m c (Proc.devRef .tc main_v15) : S4096x1024.Idx → EReal) (ix2 (flat b n) e) = _
      rw [B2_of_ne m c main_v15 (by decide)]
      exact Cert.KernelIdeal.HostVal.v15_at (B0 m c) b n e
    · show (B2 m c (Proc.devRef .tc main_v10) : S1024x2048.Idx → EReal) (ix2 e (⟨1024 + cc.val, by have := cc.isLt; omega⟩ : Fin 2048)) = _
      rw [B2_of_ne m c main_v10 (by decide)]
      exact Cert.KernelIdeal.HostVal.v10_at_value (B0 m c) e cc
  · show (B2 m c (Proc.devRef .tc main_v13) : S1x2048.Idx → EReal) (ix2 (0 : Fin 1) (⟨1024 + cc.val, by have := cc.isLt; omega⟩ : Fin 2048)) = _
    rw [B2_of_ne m c main_v13 (by decide)]
    exact Cert.KernelIdeal.HostVal.v13_at_value (B0 m c) cc

/-! What the third region finds in its input arrays: the two outputs above, reshaped to [2, 2048, ·]. -/

theorem q_at (b : Fin 2) (n : Fin 2048) (cc : Fin 1024) :
    (T4 m c main_v18 : S2x2048x1024.Idx → EReal) (ix3 b n cc) = lin (Wm m c) (Bv m c) (X1 m c) 0 b n cc * c8 := by
  refine (Cert.KernelIdeal.HostVal.v18_at (B3 m c) b n cc).trans ?_
  rw [B3_of_ne m c main_v16 (by decide), show B2 m c (Proc.devRef .tc main_v16) = (dat0 (T1 m) c).arrAt 3 cfg0.N from B2_arr m c 3]
  exact q_flat m c b n cc

theorem k_at (b : Fin 2) (j : Fin 2048) (cc : Fin 1024) :
    (T4 m c main_v19 : S2x2048x2048.Idx → EReal) (ix3 b j (⟨cc.val, by have := cc.isLt; omega⟩ : Fin 2048)) = lin (Wm m c) (Bv m c) (X2 m c) 1 b j cc := by
  refine (Cert.KernelIdeal.HostVal.v19_at (B3 m c) b j ⟨cc.val, by have := cc.isLt; omega⟩).trans ?_
  rw [show B3 m c (Proc.devRef .tc main_v17) = (dat1 (T2 m) c).arrAt 3 cfg1.N from B3_arr m c 3]
  exact k_flat m c b j cc

theorem v_at (b : Fin 2) (j : Fin 2048) (cc : Fin 1024) :
    (T4 m c main_v19 : S2x2048x2048.Idx → EReal) (ix3 b j (⟨1024 + cc.val, by have := cc.isLt; omega⟩ : Fin 2048)) = lin (Wm m c) (Bv m c) (X2 m c) 2 b j cc := by
  refine (Cert.KernelIdeal.HostVal.v19_at (B3 m c) b j ⟨1024 + cc.val, by have := cc.isLt; omega⟩).trans ?_
  rw [show B3 m c (Proc.devRef .tc main_v17) = (dat1 (T2 m) c).arrAt 3 cfg1.N from B3_arr m c 3]
  exact v_flat m c b j cc

/-- THE KERNEL'S RESULT, entry by entry: the third region's end array is the specification's first form of the argument
    arrays — the head's weighted average, with the scaled projected queries, the projected keys and the projected values
    found above in the third region's input arrays. -/
theorem kernel_is_Gk (b : Fin 2) (n : Fin 2048) (h : Fin 16) (d : Fin 64) :
    ((dat2 (T4 m) c).arrAt 3 cfg2.N : S2x2048x1024.Idx → EReal) (ix3 b n (hcol h d))
      = Gk (Wm m c) (Bv m c) (X1 m c) (X2 m c) b n h d := by
  rw [Cert.KernelIdeal.Val.final2 (T4 m) c b n h d]
  unfold Gk
  exact Cert.KernelIdeal.Pay.headK_congr (fun d' => q_at m c b n (hcol h d')) (fun j d' => k_at m c b j (hcol h d'))
    (fun j => v_at m c b j (hcol h d))

end Cert.KernelIdeal.Value

end
-- ==== Proof.RefRead.lean ====
/-
  The reference's result, read entry by entry.

  The reference computes three linear layers (an inner product over the 1024 input features plus a bias entry), regroups
  the 1024 output columns of each into 16 heads of 64 columns, forms for each head the inner products of query rows with
  key rows over the head's 64 columns, multiplies each by one eighth, subtracts from every scaled score of a query row
  that row's shift, exponentiates, divides by the row's sum of exponentials, and averages the value rows with these
  weights.  Each statement below says what one intermediate array holds at explicit coordinates; the regrouping of
  columns is the arithmetic fact that column h * 64 + d of a row is entry d of head h.
-/
import proofs.«117626_j75986561401090_2_alg».proof.Proof.Gen.ReferenceIdeal.Read
import proofs.«117626_j75986561401090_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Attn

/-- The fused weight as a matrix of rows. -/
abbrev Wm (x2 : (⟨S3072x1024, .f32⟩ : BufTy).Contents (Elt Ideal)) : Fin 3072 → Fin 1024 → EReal := fun r e => x2 (ix2 r e)
/-- The fused bias as a vector. -/
abbrev Bv (x3 : (⟨S3072, .f32⟩ : BufTy).Contents (Elt Ideal)) : Fin 3072 → EReal := fun r => x3 (ix1 r)
/-- An activation array by batch entry, row and feature. -/
abbrev Xa (x : (⟨S2x2048x1024, .f32⟩ : BufTy).Contents (Elt Ideal)) : Fin 2 → Fin 2048 → Fin 1024 → EReal := fun b n e => x (ix3 b n e)

/-! ### The three linear layers at an entry -/

theorem v5_at (x0 : (⟨S2x2048x1024, .f32⟩ : BufTy).Contents (Elt Ideal)) (x2 : (⟨S3072x1024, .f32⟩ : BufTy).Contents (Elt Ideal))
    (x3 : (⟨S3072, .f32⟩ : BufTy).Contents (Elt Ideal)) (b : Fin 2) (n : Fin 2048) (c : Fin 1024) :
    val_main_v5 (F := Ideal) x0 x2 x3 (ix3 b n c) = lin (Wm x2) (Bv x3) (Xa x0) 0 b n c := by
  rw [val_main_v5_apply, val_main_v1_apply, val_main_v4_apply, val_main_v3_apply, val_main_v2_apply]
  simp only [val_main_v0_apply]
  have hl : ∀ k : Fin 1024, lidx_main_v1 (ix3 b n c) k = ix3 b n k := fun k => funext fun a => Fin.ext (by
    match a with | ⟨0, _⟩ => rfl | ⟨1, _⟩ => rfl | ⟨2, _⟩ => rfl)
  have hr : ∀ k : Fin 1024, idx_main_v0 (ridx_main_v1 (ix3 b n c) k) = ix2 (wrow 0 c) k := fun k => funext fun a => Fin.ext (by
    match a with
    | ⟨0, _⟩ => show c.val = (wrow 0 c).val; rw [wrow_val]; simp
    | ⟨1, _⟩ => rfl)
  have hb : idx_main_v2 (idx_main_v3 (idx_main_v4 (ix3 b n c))) = ix1 (wrow 0 c) := funext fun a => Fin.ext (by
    match a with
    | ⟨0, _⟩ => show c.val = (wrow 0 c).val; rw [wrow_val]; simp)
  simp only [hl, hr, hb, Ideal.addf_def]
  rfl

theorem v11_at (x1 : (⟨S2x2048x1024, .f32⟩ : BufTy).Contents (Elt Ideal)) (x2 : (⟨S3072x1024, .f32⟩ : BufTy).Contents (Elt Ideal))
    (x3 : (⟨S3072, .f32⟩ : BufTy).Contents (Elt Ideal)) (b : Fin 2) (n : Fin 2048) (c : Fin 1024) :
    val_main_v11 (F := Ideal) x1 x2 x3 (ix3 b n c) = lin (Wm x2) (Bv x3) (Xa x1) 1 b n c := by
  rw [val_main_v11_apply, val_main_v7_apply, val_main_v10_apply, val_main_v9_apply, val_main_v8_apply]
  simp only [val_main_v6_apply]
  have hl : ∀ k : Fin 1024, lidx_main_v7 (ix3 b n c) k = ix3 b n k := fun k => funext fun a => Fin.ext (by
    match a with | ⟨0, _⟩ => rfl | ⟨1, _⟩ => rfl | ⟨2, _⟩ => rfl)
  have hr : ∀ k : Fin 1024, idx_main_v6 (ridx_main_v7 (ix3 b n c) k) = ix2 (wrow 1 c) k := fun k => funext fun a => Fin.ext (by
    match a with
    | ⟨0, _⟩ => show 1024 + c.val = (wrow 1 c).val; rw [wrow_val]; simp
    | ⟨1, _⟩ => rfl)
  have hb : idx_main_v8 (idx_main_v9 (idx_main_v10 (ix3 b n c))) = ix1 (wrow 1 c) := funext fun a => Fin.ext (by
    match a with
    | ⟨0, _⟩ => show 1024 + c.val = (wrow 1 c).val; rw [wrow_val]; simp)
  simp only [hl, hr, hb, Ideal.addf_def]
  rfl

theorem v17_at (x1 : (⟨S2x2048x1024, .f32⟩ : BufTy).Contents (Elt Ideal)) (x2 : (⟨S3072x1024, .f32⟩ : BufTy).Contents (Elt Ideal))
    (x3 : (⟨S3072, .f32⟩ : BufTy).Contents (Elt Ideal)) (b : Fin 2) (n : Fin 2048) (c : Fin 1024) :
    val_main_v17 (F := Ideal) x1 x2 x3 (ix3 b n c) = lin (Wm x2) (Bv x3) (Xa x1) 2 b n c := by
  rw [val_main_v17_apply, val_main_v13_apply, val_main_v16_apply, val_main_v15_apply, val_main_v14_apply]
  simp only [val_main_v12_apply]
  have hl : ∀ k : Fin 1024, lidx_main_v13 (ix3 b n c) k = ix3 b n k := fun k => funext fun a => Fin.ext (by
    match a with | ⟨0, _⟩ => rfl | ⟨1, _⟩ => rfl | ⟨2, _⟩ => rfl)
  have hr : ∀ k : Fin 1024, idx_main_v12 (ridx_main_v13 (ix3 b n c) k) = ix2 (wrow 2 c) k := fun k => funext fun a => Fin.ext (by
    match a with
    | ⟨0, _⟩ => show 2048 + c.val = (wrow 2 c).val; rw [wrow_val]; simp
    | ⟨1, _⟩ => rfl)
  have hb : idx_main_v14 (idx_main_v15 (idx_main_v16 (ix3 b n c))) = ix1 (wrow 2 c) := funext fun a => Fin.ext (by
    match a with
    | ⟨0, _⟩ => show 2048 + c.val = (wrow 2 c).val; rw [wrow_val]; simp)
  simp only [hl, hr, hb, Ideal.addf_def]
  rfl

/-! ### The head tensors at an entry: column `h * 64 + d` of a row is entry `d` of head `h` -/

theorem v19_at (x0 : (⟨S2x2048x1024, .f32⟩ : BufTy).Contents (Elt Ideal)) (x2 : (⟨S3072x1024, .f32⟩ : BufTy).Contents (Elt Ideal))
    (x3 : (⟨S3072, .f32⟩ : BufTy).Contents (Elt Ideal)) (b : Fin 2) (h : Fin 16) (n : Fin 2048) (d : Fin 64) :
    val_main_v19 (F := Ideal) x0 x2 x3 (ix4 b h n d) = lin (Wm x2) (Bv x3) (Xa x0) 0 b n (hcol h d) := by
  rw [val_main_v19_apply, val_main_v18_apply]
  have hi : idx_main_v18 (idx_main_v19 (ix4 b h n d)) = ix3 b n (hcol h d) := funext fun a => Fin.ext (by
    have hb := b.isLt; have hh := h.isLt; have hn := n.isLt; have hd := d.isLt
    match a with
    | ⟨0, _⟩ => show (((b.val * 2048 + n.val) * 16 + h.val) * 64 + d.val) / 2097152 = b.val; omega
    | ⟨1, _⟩ => show (((b.val * 2048 + n.val) * 16 + h.val) * 64 + d.val) / 1024 % 2048 = n.val; omega
    | ⟨2, _⟩ => show (((b.val * 2048 + n.val) * 16 + h.val) * 64 + d.val) % 1024 = (hcol h d).val; rw [hcol_val]; omega)
  rw [hi, v5_at]

theorem v21_at (x1 : (⟨S2x2048x1024, .f32⟩ : BufTy).Contents (Elt Ideal)) (x2 : (⟨S3072x1024, .f32⟩ : BufTy).Contents (Elt Ideal))
    (x3 : (⟨S3072, .f32⟩ : BufTy).Contents (Elt Ideal)) (b : Fin 2) (h : Fin 16) (n : Fin 2048) (d : Fin 64) :
    val_main_v21 (F := Ideal) x1 x2 x3 (ix4 b h n d) = lin (Wm x2) (Bv x3) (Xa x1) 1 b n (hcol h d) := by
  rw [val_main_v21_apply, val_main_v20_apply]
  have hi : idx_main_v20 (idx_main_v21 (ix4 b h n d)) = ix3 b n (hcol h d) := funext fun a => Fin.ext (by
    have hb := b.isLt; have hh := h.isLt; have hn := n.isLt; have hd := d.isLt
    match a with
    | ⟨0, _⟩ => show (((b.val * 2048 + n.val) * 16 + h.val) * 64 + d.val) / 2097152 = b.val; omega
    | ⟨1, _⟩ => show (((b.val * 2048 + n.val) * 16 + h.val) * 64 + d.val) / 1024 % 2048 = n.val; omega
    | ⟨2, _⟩ => show (((b.val * 2048 + n.val) * 16 + h.val) * 64 + d.val) % 1024 = (hcol h d).val; rw [hcol_val]; omega)
  rw [hi, v11_at]

theorem v23_at (x1 : (⟨S2x2048x1024, .f32⟩ : BufTy).Contents (Elt Ideal)) (x2 : (⟨S3072x1024, .f32⟩ : BufTy).Contents (Elt Ideal))
    (x3 : (⟨S3072, .f32⟩ : BufTy).Contents (Elt Ideal)) (b : Fin 2) (h : Fin 16) (n : Fin 2048) (d : Fin 64) :
    val_main_v23 (F := Ideal) x1 x2 x3 (ix4 b h n d) = lin (Wm x2) (Bv x3) (Xa x1) 2 b n (hcol h d) := by
  rw [val_main_v23_apply, val_main_v22_apply]
  have hi : idx_main_v22 (idx_main_v23 (ix4 b h n d)) = ix3 b n (hcol h d) := funext fun a => Fin.ext (by
    have hb := b.isLt; have hh := h.isLt; have hn := n.isLt; have hd := d.isLt
    match a with
    | ⟨0, _⟩ => show (((b.val * 2048 + n.val) * 16 + h.val) * 64 + d.val) / 2097152 = b.val; omega
    | ⟨1, _⟩ => show (((b.val * 2048 + n.val) * 16 + h.val) * 64 + d.val) / 1024 % 2048 = n.val; omega
    | ⟨2, _⟩ => show (((b.val * 2048 + n.val) * 16 + h.val) * 64 + d.val) % 1024 = (hcol h d).val; rw [hcol_val]; omega)
  rw [hi, v17_at]

/-! ### The scaled scores -/

theorem v26_at (x0 x1 : (⟨S2x2048x1024, .f32⟩ : BufTy).Contents (Elt Ideal)) (x2 : (⟨S3072x1024, .f32⟩ : BufTy).Contents (Elt Ideal))
    (x3 : (⟨S3072, .f32⟩ : BufTy).Contents (Elt Ideal)) (b : Fin 2) (h : Fin 16) (n j : Fin 2048) :
    val_main_v26 (F := Ideal) x0 x1 x2 x3 (ix4 b h n j)
      = score (fun d' => lin (Wm x2) (Bv x3) (Xa x0) 0 b n (hcol h d')) (fun j d' => lin (Wm x2) (Bv x3) (Xa x1) 1 b j (hcol h d')) j * c8 := by
  rw [val_main_v26_apply, val_main_v24_apply, val_main_v25_apply, val_main_cst_apply]
  have hl : ∀ k : Fin 64, lidx_main_v24 (ix4 b h n j) k = ix4 b h n k := fun k => funext fun a => Fin.ext (by
    match a with | ⟨0, _⟩ => rfl | ⟨1, _⟩ => rfl | ⟨2, _⟩ => rfl | ⟨3, _⟩ => rfl)
  have hr : ∀ k : Fin 64, ridx_main_v24 (ix4 b h n j) k = ix4 b h j k := fun k => funext fun a => Fin.ext (by
    match a with | ⟨0, _⟩ => rfl | ⟨1, _⟩ => rfl | ⟨2, _⟩ => rfl | ⟨3, _⟩ => rfl)
  simp only [hl, hr, v19_at, v21_at, Ideal.mulf_def, Ideal.ofBits_def]
  rfl

/-! ### Exponentials, their row sums, the weights and the weighted average -/

/-- The shift the reference subtracts from the scaled scores of batch entry `b`, head `h`, query row `n`. -/
def shift (x0 x1 : (⟨S2x2048x1024, .f32⟩ : BufTy).Contents (Elt Ideal)) (x2 : (⟨S3072x1024, .f32⟩ : BufTy).Contents (Elt Ideal))
    (x3 : (⟨S3072, .f32⟩ : BufTy).Contents (Elt Ideal)) (b : Fin 2) (h : Fin 16) (n : Fin 2048) : EReal :=
  val_main_v29 (F := Ideal) x0 x1 x2 x3 (ix3 b h n)

theorem v33_at (x0 x1 : (⟨S2x2048x1024, .f32⟩ : BufTy).Contents (Elt Ideal)) (x2 : (⟨S3072x1024, .f32⟩ : BufTy).Contents (Elt Ideal))
    (x3 : (⟨S3072, .f32⟩ : BufTy).Contents (Elt Ideal)) (b : Fin 2) (h : Fin 16) (n j : Fin 2048) :
    val_main_v33 (F := Ideal) x0 x1 x2 x3 (ix4 b h n j)
      = Ideal.exp (score (fun d' => lin (Wm x2) (Bv x3) (Xa x0) 0 b n (hcol h d')) (fun j d' => lin (Wm x2) (Bv x3) (Xa x1) 1 b j (hcol h d')) j * c8
          - shift x0 x1 x2 x3 b h n) := by
  rw [val_main_v33_apply, val_main_v32_apply, val_main_v31_apply, val_main_v30_apply, v26_at]
  have hi : idx_main_v30 (idx_main_v31 (ix4 b h n j)) = ix3 b h n := funext fun a => Fin.ext (by
    match a with | ⟨0, _⟩ => rfl | ⟨1, _⟩ => rfl | ⟨2, _⟩ => rfl)
  rw [hi]
  rfl

theorem v34_at (x0 x1 : (⟨S2x2048x1024, .f32⟩ : BufTy).Contents (Elt Ideal)) (x2 : (⟨S3072x1024, .f32⟩ : BufTy).Contents (Elt Ideal))
    (x3 : (⟨S3072, .f32⟩ : BufTy).Contents (Elt Ideal)) (b : Fin 2) (h : Fin 16) (n : Fin 2048) :
    val_main_v34 (F := Ideal) x0 x1 x2 x3 (ix3 b h n)
      = 0 + ∑ j' : Fin 2048, Ideal.exp (score (fun d' => lin (Wm x2) (Bv x3) (Xa x0) 0 b n (hcol h d')) (fun j d' => lin (Wm x2) (Bv x3) (Xa x1) 1 b j (hcol h d')) j' * c8
          - shift x0 x1 x2 x3 b h n) := by
  rw [val_main_v34_apply, val_main_cst_2_apply, Ideal.ofBits_def, Ideal.ofBits_zero_f32]
  have hi : ∀ k : Fin 2048, idx_main_v34 (ix3 b h n) k = ix4 b h n k := fun k => funext fun a => Fin.ext (by
    match a with | ⟨0, _⟩ => rfl | ⟨1, _⟩ => rfl | ⟨2, _⟩ => rfl | ⟨3, _⟩ => rfl)
  simp only [hi, v33_at]

theorem v37_at (x0 x1 : (⟨S2x2048x1024, .f32⟩ : BufTy).Contents (Elt Ideal)) (x2 : (⟨S3072x1024, .f32⟩ : BufTy).Contents (Elt Ideal))
    (x3 : (⟨S3072, .f32⟩ : BufTy).Contents (Elt Ideal)) (b : Fin 2) (h : Fin 16) (n j : Fin 2048) :
    val_main_v37 (F := Ideal) x0 x1 x2 x3 (ix4 b h n j)
      = Ideal.div (Ideal.exp (score (fun d' => lin (Wm x2) (Bv x3) (Xa x0) 0 b n (hcol h d')) (fun j d' => lin (Wm x2) (Bv x3) (Xa x1) 1 b j (hcol h d')) j * c8
          - shift x0 x1 x2 x3 b h n))
        (0 + ∑ j' : Fin 2048, Ideal.exp (score (fun d' => lin (Wm x2) (Bv x3) (Xa x0) 0 b n (hcol h d')) (fun j d' => lin (Wm x2) (Bv x3) (Xa x1) 1 b j (hcol h d')) j' * c8
          - shift x0 x1 x2 x3 b h n)) := by
  rw [val_main_v37_apply, val_main_v36_apply, val_main_v35_apply, v33_at]
  have hi : idx_main_v35 (idx_main_v36 (ix4 b h n j)) = ix3 b h n := funext fun a => Fin.ext (by
    match a with | ⟨0, _⟩ => rfl | ⟨1, _⟩ => rfl | ⟨2, _⟩ => rfl)
  rw [hi, v34_at]
  rfl

/-- The reference's result at row `n` of batch entry `b`, column `d` of head `h`. -/
theorem ref_eq (x0 x1 : (⟨S2x2048x1024, .f32⟩ : BufTy).Contents (Elt Ideal)) (x2 : (⟨S3072x1024, .f32⟩ : BufTy).Contents (Elt Ideal))
    (x3 : (⟨S3072, .f32⟩ : BufTy).Contents (Elt Ideal)) (b : Fin 2) (n : Fin 2048) (h : Fin 16) (d : Fin 64) :
    val_main_v40 (F := Ideal) x0 x1 x2 x3 (ix3 b n (hcol h d))
      = Gr (Wm x2) (Bv x3) (Xa x0) (Xa x1) (shift x0 x1 x2 x3 b h n) b n h d := by
  rw [val_main_v40_apply, val_main_v39_apply]
  have hi : idx_main_v39 (idx_main_v40 (ix3 b n (hcol h d))) = ix4 b h n d := funext fun a => Fin.ext (by
    have hb := b.isLt; have hh := h.isLt; have hn := n.isLt; have hd := d.isLt
    match a with
    | ⟨0, _⟩ => show ((b.val * 2048 + n.val) * 1024 + (hcol h d).val) / 2097152 = b.val; rw [hcol_val]; omega
    | ⟨1, _⟩ => show ((b.val * 2048 + n.val) * 1024 + (hcol h d).val) / 64 % 16 = h.val; rw [hcol_val]; omega
    | ⟨2, _⟩ => show ((b.val * 2048 + n.val) * 1024 + (hcol h d).val) / 1024 % 2048 = n.val; rw [hcol_val]; omega
    | ⟨3, _⟩ => show ((b.val * 2048 + n.val) * 1024 + (hcol h d).val) % 64 = d.val; rw [hcol_val]; omega)
  rw [hi, val_main_v38_apply]
  have hl : ∀ k : Fin 2048, lidx_main_v38 (ix4 b h n d) k = ix4 b h n k := fun k => funext fun a => Fin.ext (by
    match a with | ⟨0, _⟩ => rfl | ⟨1, _⟩ => rfl | ⟨2, _⟩ => rfl | ⟨3, _⟩ => rfl)
  have hr : ∀ k : Fin 2048, ridx_main_v38 (ix4 b h n d) k = ix4 b h k d := fun k => funext fun a => Fin.ext (by
    match a with | ⟨0, _⟩ => rfl | ⟨1, _⟩ => rfl | ⟨2, _⟩ => rfl | ⟨3, _⟩ => rfl)
  simp only [hl, hr, v37_at, v23_at]
  rfl

end Cert.ReferenceIdeal.RefValue

end
-- ==== Proof.LibERealSum.lean ====
/-
  Finite sums, maxima and normalised exponentials of real numbers, seen inside the extended reals.

  The extended reals add the two infinities to the real line, and their arithmetic has corner cases at the infinities.
  When every number in sight is (the image of) a real number none of the corners is met: a finite sum of images is the
  image of the sum, a finite maximum of images over a non-empty index set is the image of a real number, and a
  quotient of exponentials may be computed on the real line.  These facts are stated here once, for any finite index
  type, so that a statement about extended-real arithmetic can be reduced to one about real arithmetic.
-/
import Idealize.ShloMosaic.PureOps.Ideal

noncomputable section

namespace Cert.ERealSum

open Idealize.ShloMosaic

/-- The image of a finite sum of reals is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of images of reals is the image of the real sum (the same fact, oriented for rewriting a sum). -/
theorem sum_coe {ι : Type} (s : Finset ι) (f : ι → ℝ) : ∑ i ∈ s, (f i : EReal) = ((∑ i ∈ s, f i : ℝ) : EReal) :=
  (coe_sum s f).symm

/-- An inner product of images of reals is the image of the real inner product. -/
theorem sum_mul_coe {ι : Type} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul _ _).symm

/-- A sum of exponentials of reals over a non-empty finite index type is a positive real. -/
theorem sum_exp_pos {J : Type} [Fintype J] [Nonempty J] (f : J → ℝ) : 0 < ∑ j, Real.exp (f j) :=
  Finset.sum_pos (fun j _ => Real.exp_pos (f j)) Finset.univ_nonempty

/-- Normalised exponentials do not change when the same real number is subtracted from every exponent: the common
    factor e^(-m) appears in the numerator and in the sum and cancels.  (Written with a product by the reciprocal on
    the left and on the right.) -/
theorem softmax_shift {J : Type} [Fintype J] [Nonempty J] (f : J → ℝ) (m : ℝ) (j : J) :
    Real.exp (f j) * (1 / ∑ j', Real.exp (f j')) = Real.exp (f j - m) * (1 / ∑ j', Real.exp (f j' - m)) := by
  have hS : (∑ j', Real.exp (f j')) ≠ 0 := (sum_exp_pos f).ne'
  have hm : Real.exp m ≠ 0 := (Real.exp_pos m).ne'
  have hT : ∑ j', Real.exp (f j' - m) = (∑ j', Real.exp (f j')) / Real.exp m := by
    rw [Finset.sum_div]
    exact Finset.sum_congr rfl fun j' _ => Real.exp_sub _ _
  rw [hT, Real.exp_sub]
  field_simp

/-- The extended-real exponential, at the image of a real, is the image of the real exponential; and a sum of such
    terms is the image of the real sum of exponentials. -/
theorem sum_exp_coe {J : Type} (s : Finset J) (f : J → ℝ) :
    ∑ j ∈ s, Ideal.exp ((f j : ℝ) : EReal) = ((∑ j ∈ s, Real.exp (f j) : ℝ) : EReal) := by
  rw [coe_sum]
  exact Finset.sum_congr rfl fun j _ => Ideal.exp_coe _

/-- Division of the image of a real by the image of a non-zero real is the image of the real product with the
    reciprocal. -/
theorem div_coe_coe (x : ℝ) {y : ℝ} (h : y ≠ 0) : Ideal.div (x : EReal) (y : EReal) = ((x * (1 / y) : ℝ) : EReal) := by
  rw [Ideal.div_coe h, EReal.coe_mul]

/-- A finite maximum, started from minus infinity, of images of reals over a non-empty finite set is the image of a
    real number. -/
theorem fold_max_coe {J : Type} (s : Finset J) (hs : s.Nonempty) (f : J → ℝ) :
    ∃ r : ℝ, s.fold max (⊥ : EReal) (fun j => (f j : EReal)) = (r : EReal) := by
  classical
  induction hs using Finset.Nonempty.cons_induction with
  | singleton a => exact ⟨f a, by simp⟩
  | cons a s ha hs ih =>
    obtain ⟨r, hr⟩ := ih
    refine ⟨max (f a) r, ?_⟩
    rw [Finset.fold_cons, hr]
    exact (EReal.coe_strictMono.monotone.map_max).symm

/-- The same over a whole non-empty finite index type. -/
theorem fold_max_univ_coe {J : Type} [Fintype J] [Nonempty J] (f : J → ℝ) :
    ∃ r : ℝ, (Finset.univ : Finset J).fold max (⊥ : EReal) (fun j => (f j : EReal)) = (r : EReal) :=
  fold_max_coe Finset.univ Finset.univ_nonempty f

/-- Taking the maximum with minus infinity once more changes nothing. -/
theorem max_bot_fold_max_univ_coe {J : Type} [Fintype J] [Nonempty J] (f : J → ℝ) :
    ∃ r : ℝ, max (⊥ : EReal) ((Finset.univ : Finset J).fold max (⊥ : EReal) (fun j => (f j : EReal))) = (r : EReal) := by
  obtain ⟨r, hr⟩ := fold_max_univ_coe f
  exact ⟨r, by rw [hr, max_eq_right bot_le]⟩

end Cert.ERealSum

end
-- ==== Proof.AttnMath.lean ====
/-
  The two normalisations agree on real data.

  Every quantity of the shared specification, evaluated at (images of) real numbers, is the image of a real number:
  an inner product of reals plus a real bias, a score, an exponential, a positive sum of exponentials, a reciprocal or
  quotient by that positive sum, and a weighted average of real values.  With both results written as images of real
  expressions, their equality is the real identity
      e^(s_j c) / Σ_j' e^(s_j' c)  =  e^(s_j c - m) / Σ_j' e^(s_j' c - m),
  together with the fact that scaling the query by c scales each score by c.
-/
import proofs.«117626_j75986561401090_2_alg».proof.Proof.Spec
import proofs.«117626_j75986561401090_2_alg».proof.Proof.LibERealSum

noncomputable section

namespace Cert.Attn

open Idealize.ShloMosaic Cert.ERealSum

/-! ### The three constants -/

/-- The scale is one eighth: sign 0, exponent field 124 = 127 - 3, significand field 0. -/
theorem c8_eq : c8 = ((1 / 8 : ℝ) : EReal) := by
  unfold c8
  simp [Ideal.ofBits, Ideal.ieee, -EReal.coe_mul]
  norm_num

/-- The word with exponent field 127 and significand field 0 is the number one. -/
theorem ofBits_one : Ideal.ofBits .f32 0x3F800000#32 = (1 : EReal) := by
  simp [Ideal.ofBits, Ideal.ieee, -EReal.coe_mul]; norm_num

/-- The word with the sign bit set, an all-ones exponent field and significand field 0 is minus infinity. -/
theorem ofBits_neg_inf : Ideal.ofBits .f32 0xFF800000#32 = (⊥ : EReal) := by
  simp [Ideal.ofBits, Ideal.ieee]

/-! ### A linear layer on real data -/

/-- A projected entry of real data is the image of the real inner product plus the real bias. -/
theorem proj_coe {E : Type} [Fintype E] (x w : E → ℝ) (b : ℝ) :
    proj (fun e => (x e : EReal)) (fun e => (w e : EReal)) (b : EReal) = (((∑ e, x e * w e) + b : ℝ) : EReal) := by
  unfold proj
  rw [sum_mul_coe, EReal.coe_add]

/-! ### Scores on real data -/

section
variable {D J : Type} [Fintype D]

/-- A score of real data is the image of the real inner product. -/
theorem score_coe (q : D → ℝ) (k : J → D → ℝ) (j : J) :
    score (fun d => (q d : EReal)) (fun j d => (k j d : EReal)) j = ((∑ d, q d * k j d : ℝ) : EReal) := by
  unfold score
  exact sum_mul_coe _ _ _

/-- Scaling every query entry by `c` scales the score by `c`: the factor moves out of the finite inner product. -/
theorem score_scaled_coe (c : ℝ) (q : D → ℝ) (k : J → D → ℝ) (j : J) :
    score (fun d => (q d : EReal) * (c : EReal)) (fun j d => (k j d : EReal)) j
      = (((∑ d, q d * k j d) * c : ℝ) : EReal) := by
  unfold score
  have h : ∀ d, ((q d : EReal) * (c : EReal)) * (k j d : EReal) = ((q d * c * k j d : ℝ) : EReal) := fun d => by
    rw [EReal.coe_mul, EReal.coe_mul]
  rw [Finset.sum_congr rfl fun d _ => h d, sum_coe, Finset.sum_mul]
  congr 1
  exact Finset.sum_congr rfl fun d _ => by ring

end

/-! ### The two weighted averages on real data -/

section
variable {D J : Type} [Fintype D] [Fintype J]

/-- The first normalisation, on real data with the query scaled by `c`, as the image of a real expression. -/
theorem headK_coe (c : ℝ) (q : D → ℝ) (k : J → D → ℝ) (v : J → ℝ) :
    headK (fun d => (q d : EReal) * (c : EReal)) (fun j d => (k j d : EReal)) (fun j => (v j : EReal))
      = ((∑ j, Real.exp ((∑ d, q d * k j d) * c) * (1 / ∑ j', Real.exp ((∑ d, q d * k j' d) * c)) * v j : ℝ) : EReal) := by
  unfold headK
  rw [coe_sum]
  refine Finset.sum_congr rfl fun j _ => ?_
  haveI : Nonempty J := ⟨j⟩
  have hS : (∑ j', Real.exp ((∑ d, q d * k j' d) * c)) ≠ 0 := (sum_exp_pos _).ne'
  rw [Finset.sum_congr rfl fun j' _ => congrArg Ideal.exp (score_scaled_coe c q k j'),
    sum_exp_coe Finset.univ fun j' => (∑ d, q d * k j' d) * c, score_scaled_coe, Ideal.exp_coe,
    ← EReal.coe_one, div_coe_coe 1 hS, one_mul, ← EReal.coe_mul, ← EReal.coe_mul]

/-- The second normalisation, on real data with scale `c` and shift `m`, as the image of a real expression. -/
theorem headR_coe (c m : ℝ) (q : D → ℝ) (k : J → D → ℝ) (v : J → ℝ) :
    headR (c : EReal) (m : EReal) (fun d => (q d : EReal)) (fun j d => (k j d : EReal)) (fun j => (v j : EReal))
      = ((∑ j, Real.exp ((∑ d, q d * k j d) * c - m) * (1 / ∑ j', Real.exp ((∑ d, q d * k j' d) * c - m)) * v j : ℝ)
          : EReal) := by
  unfold headR
  rw [coe_sum]
  refine Finset.sum_congr rfl fun j _ => ?_
  haveI : Nonempty J := ⟨j⟩
  have hS : (∑ j', Real.exp ((∑ d, q d * k j' d) * c - m)) ≠ 0 := (sum_exp_pos _).ne'
  have he : ∀ j', Ideal.exp (score (fun d => (q d : EReal)) (fun j d => (k j d : EReal)) j' * (c : EReal) - (m : EReal))
      = Ideal.exp (((∑ d, q d * k j' d) * c - m : ℝ) : EReal) := fun j' => by
    rw [score_coe, ← EReal.coe_mul, ← EReal.coe_sub]
  rw [Finset.sum_congr rfl fun j' _ => he j', sum_exp_coe Finset.univ fun j' => (∑ d, q d * k j' d) * c - m, he j,
    Ideal.exp_coe, zero_add, div_coe_coe _ hS, ← EReal.coe_mul]

/-- On real data the two normalisations give the same weighted average, whatever the real shift. -/
theorem headK_eq_headR (c m : ℝ) (q : D → ℝ) (k : J → D → ℝ) (v : J → ℝ) :
    headK (fun d => (q d : EReal) * (c : EReal)) (fun j d => (k j d : EReal)) (fun j => (v j : EReal))
      = headR (c : EReal) (m : EReal) (fun d => (q d : EReal)) (fun j d => (k j d : EReal)) (fun j => (v j : EReal)) := by
  rw [headK_coe, headR_coe]
  congr 1
  refine Finset.sum_congr rfl fun j _ => ?_
  haveI : Nonempty J := ⟨j⟩
  rw [softmax_shift (fun j' => (∑ d, q d * k j' d) * c) m j]

end

/-! ### The two programs on real inputs -/

section
variable (W' : Fin 3072 → Fin 1024 → ℝ) (B' : Fin 3072 → ℝ)

/-- An entry of a projection of real activations by real weights and bias is the image of a real number. -/
theorem lin_coe (X' : Fin 2 → Fin 2048 → Fin 1024 → ℝ) (o : Fin 3) (b : Fin 2) (n : Fin 2048) (c : Fin 1024) :
    lin (fun r e => (W' r e : EReal)) (fun r => (B' r : EReal)) (fun b n e => (X' b n e : EReal)) o b n c
      = (((∑ e, X' b n e * W' (wrow o c) e) + B' (wrow o c) : ℝ) : EReal) := by
  unfold lin
  exact proj_coe _ _ _

/-- On real inputs the two programs' results agree at every position, whatever the real shift: all three projections
    are real, the scale is the real number one eighth, and the two normalisations of real data agree. -/
theorem Gk_eq_Gr (X1' X2' : Fin 2 → Fin 2048 → Fin 1024 → ℝ) (m : ℝ) (b : Fin 2) (n : Fin 2048) (h : Fin 16)
    (d : Fin 64) :
    Gk (fun r e => (W' r e : EReal)) (fun r => (B' r : EReal)) (fun b n e => (X1' b n e : EReal))
        (fun b n e => (X2' b n e : EReal)) b n h d
      = Gr (fun r e => (W' r e : EReal)) (fun r => (B' r : EReal)) (fun b n e => (X1' b n e : EReal))
        (fun b n e => (X2' b n e : EReal)) (m : EReal) b n h d := by
  unfold Gk Gr
  simp only [lin_coe, c8_eq]
  exact headK_eq_headR (1 / 8) m _ _ _

end

/-- The same when the inputs and the shift are only known to be real entry by entry: choose the real arrays they are
    the images of. -/
theorem Gk_eq_Gr' (W : Fin 3072 → Fin 1024 → EReal) (B : Fin 3072 → EReal)
    (X1 X2 : Fin 2 → Fin 2048 → Fin 1024 → EReal) (m : EReal)
    (hW : ∀ r e, ∃ x : ℝ, W r e = x) (hB : ∀ r, ∃ x : ℝ, B r = x) (hX1 : ∀ b n e, ∃ x : ℝ, X1 b n e = x)
    (hX2 : ∀ b n e, ∃ x : ℝ, X2 b n e = x) (hm : ∃ x : ℝ, m = x) (b : Fin 2) (n : Fin 2048) (h : Fin 16)
    (d : Fin 64) : Gk W B X1 X2 b n h d = Gr W B X1 X2 m b n h d := by
  choose W' hW' using hW
  choose B' hB' using hB
  choose X1' hX1' using hX1
  choose X2' hX2' using hX2
  obtain ⟨m', rfl⟩ := hm
  obtain rfl : W = fun r e => (W' r e : EReal) := funext fun r => funext fun e => hW' r e
  obtain rfl : B = fun r => (B' r : EReal) := funext fun r => hB' r
  obtain rfl : X1 = fun b n e => (X1' b n e : EReal) := funext fun b => funext fun n => funext fun e => hX1' b n e
  obtain rfl : X2 = fun b n e => (X2' b n e : EReal) := funext fun b => funext fun n => funext fun e => hX2' b n e
  exact Gk_eq_Gr W' B' X1' X2' m' b n h d

/-! ### The shift is a real number -/

/-- The largest of finitely many real numbers (at least one), computed as a running maximum from minus infinity in the
    extended reals, is a real number. -/
theorem max_is_real {J : Type} [Fintype J] [Nonempty J] (f : J → ℝ) :
    ∃ r : ℝ, (Finset.univ : Finset J).fold max (⊥ : EReal) (fun j => (f j : EReal)) = (r : EReal) :=
  fold_max_univ_coe f

/-- So is its maximum with minus infinity. -/
theorem max_bot_max_is_real {J : Type} [Fintype J] [Nonempty J] (f : J → ℝ) :
    ∃ r : ℝ, max (⊥ : EReal) ((Finset.univ : Finset J).fold max (⊥ : EReal) (fun j => (f j : EReal))) = (r : EReal) :=
  max_bot_fold_max_univ_coe f

/-- The same for extended-real entries each known to be real. -/
theorem max_is_real' {J : Type} [Fintype J] [Nonempty J] (g : J → EReal) (hg : ∀ j, ∃ x : ℝ, g j = x) :
    ∃ r : ℝ, (Finset.univ : Finset J).fold max (⊥ : EReal) g = (r : EReal) := by
  choose f hf using hg
  obtain rfl : g = fun j => (f j : EReal) := funext hf
  exact max_is_real f

/-- And for its maximum with minus infinity. -/
theorem max_bot_max_is_real' {J : Type} [Fintype J] [Nonempty J] (g : J → EReal) (hg : ∀ j, ∃ x : ℝ, g j = x) :
    ∃ r : ℝ, max (⊥ : EReal) ((Finset.univ : Finset J).fold max (⊥ : EReal) g) = (r : EReal) := by
  choose f hf using hg
  obtain rfl : g = fun j => (f j : EReal) := funext hf
  exact max_bot_max_is_real f

end Cert.Attn

end
-- ==== Proof.AttnShift.lean ====
/-
  Reality of the intermediate quantities, and the agreement of the two programs at the reference's own shift.

  When every input entry is a real number, so is every projected entry, every score, every scaled score, and therefore
  the largest scaled score of a row (there are 2048 of them, at least one).  The second program subtracts exactly that
  largest scaled score, so its result is the first program's.
-/
import proofs.«117626_j75986561401090_2_alg».proof.Proof.AttnMath

noncomputable section

namespace Cert.Attn

open Idealize.ShloMosaic Cert.ERealSum

/-- A projected entry of entrywise real data is real. -/
theorem proj_real {E : Type} [Fintype E] (x w : E → EReal) (b : EReal) (hx : ∀ e, ∃ r : ℝ, x e = r)
    (hw : ∀ e, ∃ r : ℝ, w e = r) (hb : ∃ r : ℝ, b = r) : ∃ r : ℝ, proj x w b = r := by
  choose x' hx' using hx
  choose w' hw' using hw
  obtain ⟨b', rfl⟩ := hb
  obtain rfl : x = fun e => (x' e : EReal) := funext hx'
  obtain rfl : w = fun e => (w' e : EReal) := funext hw'
  exact ⟨_, proj_coe x' w' b'⟩

/-- A score of entrywise real data is real. -/
theorem score_real {D J : Type} [Fintype D] (q : D → EReal) (k : J → D → EReal) (hq : ∀ d, ∃ r : ℝ, q d = r)
    (hk : ∀ j d, ∃ r : ℝ, k j d = r) (j : J) : ∃ r : ℝ, score q k j = r := by
  choose q' hq' using hq
  choose k' hk' using hk
  obtain rfl : q = fun d => (q' d : EReal) := funext hq'
  obtain rfl : k = fun j d => (k' j d : EReal) := funext fun j => funext fun d => hk' j d
  exact ⟨_, score_coe q' k' j⟩

/-- A real number times the scale is real. -/
theorem mul_c8_real (x : EReal) (hx : ∃ r : ℝ, x = r) : ∃ r : ℝ, x * c8 = r := by
  obtain ⟨x', rfl⟩ := hx
  exact ⟨x' * (1 / 8), by rw [c8_eq, EReal.coe_mul]⟩

section
variable (W : Fin 3072 → Fin 1024 → EReal) (B : Fin 3072 → EReal)

/-- Every entry of a projection of entrywise real inputs is real. -/
theorem lin_real (X : Fin 2 → Fin 2048 → Fin 1024 → EReal) (hW : ∀ r e, ∃ x : ℝ, W r e = x) (hB : ∀ r, ∃ x : ℝ, B r = x)
    (hX : ∀ b n e, ∃ x : ℝ, X b n e = x) (o : Fin 3) (b : Fin 2) (n : Fin 2048) (c : Fin 1024) :
    ∃ x : ℝ, lin W B X o b n c = x := by
  unfold lin
  exact proj_real _ _ _ (hX b n) (hW _) (hB _)

variable (X1 X2 : Fin 2 → Fin 2048 → Fin 1024 → EReal)

/-- The scaled score of query row `n` against key row `j` in head `h` of batch entry `b`. -/
def sscore (b : Fin 2) (n : Fin 2048) (h : Fin 16) (j : Fin 2048) : EReal :=
  score (fun d' => lin W B X1 0 b n (hcol h d')) (fun j d' => lin W B X2 1 b j (hcol h d')) j * c8

/-- The reference's shift: the running maximum, from minus infinity, of the row's scaled scores. -/
def shift (b : Fin 2) (n : Fin 2048) (h : Fin 16) : EReal :=
  (Finset.univ : Finset (Fin 2048)).fold max (⊥ : EReal) (sscore W B X1 X2 b n h)

variable (hW : ∀ r e, ∃ x : ℝ, W r e = x) (hB : ∀ r, ∃ x : ℝ, B r = x) (hX1 : ∀ b n e, ∃ x : ℝ, X1 b n e = x)
  (hX2 : ∀ b n e, ∃ x : ℝ, X2 b n e = x)
include hW hB hX1 hX2

/-- Each scaled score of entrywise real inputs is real. -/
theorem sscore_real (b : Fin 2) (n : Fin 2048) (h : Fin 16) (j : Fin 2048) : ∃ x : ℝ, sscore W B X1 X2 b n h j = x :=
  mul_c8_real _ (score_real _ _ (fun d' => lin_real W B X1 hW hB hX1 0 b n (hcol h d'))
    (fun j d' => lin_real W B X2 hW hB hX2 1 b j (hcol h d')) j)

/-- The shift of entrywise real inputs is real. -/
theorem shift_real (b : Fin 2) (n : Fin 2048) (h : Fin 16) : ∃ x : ℝ, shift W B X1 X2 b n h = x :=
  max_is_real' _ (sscore_real W B X1 X2 hW hB hX1 hX2 b n h)

/-- So is its maximum with minus infinity. -/
theorem max_bot_shift_real (b : Fin 2) (n : Fin 2048) (h : Fin 16) : ∃ x : ℝ, max ⊥ (shift W B X1 X2 b n h) = x :=
  max_bot_max_is_real' _ (sscore_real W B X1 X2 hW hB hX1 hX2 b n h)

/-- On entrywise real inputs the first program's result is the second program's at the reference's own shift. -/
theorem Gk_eq_Gr_shift (b : Fin 2) (n : Fin 2048) (h : Fin 16) (d : Fin 64) :
    Gk W B X1 X2 b n h d = Gr W B X1 X2 (shift W B X1 X2 b n h) b n h d :=
  Gk_eq_Gr' W B X1 X2 _ hW hB hX1 hX2 (shift_real W B X1 X2 hW hB hX1 hX2 b n h) b n h d

/-- The same with the shift's maximum with minus infinity. -/
theorem Gk_eq_Gr_max_bot_shift (b : Fin 2) (n : Fin 2048) (h : Fin 16) (d : Fin 64) :
    Gk W B X1 X2 b n h d = Gr W B X1 X2 (max ⊥ (shift W B X1 X2 b n h)) b n h d :=
  Gk_eq_Gr' W B X1 X2 _ hW hB hX1 hX2 (max_bot_shift_real W B X1 X2 hW hB hX1 hX2 b n h) b n h d

end

end Cert.Attn

end
-- ==== Proof.RefReadShift.lean ====
/-
  The reference's shift is the largest scaled score of the row.

  The reference reduces each row of scaled scores with the maximum, starting from minus infinity, and then takes the
  maximum of the result with minus infinity once more.  Read at a row, the reduction is the running maximum of the row's
  2048 scaled scores.  When every input entry is a real number each scaled score is one, so this maximum — over a
  non-empty row — is a real number too.
-/
import proofs.«117626_j75986561401090_2_alg».proof.Proof.RefRead
import proofs.«117626_j75986561401090_2_alg».proof.Proof.AttnShift

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Attn

/-- The scores array reduces over its last axis to the array of rows. -/
theorem reduces_keys : S2x16x2048x2048.Reduces [3] S2x16x2048 := by decide

/-- A row's index with key `k` put back on the last axis. -/
theorem lift_keys (b : Fin 2) (h : Fin 16) (n : Fin 2048) (k : Fin (S2x16x2048x2048.size 3)) :
    reduces_keys.lift (ix3 b h n) k = ix4 b h n (⟨k.val, k.isLt⟩ : Fin 2048) := by
  funext c; apply Fin.ext
  fin_cases c <;> rfl

/-- The reference's shift is the maximum with minus infinity of the running maximum of the row's scaled scores. -/
theorem shift_eq (x0 x1 : (⟨S2x2048x1024, .f32⟩ : BufTy).Contents (Elt Ideal)) (x2 : (⟨S3072x1024, .f32⟩ : BufTy).Contents (Elt Ideal))
    (x3 : (⟨S3072, .f32⟩ : BufTy).Contents (Elt Ideal)) (b : Fin 2) (h : Fin 16) (n : Fin 2048) :
    shift x0 x1 x2 x3 b h n = max ⊥ (Cert.Attn.shift (Wm x2) (Bv x3) (Xa x0) (Xa x1) b n h) := by
  unfold shift
  rw [val_main_v29_apply, val_main_v28_apply, val_main_cst_1_apply]
  unfold val_main_v27
  rw [Host.reduce_eq_fold_single FloatOps.maximumf _ _ reducesTo_S2x16x2048x2048_S2x16x2048_d3 reduces_keys h_S_,
    val_main_cst_0_apply]
  have hf : (val_main_v26 (F := Ideal) x0 x1 x2 x3 ∘ reduces_keys.lift (ix3 b h n))
      = fun k : Fin 2048 => sscore (Wm x2) (Bv x3) (Xa x0) (Xa x1) b n h k := funext fun k => by
    show val_main_v26 (F := Ideal) x0 x1 x2 x3 (reduces_keys.lift (ix3 b h n) k) = _
    rw [lift_keys, v26_at]
    rfl
  rw [hf, Ideal.ofBits_def, ofBits_neg_inf]
  rfl

/-- On entrywise real inputs the reference's shift is a real number. -/
theorem shift_real (x0 x1 : (⟨S2x2048x1024, .f32⟩ : BufTy).Contents (Elt Ideal)) (x2 : (⟨S3072x1024, .f32⟩ : BufTy).Contents (Elt Ideal))
    (x3 : (⟨S3072, .f32⟩ : BufTy).Contents (Elt Ideal)) (h0 : ∀ i, ∃ r : ℝ, x0 i = r) (h1 : ∀ i, ∃ r : ℝ, x1 i = r)
    (h2 : ∀ i, ∃ r : ℝ, x2 i = r) (h3 : ∀ i, ∃ r : ℝ, x3 i = r) (b : Fin 2) (h : Fin 16) (n : Fin 2048) :
    ∃ r : ℝ, shift x0 x1 x2 x3 b h n = r := by
  rw [shift_eq]
  exact max_bot_shift_real (Wm x2) (Bv x3) (Xa x0) (Xa x1) (fun r e => h2 _) (fun r => h3 _) (fun b n e => h0 _)
    (fun b n e => h1 _) b n h

end Cert.ReferenceIdeal.RefValue

end
-- ==== Proof.PreReal.lean ====
/-
  What the precondition says: every input entry is a real number.

  The precondition is the conjunction, over the four input arrays, of "every entry x satisfies |x| < +infinity".  On the
  extended reals |x| is the larger of x and -x, which is +infinity exactly when x is one of the two infinities; so
  |x| < +infinity says that x is a real number.  A conjunction of one-bit words is 1 only if both words are 1, and an
  "and" over all the entries of an array of one-bit words is 1 only if every entry is 1.
-/
import proofs.«117626_j75986561401090_2_alg».proof.Pre_finite_inputs
import proofs.«117626_j75986561401090_2_alg».proof.Proof.Gen.Pre_finite_inputs
import Idealize.ShloMosaic.Lib.ReduceAll
import Idealize.ShloMosaic.Lib.ValueIdx
import Idealize.ShloMosaic.PureOps.Ideal.Laws

noncomputable section

namespace Cert.PreReal

open Idealize.ShloMosaic Idealize.ShloMosaic.ValueIdx Cert.Pre_finite_inputs

/-- The scalar shape has one index. -/
instance : Subsingleton S_.Idx := ⟨fun a b => funext fun d => d.elim0⟩

/-- The word with sign 0, an all-ones exponent field and significand field 0 is plus infinity. -/
theorem ofBits_pos_inf : Ideal.ofBits .f32 0x7F800000#32 = (⊤ : EReal) := by
  simp [Ideal.ofBits, Ideal.ieee]

/-- An extended real whose absolute value (the larger of it and its negation) is below plus infinity is a real number:
    at either infinity the larger of the two is plus infinity. -/
theorem real_of_abs_lt_inf (x : EReal) (h : Ideal.cmp .olt (max x (-x)) (Ideal.ofBits .f32 0x7F800000#32) = 1#1) :
    ∃ r : ℝ, x = r := by
  rw [ofBits_pos_inf] at h
  induction x using EReal.rec with
  | bot => simp [Ideal.cmp] at h
  | top => simp [Ideal.cmp] at h
  | coe r => exact ⟨r, rfl⟩

/-- If the "and" over all entries of "|a| < c" is 1, where every entry of `c` is the word of plus infinity, then every
    entry of `a` is a real number. -/
theorem real_of_all {s : Shape} {axes : List (Fin s.rank)} (a c : FVec Ideal s .f32)
    (hc : ∀ i, c i = Ideal.ofBits .f32 0x7F800000#32) (init : IVec S_ 1) (hr : s.ReducesTo axes S_) (hu : 0 < S_.numel)
    (e : Host.reduce IntOp.andi (cmpf .olt (Host.absf a) c) init hr hu ix0 = 1#1) (i : s.Idx) : ∃ r : ℝ, a i = r := by
  have hi := Host.reduce_andi_all _ init hr hu ix0 e i
  refine real_of_abs_lt_inf (a i) ?_
  rw [← hc i]
  exact hi

/-- The precondition gives: every entry of each of the four inputs is a real number. -/
theorem real_of_pre [hPre_finite_inputs : Cert.Pre_finite_inputs.Facts] (a0 a1 : FVec Ideal S2x2048x1024 .f32)
    (a2 : FVec Ideal S3072x1024 .f32) (a3 : FVec Ideal S3072 .f32)
    (h : Cert.Pre_finite_inputs.fn (F := Ideal) a0 a1 a2 a3 = (fun _ => 1#1)) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all a0 _ (fun _ => rfl) _ _ _ h0', real_of_all a1 _ (fun _ => rfl) _ _ _ h1,
    real_of_all a2 _ (fun _ => rfl) _ _ _ h2, real_of_all a3 _ (fun _ => rfl) _ _ _ h3⟩

end Cert.PreReal

end
-- ==== Proof.Bridge.lean ====
/-
  From the reference's result array to the first normalisation, under the precondition.

  The precondition makes every input entry a real number.  Then the reference's shift — the largest scaled score of
  the row — is a real number, and on real data the reference's normalisation (subtract the shift, exponentiate, divide
  by the sum) gives the same weighted average as the other one (scale the query, exponentiate, multiply by the
  reciprocal of the sum).  Every column of the result is a column of one of the sixteen heads, so two arrays of the
  result's shape that agree at every (batch entry, row, head, column of the head) are equal.
-/
import proofs.«117626_j75986561401090_2_alg».proof.Proof.RefReadShift
import proofs.«117626_j75986561401090_2_alg».proof.Proof.PreReal
import proofs.«117626_j75986561401090_2_alg».proof.Proof.AttnMath

noncomputable section

namespace Cert.Bridge

open Idealize.ShloMosaic Idealize.ShloMosaic.TcCoe Idealize.ShloMosaic.ValueIdx
open Cert.ReferenceIdeal Cert.ReferenceIdeal.Gen Cert.ReferenceIdeal.Read Cert.Attn
open Cert.ReferenceIdeal.RefValue (Wm Bv Xa ref_eq)

/-- Under the precondition the reference's result, at column `d` of head `h` of row `n` of batch entry `b`, is the
    first normalisation's weighted average of the projected inputs. -/
theorem ref_is_Gk [hPre_finite_inputs : Cert.Pre_finite_inputs.Facts]
    (x0 x1 : (⟨S2x2048x1024, .f32⟩ : BufTy).Contents (Elt Ideal)) (x2 : (⟨S3072x1024, .f32⟩ : BufTy).Contents (Elt Ideal))
    (x3 : (⟨S3072, .f32⟩ : BufTy).Contents (Elt Ideal))
    (hpre : Cert.Pre_finite_inputs.fn (F := Ideal) x0 x1 x2 x3 = (fun _ => 1#1))
    (b : Fin 2) (n : Fin 2048) (h : Fin 16) (d : Fin 64) :
    val_main_v40 (F := Ideal) x0 x1 x2 x3 (ix3 b n (hcol h d)) = Gk (Wm x2) (Bv x3) (Xa x0) (Xa x1) b n h d := by
  obtain ⟨h0, h1, h2, h3⟩ := Cert.PreReal.real_of_pre x0 x1 x2 x3 hpre
  rw [ref_eq]
  exact (Gk_eq_Gr' (Wm x2) (Bv x3) (Xa x0) (Xa x1) _ (fun r e => h2 _) (fun r => h3 _) (fun b n e => h0 _)
    (fun b n e => h1 _) (Cert.ReferenceIdeal.RefValue.shift_real x0 x1 x2 x3 h0 h1 h2 h3 b h n) b n h d).symm

/-- Every index of the result array is (batch entry, row, column `d` of head `h`) for some `b n h d`. -/
theorem idx_cover (i : (⟨3, ![2, 2048, 1024]⟩ : Shape).Idx) :
    ∃ (b : Fin 2) (n : Fin 2048) (h : Fin 16) (d : Fin 64), i = ix3 b n (hcol h d) := by
  obtain ⟨h, d, hc⟩ := exists_hcol (i 2)
  refine ⟨i 0, i 1, h, d, ?_⟩
  rw [← hc]
  exact eq_ix3 i

/-- Two arrays of the result's shape that agree at every such index are equal. -/
theorem ext_entries (f g : (⟨3, ![2, 2048, 1024]⟩ : Shape).Idx → EReal)
    (hfg : ∀ (b : Fin 2) (n : Fin 2048) (h : Fin 16) (d : Fin 64), f (ix3 b n (hcol h d)) = g (ix3 b n (hcol h d))) :
    f = g := by
  funext i
  obtain ⟨b, n, h, d, rfl⟩ := idx_cover i
  exact hfg b n h d

end Cert.Bridge

end
-- ==== Proof.lean ====
/-
  The certificate: a cross-attention layer computed by three kernel regions — a query projection with the softmax scale
  1/8 folded in, a fused key-and-value projection, and an attention body that exponentiates the scores as they are and
  multiplies by the reciprocal of their sum — against its plain reference, which scales the scores, subtracts each row's
  maximum before exponentiating and divides by the sum.

  The three frames: each program runs to its end without a fault and leaves its four argument arrays as it found them.
  For the two kernel programs this is the run over their five segments (two host stretches and three kernel regions);
  for the reference it is its run with the result dropped.

  The algebraic claim: at exact extended-real arithmetic both results are, entry by entry, the same function of the
  arguments. Every entry of the kernel's result is the specification's first form `Gk` of the argument arrays; every
  entry of the reference's result is its second form `Gr` with the row's maximum as the shift; and when every input is a
  finite real — which is the precondition — the two forms agree: the scale moves across the finite inner product, and
  e^(s - m) = e^s · e^(-m) with the positive factor e^(-m) cancelling between each exponential and their sum.
-/
import proofs.«117626_j75986561401090_2_alg».proof.Defs
import proofs.«117626_j75986561401090_2_alg».proof.Proof.Gen.Kernel
import proofs.«117626_j75986561401090_2_alg».proof.Proof.Gen.KernelIdeal
import proofs.«117626_j75986561401090_2_alg».proof.Proof.Gen.ReferenceIdeal
import proofs.«117626_j75986561401090_2_alg».proof.Proof.Gen.Pre_finite_inputs
import proofs.«117626_j75986561401090_2_alg».proof.Proof.Gen.ReferenceIdeal.Run
import proofs.«117626_j75986561401090_2_alg».proof.Proof.Gen.ReferenceIdeal.Read
import proofs.«117626_j75986561401090_2_alg».proof.Proof.BRun
import proofs.«117626_j75986561401090_2_alg».proof.Proof.KRun
import proofs.«117626_j75986561401090_2_alg».proof.Proof.KValue
import proofs.«117626_j75986561401090_2_alg».proof.Proof.Bridge
import Idealize.ShloMosaic.Adequacy
import Idealize.ShloMosaic.Init

noncomputable section

namespace Cert.Proof

open Idealize.ShloMosaic Idealize.SL.Sem

/-- The word-level kernel program runs to its end and leaves its arguments unchanged. -/
theorem frame_kernel [hPre_finite_inputs : Cert.Pre_finite_inputs.Facts] : Cert.frame_Kernel (hKernel := Cert.Kernel.Gen.facts) :=
  fun m ρ _ => Cert.Kernel.Frame.frame m ρ

/-- So does the idealized kernel program, -/
theorem frame_kernelIdeal [hPre_finite_inputs : Cert.Pre_finite_inputs.Facts] :
    Cert.frame_KernelIdeal (hKernelIdeal := Cert.KernelIdeal.Gen.facts) :=
  fun m ρ _ => Cert.KernelIdeal.Frame.frame m ρ

/-- and the reference: its run, the result dropped. -/
theorem frame_referenceIdeal [hPre_finite_inputs : Cert.Pre_finite_inputs.Facts] :
    Cert.frame_ReferenceIdeal (hReferenceIdeal := Cert.ReferenceIdeal.Gen.facts) :=
  fun m ρ _ => (θ_run Cert.ReferenceIdeal.defs _ _).mono (fun _ h c => (h c).2) (Cert.ReferenceIdeal.Value.run (F := Ideal) m ρ)

/-- From memories that agree on the four arguments, all finite, both programs run and end with equal results: the
    kernel's result array is `Gk` of the arguments at every entry, the reference's is `Gr` of them at its row maxima,
    and on finite reals the two are one function. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => (Cert.KernelIdeal.Frame.dat2 (Cert.KernelIdeal.Frame.T4 m) c).arrAt 3 Cert.KernelIdeal.cfg2.N,
    Cert.KernelIdeal.Frame.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2.1, (hagree c).2.2.2]
  refine Cert.Bridge.ext_entries _ _ fun b n h d => ?_
  rw [Cert.Bridge.ref_is_Gk _ _ _ _ (hpre c) b n h d]
  exact (Cert.KernelIdeal.Value.kernel_is_Gk m c b n h d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
